-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x8x32 : Shape := ⟨3, ![1, 8, 32]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x8x32 : S_.BroadcastsInDim S1x8x32 (![] : Fin 0 → Fin S1x8x32.rank)
  reducesTo_S1x8x32_S_d0_1_2 : S1x8x32.ReducesTo [0, 1, 2] S_

variable [Facts]

def fn_part1 {F : FTy → Type} [FloatOps F] (main_arg5 : FVec F S1x8x32 .f32) (main_v13 : IVec S_ 1) (main_v16 : IVec S1x8x32 1) : IVec S_ 1 :=
  let main_c_5 : IVec S_ 1 := constantI S_ 1 1#1
  let main_v17 : IVec S_ 1 := (fun x v => Host.reduce IntOp.andi x v reducesTo_S1x8x32_S_d0_1_2 h_S_) main_v16 main_c_5
  let main_v18 : IVec S_ 1 := andi main_v13 main_v17
  let main_v19 : FVec F S1x8x32 .f32 := Host.absf main_arg5
  let main_cst_6 : FVec F S_ .f32 := constant S_ .f32 0x7F800000#32
  let main_v20 : FVec F S1x8x32 .f32 := broadcastInDim S1x8x32 ![] bcast_S_S1x8x32 main_cst_6
  let main_v21 : IVec S1x8x32 1 := cmpf .olt main_v19 main_v20
  let main_c_7 : IVec S_ 1 := constantI S_ 1 1#1
  let main_v22 : IVec S_ 1 := (fun x v => Host.reduce IntOp.andi x v reducesTo_S1x8x32_S_d0_1_2 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S1x8x32 .f32) (main_arg5 : FVec F S1x8x32 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x8x32 .f32 := Host.absf main_arg4
  let main_cst_4 : FVec F S_ .f32 := constant S_ .f32 0x7F800000#32
  let main_v15 : FVec F S1x8x32 .f32 := broadcastInDim S1x8x32 ![] bcast_S_S1x8x32 main_cst_4
  let main_v16 : IVec S1x8x32 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x8x32 : Shape := ⟨3, ![1, 8, 32]⟩
abbrev S1x256 : Shape := ⟨2, ![1, 256]⟩
abbrev S_ : Shape := ⟨0, ![]⟩
abbrev S8 : Shape := ⟨1, ![8]⟩
abbrev S256x1 : Shape := ⟨2, ![256, 1]⟩
abbrev S1x8 : Shape := ⟨2, ![1, 8]⟩
abbrev S256x8 : Shape := ⟨2, ![256, 8]⟩
abbrev S256x16 : Shape := ⟨2, ![256, 16]⟩
abbrev S50000x16 : Shape := ⟨2, ![50000, 16]⟩
abbrev S2000x256 : Shape := ⟨2, ![2000, 256]⟩
abbrev S2000x16 : Shape := ⟨2, ![2000, 16]⟩
abbrev S50000x8 : Shape := ⟨2, ![50000, 8]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x8 : Shape := ⟨2, ![850000, 8]⟩
abbrev S850000x256 : Shape := ⟨2, ![850000, 256]⟩
abbrev S850000x8x32 : Shape := ⟨3, ![850000, 8, 32]⟩
abbrev S850000x8x1 : Shape := ⟨3, ![850000, 8, 1]⟩

abbrev nBuf : Space → Nat
  | .hbm => 121
  | .vmem => 9
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S1x8x32, .f32⟩
  | .hbm, ⟨5, _⟩ => ⟨S1x8x32, .f32⟩
  | .hbm, ⟨6, _⟩ => ⟨S1x256, .f32⟩
  | .hbm, ⟨7, _⟩ => ⟨S256, .f32⟩
  | .hbm, ⟨8, _⟩ => ⟨S256, .f32⟩
  | .hbm, ⟨9, _⟩ => ⟨S256, .i32⟩
  | .hbm, ⟨10, _⟩ => ⟨S_, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S256, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S256, .i1⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S8, .i32⟩
  | .hbm, ⟨29, _⟩ => ⟨S256x1, .i32⟩
  | .hbm, ⟨30, _⟩ => ⟨S1x8, .i32⟩
  | .hbm, ⟨31, _⟩ => ⟨S256x8, .i32⟩
  | .hbm, ⟨32, _⟩ => ⟨S256x8, .i32⟩
  | .hbm, ⟨33, _⟩ => ⟨S256x8, .i1⟩
  | .hbm, ⟨34, _⟩ => ⟨S256x8, .f32⟩
  | .hbm, ⟨35, _⟩ => ⟨S256x1, .f32⟩
  | .hbm, ⟨36, _⟩ => ⟨S256x8, .f32⟩
  | .hbm, ⟨37, _⟩ => ⟨S256x8, .f32⟩
  | .hbm, ⟨38, _⟩ => ⟨S256x1, .f32⟩
  | .hbm, ⟨39, _⟩ => ⟨S256x8, .f32⟩
  | .hbm, ⟨40, _⟩ => ⟨S256x8, .f32⟩
  | .hbm, ⟨41, _⟩ => ⟨S256x16, .f32⟩
  | .hbm, ⟨42, _⟩ => ⟨S50000x256, .bf16⟩
  | .hbm, ⟨43, _⟩ => ⟨S50000x16, .f32⟩
  | .hbm, ⟨44, _⟩ => ⟨S50000x8, .f32⟩
  | .hbm, ⟨45, _⟩ => ⟨S50000x8, .f32⟩
  | .hbm, ⟨46, _⟩ => ⟨S50000, .i32⟩
  | .hbm, ⟨47, _⟩ => ⟨S1x800000, .i32⟩
  | .hbm, ⟨48, _⟩ => ⟨S800000, .i32⟩
  | .hbm, ⟨49, _⟩ => ⟨S850000, .i32⟩
  | .hbm, ⟨50, _⟩ => ⟨S1x800000, .i32⟩
  | .hbm, ⟨51, _⟩ => ⟨S800000, .i32⟩
  | .hbm, ⟨52, _⟩ => ⟨S850000, .i32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x8, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000x8, .f32⟩
  | .hbm, ⟨71, _⟩ => ⟨S850000x8, .f32⟩
  | .hbm, ⟨72, _⟩ => ⟨S_, .f32⟩
  | .hbm, ⟨73, _⟩ => ⟨S_, .f32⟩
  | .hbm, ⟨74, _⟩ => ⟨S850000x8, .f32⟩
  | .hbm, ⟨75, _⟩ => ⟨S850000x8, .i1⟩
  | .hbm, ⟨76, _⟩ => ⟨S_, .f32⟩
  | .hbm, ⟨77, _⟩ => ⟨S850000x8, .f32⟩
  | .hbm, ⟨78, _⟩ => ⟨S850000x8, .f32⟩
  | .hbm, ⟨79, _⟩ => ⟨S850000x8, .f32⟩
  | .hbm, ⟨80, _⟩ => ⟨S_, .f32⟩
  | .hbm, ⟨81, _⟩ => ⟨S_, .f32⟩
  | .hbm, ⟨82, _⟩ => ⟨S850000x8, .f32⟩
  | .hbm, ⟨83, _⟩ => ⟨S850000x8, .f32⟩
  | .hbm, ⟨84, _⟩ => ⟨S850000x8, .f32⟩
  | .hbm, ⟨85, _⟩ => ⟨S_, .f32⟩
  | .hbm, ⟨86, _⟩ => ⟨S50000x8, .f32⟩
  | .hbm, ⟨87, _⟩ => ⟨S850000x1, .i32⟩
  | .hbm, ⟨88, _⟩ => ⟨S50000x8, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x8, .f32⟩
  | .hbm, ⟨98, _⟩ => ⟨S_, .f32⟩
  | .hbm, ⟨99, _⟩ => ⟨S850000x8, .f32⟩
  | .hbm, ⟨100, _⟩ => ⟨S850000x8, .f32⟩
  | .hbm, ⟨101, _⟩ => ⟨S850000x8, .f32⟩
  | .hbm, ⟨102, _⟩ => ⟨S_, .i32⟩
  | .hbm, ⟨103, _⟩ => ⟨S850000, .i32⟩
  | .hbm, ⟨104, _⟩ => ⟨S850000, .i1⟩
  | .hbm, ⟨105, _⟩ => ⟨S_, .i32⟩
  | .hbm, ⟨106, _⟩ => ⟨S850000, .i32⟩
  | .hbm, ⟨107, _⟩ => ⟨S850000, .i32⟩
  | .hbm, ⟨108, _⟩ => ⟨S850000, .i32⟩
  | .hbm, ⟨109, _⟩ => ⟨S850000x1, .i32⟩
  | .hbm, ⟨110, _⟩ => ⟨S850000x256, .bf16⟩
  | .hbm, ⟨111, _⟩ => ⟨S850000x256, .f32⟩
  | .hbm, ⟨112, _⟩ => ⟨S850000x8x32, .f32⟩
  | .hbm, ⟨113, _⟩ => ⟨S850000x8x1, .f32⟩
  | .hbm, ⟨114, _⟩ => ⟨S850000x8x32, .f32⟩
  | .hbm, ⟨115, _⟩ => ⟨S850000x8x32, .f32⟩
  | .hbm, ⟨116, _⟩ => ⟨S850000x256, .f32⟩
  | .hbm, ⟨117, _⟩ => ⟨S_, .f32⟩
  | .hbm, ⟨118, _⟩ => ⟨S50000x256, .f32⟩
  | .hbm, ⟨119, _⟩ => ⟨S850000x1, .i32⟩
  | .hbm, ⟨120, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S256x16, .f32⟩
  | .local _ .vmem, ⟨5, _⟩ => ⟨S2000x256, .bf16⟩
  | .local _ .vmem, ⟨6, _⟩ => ⟨S2000x256, .bf16⟩
  | .local _ .vmem, ⟨7, _⟩ => ⟨S2000x16, .f32⟩
  | .local _ .vmem, ⟨8, _⟩ => ⟨S2000x16, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19_0 : Ref sig .tc := ⟨.hbm, 42, rfl⟩
abbrev main_v19_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_0 : Ref sig .tc := ⟨.hbm, 53, rfl⟩
abbrev main_v29 : Ref sig .tc := ⟨.hbm, 54, rfl⟩
abbrev main_v30 : Ref sig .tc := ⟨.hbm, 55, rfl⟩
abbrev main_c_1 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_2 : Ref sig .tc := ⟨.hbm, 62, rfl⟩
abbrev main_v36 : Ref sig .tc := ⟨.hbm, 63, rfl⟩
abbrev main_v37 : Ref sig .tc := ⟨.hbm, 64, rfl⟩
abbrev main_c_3 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v44 : Ref sig .tc := ⟨.hbm, 79, rfl⟩
abbrev main_cst_4 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_5 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_c_6 : Ref sig .tc := ⟨.hbm, 89, rfl⟩
abbrev main_v52 : Ref sig .tc := ⟨.hbm, 90, rfl⟩
abbrev main_v53 : Ref sig .tc := ⟨.hbm, 91, rfl⟩
abbrev main_c_7 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_8 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_9 : Ref sig .tc := ⟨.hbm, 102, rfl⟩
abbrev main_v62 : Ref sig .tc := ⟨.hbm, 103, rfl⟩
abbrev main_v63 : Ref sig .tc := ⟨.hbm, 104, rfl⟩
abbrev main_c_10 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_11 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  shapeCasts_S1x8x32_S256 : S1x8x32.ShapeCasts S256
  bcast_S_S256 : S_.BroadcastsInDim S256 (![] : Fin 0 → Fin S256.rank)
  bcast_S256_S256x1_0 : S256.BroadcastsInDim S256x1 (![0] : Fin 1 → Fin S256x1.rank)
  bcast_S8_S1x8_1 : S8.BroadcastsInDim S1x8 (![1] : Fin 1 → Fin S1x8.rank)
  bcast_S256x1_S256x8_0_1 : S256x1.BroadcastsInDim S256x8 (![0, 1] : Fin 2 → Fin S256x8.rank)
  bcast_S1x8_S256x8_0_1 : S1x8.BroadcastsInDim S256x8 (![0, 1] : Fin 2 → Fin S256x8.rank)
  concatenates_S256x8_S256x8_S256x16_d1 : Shape.Concatenates [S256x8, S256x8] S256x16 1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  packedbf16_S2000x256_S2000x256_0_0 : (Rect.unit (s := S2000x256) ![0, 0] S2000x256.size inb_S2000x256_S2000x256_0_0).PackedRows (EltTy.packing .bf16)
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S2000x16_S2000x16_0_0 : ∀ a, (![0, 0] : Fin 2 → Nat) a + S2000x16.size a ≤ S2000x16.size a
  h_S2000x16 : 0 < S2000x16.numel
  slices_S50000x16_S50000x8_0_0 : S50000x16.Slices ![0, 0] S50000x8
  slices_S50000x16_S50000x8_0_8 : S50000x16.Slices ![0, 8] S50000x8
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  bcast_S_S850000x8 : S_.BroadcastsInDim S850000x8 (![] : Fin 0 → Fin S850000x8.rank)
  reducesTo_S850000x8_S_d0_1 : S850000x8.ReducesTo [0, 1] S_
  h_S_ : 0 < S_.numel
  bcast_S_S50000x8 : S_.BroadcastsInDim S50000x8 (![] : Fin 0 → Fin S50000x8.rank)
  shapeCasts_S850000x256_S850000x8x32 : S850000x256.ShapeCasts S850000x8x32
  bcast_S850000x8_S850000x8x1_0_1 : S850000x8.BroadcastsInDim S850000x8x1 (![0, 1] : Fin 2 → Fin S850000x8x1.rank)
  bcast_S850000x8x1_S850000x8x32_0_1_2 : S850000x8x1.BroadcastsInDim S850000x8x32 (![0, 1, 2] : Fin 3 → Fin S850000x8x32.rank)
  shapeCasts_S850000x8x32_S850000x256 : S850000x8x32.ShapeCasts S850000x256
  bcast_S_S50000x256 : S_.BroadcastsInDim S50000x256 (![] : Fin 0 → Fin S50000x256.rank)
  dot_S2000x256_S256x256_S2000x256_1_0_0_1_n_n_wf : DotDims.WF S2000x256 S256x256 S2000x256 [1] [0] [0] [1] [] []
  dot_S2000x256_S256x16_S2000x16_1_0_0_1_n_n_wf : DotDims.WF S2000x256 S256x16 S2000x16 [1] [0] [0] [1] [] []
  gather_S50000x8_S850000x1_S850000x8_1_0_n_n_0_1_18_wf : GatherDims.WF S50000x8 S850000x1 S850000x8 [1] [0] [] [0] [] 1 ![1, 8]
  scatter_S50000x8_S850000x1_S850000x8_1_0_0_1_wf : ScatterDims.WF S50000x8 S850000x1 S850000x8 [1] [0] [0] 1
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .bf16 = 32 ∨ (Rect.block (s := S50000x256) S2000x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x16.size a ≤ S50000x16.size a
  hwx0_5 : ∀ i : grid0.Coords, EltTy.bits .f32 = 32 ∨ (Rect.block (s := S50000x16) S2000x16.size (cc0_transform_5 i) (hinb0_5 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf
def gather_S50000x8_S850000x1_S850000x8_1_0_n_n_0_1_18 : GatherDims S50000x8 S850000x1 S850000x8 where
  offsetDims := [1]
  collapsedSliceDims := [0]
  operandBatchingDims := []
  startIndicesBatchingDims := []
  startIndexMap := [0]
  indexVectorDim := 1
  sliceSizes := ![1, 8]
  wf := gather_S50000x8_S850000x1_S850000x8_1_0_n_n_0_1_18_wf
def scatter_S50000x8_S850000x1_S850000x8_1_0_0_1 : ScatterDims S50000x8 S850000x1 S850000x8 where
  updateWindowDims := [1]
  insertedWindowDims := [0]
  scatterDimsToOperandDims := [0]
  indexVectorDim := 1
  wf := scatter_S50000x8_S850000x1_S850000x8_1_0_0_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S2000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x8x32 : Shape := ⟨3, ![1, 8, 32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S1x256 : Shape := ⟨2, ![1, 256]⟩
abbrev S50000x8x32 : Shape := ⟨3, ![50000, 8, 32]⟩
abbrev S_ : Shape := ⟨0, ![]⟩
abbrev S50000x8 : Shape := ⟨2, ![50000, 8]⟩
abbrev S850000x1 : Shape := ⟨2, ![850000, 1]⟩
abbrev S850000x8 : Shape := ⟨2, ![850000, 8]⟩
abbrev S850000x8x32 : Shape := ⟨3, ![850000, 8, 32]⟩
abbrev S850000x8x1 : Shape := ⟨3, ![850000, 8, 1]⟩

abbrev nBuf : Space → Nat
  | .hbm => 92
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S1x8x32, .f32⟩
  | .hbm, ⟨5, _⟩ => ⟨S1x8x32, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x256, .f32⟩
  | .hbm, ⟨14, _⟩ => ⟨S1x256, .f32⟩
  | .hbm, ⟨15, _⟩ => ⟨S50000x256, .f32⟩
  | .hbm, ⟨16, _⟩ => ⟨S50000x256, .f32⟩
  | .hbm, ⟨17, _⟩ => ⟨S50000x8x32, .f32⟩
  | .hbm, ⟨18, _⟩ => ⟨S50000x8x32, .f32⟩
  | .hbm, ⟨19, _⟩ => ⟨S50000x8x32, .f32⟩
  | .hbm, ⟨20, _⟩ => ⟨S_, .f32⟩
  | .hbm, ⟨21, _⟩ => ⟨S50000x8, .f32⟩
  | .hbm, ⟨22, _⟩ => ⟨S50000x8x32, .f32⟩
  | .hbm, ⟨23, _⟩ => ⟨S50000x8x32, .f32⟩
  | .hbm, ⟨24, _⟩ => ⟨S_, .f32⟩
  | .hbm, ⟨25, _⟩ => ⟨S50000x8, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000x8, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000x8, .f32⟩
  | .hbm, ⟨44, _⟩ => ⟨S850000x8, .f32⟩
  | .hbm, ⟨45, _⟩ => ⟨S_, .f32⟩
  | .hbm, ⟨46, _⟩ => ⟨S_, .f32⟩
  | .hbm, ⟨47, _⟩ => ⟨S850000x8, .f32⟩
  | .hbm, ⟨48, _⟩ => ⟨S850000x8, .i1⟩
  | .hbm, ⟨49, _⟩ => ⟨S_, .f32⟩
  | .hbm, ⟨50, _⟩ => ⟨S850000x8, .f32⟩
  | .hbm, ⟨51, _⟩ => ⟨S850000x8, .f32⟩
  | .hbm, ⟨52, _⟩ => ⟨S850000x8, .f32⟩
  | .hbm, ⟨53, _⟩ => ⟨S_, .f32⟩
  | .hbm, ⟨54, _⟩ => ⟨S_, .f32⟩
  | .hbm, ⟨55, _⟩ => ⟨S850000x8, .f32⟩
  | .hbm, ⟨56, _⟩ => ⟨S850000x8, .f32⟩
  | .hbm, ⟨57, _⟩ => ⟨S850000x8, .f32⟩
  | .hbm, ⟨58, _⟩ => ⟨S_, .f32⟩
  | .hbm, ⟨59, _⟩ => ⟨S50000x8, .f32⟩
  | .hbm, ⟨60, _⟩ => ⟨S850000x1, .i32⟩
  | .hbm, ⟨61, _⟩ => ⟨S50000x8, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000x8, .f32⟩
  | .hbm, ⟨71, _⟩ => ⟨S_, .f32⟩
  | .hbm, ⟨72, _⟩ => ⟨S850000x8, .f32⟩
  | .hbm, ⟨73, _⟩ => ⟨S850000x8, .f32⟩
  | .hbm, ⟨74, _⟩ => ⟨S850000x8, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x8x32, .f32⟩
  | .hbm, ⟨84, _⟩ => ⟨S850000x8x1, .f32⟩
  | .hbm, ⟨85, _⟩ => ⟨S850000x8x32, .f32⟩
  | .hbm, ⟨86, _⟩ => ⟨S850000x8x32, .f32⟩
  | .hbm, ⟨87, _⟩ => ⟨S_, .f32⟩
  | .hbm, ⟨88, _⟩ => ⟨S50000x8x32, .f32⟩
  | .hbm, ⟨89, _⟩ => ⟨S850000x1, .i32⟩
  | .hbm, ⟨90, _⟩ => ⟨S50000x8x32, .f32⟩
  | .hbm, ⟨91, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S50000x256_S50000x8x32 : S50000x256.ShapeCasts S50000x8x32
  bcast_S1x8x32_S50000x8x32_0_1_2 : S1x8x32.BroadcastsInDim S50000x8x32 (![0, 1, 2] : Fin 3 → Fin S50000x8x32.rank)
  reducesTo_S50000x8x32_S50000x8_d2 : S50000x8x32.ReducesTo [2] S50000x8
  h_S_ : 0 < S_.numel
  bcast_S_S850000 : S_.BroadcastsInDim S850000 (![] : Fin 0 → Fin S850000.rank)
  bcast_S850000_S850000x1_0 : S850000.BroadcastsInDim S850000x1 (![0] : Fin 1 → Fin S850000x1.rank)
  bcast_S_S850000x8 : S_.BroadcastsInDim S850000x8 (![] : Fin 0 → Fin S850000x8.rank)
  reducesTo_S850000x8_S_d0_1 : S850000x8.ReducesTo [0, 1] S_
  bcast_S_S50000x8 : S_.BroadcastsInDim S50000x8 (![] : Fin 0 → Fin S50000x8.rank)
  bcast_S850000x8_S850000x8x1_0_1 : S850000x8.BroadcastsInDim S850000x8x1 (![0, 1] : Fin 2 → Fin S850000x8x1.rank)
  bcast_S850000x8x1_S850000x8x32_0_1_2 : S850000x8x1.BroadcastsInDim S850000x8x32 (![0, 1, 2] : Fin 3 → Fin S850000x8x32.rank)
  bcast_S_S50000x8x32 : S_.BroadcastsInDim S50000x8x32 (![] : Fin 0 → Fin S50000x8x32.rank)
  shapeCasts_S50000x8x32_S50000x256 : S50000x8x32.ShapeCasts S50000x256
  dot_S50000x256_S256x256_S50000x256_1_0_0_1_n_n_wf : DotDims.WF S50000x256 S256x256 S50000x256 [1] [0] [0] [1] [] []
  gather_S50000x8_S850000x1_S850000x8_1_0_n_n_0_1_18_wf : GatherDims.WF S50000x8 S850000x1 S850000x8 [1] [0] [] [0] [] 1 ![1, 8]
  scatter_S50000x8_S850000x1_S850000x8_1_0_0_1_wf : ScatterDims.WF S50000x8 S850000x1 S850000x8 [1] [0] [0] 1
  gather_S50000x8x32_S850000x1_S850000x8x32_12_0_n_n_0_1_1832_wf : GatherDims.WF S50000x8x32 S850000x1 S850000x8x32 [1, 2] [0] [] [0] [] 1 ![1, 8, 32]
  scatter_S50000x8x32_S850000x1_S850000x8x32_12_0_0_1_wf : ScatterDims.WF S50000x8x32 S850000x1 S850000x8x32 [1, 2] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x8_S850000x1_S850000x8_1_0_n_n_0_1_18 : GatherDims S50000x8 S850000x1 S850000x8 where
  offsetDims := [1]
  collapsedSliceDims := [0]
  operandBatchingDims := []
  startIndicesBatchingDims := []
  startIndexMap := [0]
  indexVectorDim := 1
  sliceSizes := ![1, 8]
  wf := gather_S50000x8_S850000x1_S850000x8_1_0_n_n_0_1_18_wf
def scatter_S50000x8_S850000x1_S850000x8_1_0_0_1 : ScatterDims S50000x8 S850000x1 S850000x8 where
  updateWindowDims := [1]
  insertedWindowDims := [0]
  scatterDimsToOperandDims := [0]
  indexVectorDim := 1
  wf := scatter_S50000x8_S850000x1_S850000x8_1_0_0_1_wf
def gather_S50000x8x32_S850000x1_S850000x8x32_12_0_n_n_0_1_1832 : GatherDims S50000x8x32 S850000x1 S850000x8x32 where
  offsetDims := [1, 2]
  collapsedSliceDims := [0]
  operandBatchingDims := []
  startIndicesBatchingDims := []
  startIndexMap := [0]
  indexVectorDim := 1
  sliceSizes := ![1, 8, 32]
  wf := gather_S50000x8x32_S850000x1_S850000x8x32_12_0_n_n_0_1_1832_wf
def scatter_S50000x8x32_S850000x1_S850000x8x32_12_0_0_1 : ScatterDims S50000x8x32 S850000x1 S850000x8x32 where
  updateWindowDims := [1, 2]
  insertedWindowDims := [0]
  scatterDimsToOperandDims := [0]
  indexVectorDim := 1
  wf := scatter_S50000x8x32_S850000x1_S850000x8x32_12_0_0_1_wf

class Facts : Prop extends Facts₀ where

variable [Facts]
-- ==== Proof.FrameBits.lean ====
/- The frame of `Kernel`: @main is three stretches of host operations, one region on a grid of 25 points, and three
   more stretches. This module states what the region finds in each buffer (the fold of the earlier operations over the
   launch memory), what its body leaves in each window's staging buffer, runs @main through the region and the later
   operations, and reads the frame claim (every argument array ends as launched) off that run. -/
import proofs.«125745_j54700703481984_2_alg».proof.Proof.Gen.Kernel.Launch
import proofs.«125745_j54700703481984_2_alg».proof.Proof.Gen.Kernel.Skeleton
import proofs.«125745_j54700703481984_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- a rectangle of 2000 rows: structural recursion over a long axis goes as deep as the axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: the 36 host operations before it, in order, folded over the
    launch memory. -/
abbrev V0 (c : Dev nD) : Valuation τ sig (Elt F) := StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

/-! ## What the host operations write

Every host operation of @main writes exactly one buffer, its result, named by a literal reference. That a given
reference is not written by any operation of a stretch is therefore one inequality of literal references per operation,
each decided; the stretch is never split into cases. -/

/-- `r` is the result buffer of no operation of the list. -/
abbrev Unwritten (r : Ref sig .tc) (ops : List (HloOp τ sig (Elt F))) : Prop :=
  ops.Forall fun op => Proc.devRef .tc r ∉ op.writes

/-- No window's array is the result buffer of an operation of the list. -/
abbrev ArraysUnwritten (ops : List (HloOp τ sig (Elt F))) : Prop :=
  ops.Forall fun op => ∀ w, Proc.devRef .tc (Pipeline.arrRef spec0 w) ∉ op.writes

/-- Opens a literal list of operations into one inequality of references per operation and decides each. -/
local macro "refs_apart" : tactic => `(tactic| (
  simp only [hostOps0, hostOps0_1, hostOps0_2, hostOps1, hostOps1_1, hostOps1_2,
    List.flatten_cons, List.flatten_nil, List.append_nil, List.cons_append, List.nil_append, List.Forall,
    StableHlo.TRef.nullary, StableHlo.TRef.unary, StableHlo.TRef.binary, StableHlo.TRef.ternary,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The same with the reference ranging over the six windows' arrays. -/
local macro "arrays_apart" : tactic => `(tactic| (
  simp only [hostOps1, hostOps1_1, hostOps1_2, List.Forall,
    StableHlo.TRef.nullary, StableHlo.TRef.unary, StableHlo.TRef.binary, StableHlo.TRef.ternary,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals (intro w; exact StableHlo.devRef_ne_of_ne (by revert w; decide))))

/-- A buffer no earlier operation writes is found by the region as launched. -/
theorem V_of (c : Dev nD) (r : Ref sig .tc) (h : Unwritten (F := F) r (List.flatten [hostOps0, hostOps0_1, hostOps0_2])) :
    V m c r = m ((c : Thread nD τ).loc r) :=
  StableHlo.after_of_forall_not_mem (b := Proc.devRef .tc r) _ _ (List.forall_iff_forall_mem.mp h)

/-- None of the six arguments is the result of an operation before the region. -/
theorem V_main_arg0 (c : Dev nD) : V m c main_arg0 = m ((c : Thread nD τ).loc main_arg0) := V_of m c main_arg0 (by refs_apart)
theorem V_main_arg1 (c : Dev nD) : V m c main_arg1 = m ((c : Thread nD τ).loc main_arg1) := V_of m c main_arg1 (by refs_apart)
theorem V_main_arg2 (c : Dev nD) : V m c main_arg2 = m ((c : Thread nD τ).loc main_arg2) := V_of m c main_arg2 (by refs_apart)
theorem V_main_arg3 (c : Dev nD) : V m c main_arg3 = m ((c : Thread nD τ).loc main_arg3) := V_of m c main_arg3 (by refs_apart)
theorem V_main_arg4 (c : Dev nD) : V m c main_arg4 = m ((c : Thread nD τ).loc main_arg4) := V_of m c main_arg4 (by refs_apart)
theorem V_main_arg5 (c : Dev nD) : V m c main_arg5 = m ((c : Thread nD τ).loc main_arg5) := V_of m c main_arg5 (by refs_apart)

/-- A buffer that is no window's array and that no later operation writes ends as the region found it. -/
theorem W_of (dats' : (p : Fin 1) → (c : Dev nD) → Dat τ (Elt F) Unit ℕ (UR sig nD τ) ℕ (cfgs p) c) (c : Dev nD) (r : Ref sig .tc)
    (hr : ∀ w, Pipeline.arrRef spec0 w ≠ r) (h : Unwritten (F := F) r (List.flatten [hostOps1, hostOps1_1, hostOps1_2])) :
    Pipeline.afterTail₀ cfgs dats' 0 (V0 m) [hostOps1, hostOps1_1, hostOps1_2] c r = V m c r := by
  unfold Pipeline.afterTail₀
  rw [StableHlo.after_of_forall_not_mem (b := Proc.devRef .tc r) _ _ (List.forall_iff_forall_mem.mp h),
    Pipeline.withArrays_of_ne _ c (V0 m c) _ r hr]

/-- The four arguments no window stages are the result of no later operation either: they end as launched. -/
theorem W_main_arg1 (dats' : (p : Fin 1) → (c : Dev nD) → Dat τ (Elt F) Unit ℕ (UR sig nD τ) ℕ (cfgs p) c) (c : Dev nD) :
    Pipeline.afterTail₀ cfgs dats' 0 (V0 m) [hostOps1, hostOps1_1, hostOps1_2] c main_arg1 = m ((c : Thread nD τ).loc main_arg1) :=
  (W_of m dats' c main_arg1 (by decide) (by refs_apart)).trans (V_main_arg1 m c)
theorem W_main_arg3 (dats' : (p : Fin 1) → (c : Dev nD) → Dat τ (Elt F) Unit ℕ (UR sig nD τ) ℕ (cfgs p) c) (c : Dev nD) :
    Pipeline.afterTail₀ cfgs dats' 0 (V0 m) [hostOps1, hostOps1_1, hostOps1_2] c main_arg3 = m ((c : Thread nD τ).loc main_arg3) :=
  (W_of m dats' c main_arg3 (by decide) (by refs_apart)).trans (V_main_arg3 m c)
theorem W_main_arg4 (dats' : (p : Fin 1) → (c : Dev nD) → Dat τ (Elt F) Unit ℕ (UR sig nD τ) ℕ (cfgs p) c) (c : Dev nD) :
    Pipeline.afterTail₀ cfgs dats' 0 (V0 m) [hostOps1, hostOps1_1, hostOps1_2] c main_arg4 = m ((c : Thread nD τ).loc main_arg4) :=
  (W_of m dats' c main_arg4 (by decide) (by refs_apart)).trans (V_main_arg4 m c)
theorem W_main_arg5 (dats' : (p : Fin 1) → (c : Dev nD) → Dat τ (Elt F) Unit ℕ (UR sig nD τ) ℕ (cfgs p) c) (c : Dev nD) :
    Pipeline.afterTail₀ cfgs dats' 0 (V0 m) [hostOps1, hostOps1_1, hostOps1_2] c main_arg5 = m ((c : Thread nD τ).loc main_arg5) :=
  (W_of m dats' c main_arg5 (by decide) (by refs_apart)).trans (V_main_arg5 m c)

/-! ## @main around the region -/

/-- No host operation allocates. -/
theorem fresh0 : (hostOps0 : List (HloOp τ sig (Elt F))).Forall fun op => op.fresh = ∅ := by
  simp only [hostOps0, List.Forall]; repeat' constructor
theorem fresh0_1 : (hostOps0_1 : List (HloOp τ sig (Elt F))).Forall fun op => op.fresh = ∅ := by
  simp only [hostOps0_1, List.Forall]; repeat' constructor
theorem fresh0_2 : (hostOps0_2 : List (HloOp τ sig (Elt F))).Forall fun op => op.fresh = ∅ := by
  simp only [hostOps0_2, List.Forall]; repeat' constructor
theorem fresh1 : (hostOps1 : List (HloOp τ sig (Elt F))).Forall fun op => op.fresh = ∅ := by
  simp only [hostOps1, List.Forall]; repeat' constructor
theorem fresh1_1 : (hostOps1_1 : List (HloOp τ sig (Elt F))).Forall fun op => op.fresh = ∅ := by
  simp only [hostOps1_1, List.Forall]; repeat' constructor
theorem fresh1_2 : (hostOps1_2 : List (HloOp τ sig (Elt F))).Forall fun op => op.fresh = ∅ := by
  simp only [hostOps1_2, List.Forall]; repeat' constructor

/-- @main is the three earlier stretches, the region, the three later stretches: run from the launch memory it reaches
    the region with the buffers at `V`, and continues after it with the later stretches. -/
theorem pre_sub : ([hostOps0, hostOps0_1, hostOps0_2] : List (List (HloOp τ sig (Elt F)))).Forall fun ops => ops.Forall fun op => op.bufs ⊆ StableHlo.tcRefs τ sig :=
  ⟨hostOps0_sub, hostOps0_1_sub, hostOps0_2_sub⟩
theorem pre_fresh : ([hostOps0, hostOps0_1, hostOps0_2] : List (List (HloOp τ sig (Elt F)))).Forall fun ops => ops.Forall fun op => op.fresh = ∅ :=
  ⟨fresh0, fresh0_1, fresh0_2⟩
theorem main_around (c : Dev nD) : main (F := F) c = Pipeline.chain (([hostOps0, hostOps0_1, hostOps0_2] : List (List (HloOp τ sig (Elt F)))).map StableHlo.seq
    ++ [Prog.lift (.customCall (Pipeline.entry 0) ())] ++ ([hostOps1, hostOps1_1, hostOps1_2] : List (List (HloOp τ sig (Elt F)))).map StableHlo.seq) := by
  rw [main_chain]
  simp only [List.map_cons, List.map_nil, List.cons_append, List.nil_append]
theorem hmain (𝒱₀ : Variants) : Pipeline.HMainK (Ix := Unit) (Name := ℕ) (U := UR sig nD τ) (Lvl := ℕ) cfgs 0 defs₀ 𝒱₀ m (main (F := F)) (V m)
      (fun _ => Pipeline.chain (([hostOps1, hostOps1_1, hostOps1_2] : List (List (HloOp τ sig (Elt F)))).map StableHlo.seq)) :=
  Pipeline.hmain_around cfgs 0 defs₀ 𝒱₀ m main [hostOps0, hostOps0_1, hostOps0_2] [hostOps1, hostOps1_1, hostOps1_2]
    pre_sub pre_fresh main_around

/-- The window arrays are results of the region or of earlier operations, never of a later one. -/
theorem keep1 : ArraysUnwritten (F := F) hostOps1 := by arrays_apart
theorem keep1_1 : ArraysUnwritten (F := F) hostOps1_1 := by arrays_apart
theorem keep1_2 : ArraysUnwritten (F := F) hostOps1_2 := by arrays_apart

/-- The later operations touch unscoped TensorCore buffers only: with nothing prefetched, each such buffer is a window's
    array or bypasses the region. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp fresh1) op hop
  · exact (List.forall_iff_forall_mem.mp fresh1_1) op hop
  · exact (List.forall_iff_forall_mem.mp fresh1_2) op hop
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp keep1) op hop
  · exact (List.forall_iff_forall_mem.mp keep1_1) op hop
  · exact (List.forall_iff_forall_mem.mp keep1_2) op hop

/-! ## The windows' blocks and the body's accesses -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point of the grid, whether the point fetches it
    or not (an unfetched point has the block index of the point before), for any proof data whose array is the region's
    (`hA`) and whose body leaves the block in place (`hafter`). The four input windows are whole, never idle. -/
theorem found0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body reads and writes each staging buffer whole: one unit-stride rectangle per buffer shape. -/
abbrev rX : Rect S2000x256 := Rect.unit (s := S2000x256) ![0, 0] S2000x256.size inb_S2000x256_S2000x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rS : Rect S256x16 := Rect.unit (s := S256x16) ![0, 0] S256x16.size inb_S256x16_S256x16_0_0
abbrev rL : Rect S2000x16 := Rect.unit (s := S2000x16) ![0, 0] S2000x16.size inb_S2000x16_S2000x16_0_0

/-- the projected rows the body leaves in window 4's buffer -/
def outP (x0 : Vec F S2000x256 .f32) (x1 : Vec F S256x256 .f32) (x2 : Vec F S1x256 .f32) : Vec F S2000x256 .bf16 :=
  View.canon [⟨rX, k0_pay2 (View.ld x0 rX) (View.ld x1 rW) (View.ld x2 rB)⟩]
/-- the sixteen head logits per row the body leaves in window 5's buffer -/
def outL (x0 : Vec F S2000x256 .f32) (x1 : Vec F S256x256 .f32) (x2 : Vec F S1x256 .f32) (x3 : Vec F S256x16 .f32) : Vec F S2000x16 .f32 :=
  View.canon [⟨rL, k0_pay3 (View.ld x0 rX) (View.ld x1 rW) (View.ld x2 rB) (View.ld x3 rS)⟩]

/-- The one store into each output buffer is the whole buffer, so it covers every index. -/
theorem coverP (p : Vec F S2000x256 .bf16) (y : S2000x256.Idx) :
    ∃ pc ∈ ([⟨rX, p⟩] : List (View.Piece (Elt F) S2000x256 .bf16)), y ∈ pc.1.set :=
  View.cover_of_tiled [⟨rX, p⟩] S2000x256.size (by rfl) y
theorem coverL (p : Vec F S2000x16 .f32) (y : S2000x16.Idx) :
    ∃ pc ∈ ([⟨rL, p⟩] : List (View.Piece (Elt F) S2000x16 .f32)), y ∈ pc.1.set :=
  View.cover_of_tiled [⟨rL, p⟩] S2000x16.size (by rfl) y

/-! ## The body's triple -/

set_option maxHeartbeats 4000000 in
/-- The kernel body on six whole staging buffers — the four inputs' at read contents `x0 … x3`, the two outputs' at any
    contents — runs to its continuation with the inputs' buffers as they were and the outputs' at `outP`, `outL` of the
    inputs. The body also loads each output buffer before storing into it; the loaded value is used nowhere, and a load
    needs only that the buffer is owned at some contents. -/
theorem sound_kernel (c : Dev nD) (E : Set ℕ) (i : grid0.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x16 .f32) (harg4 : arg4.IsWhole)
    (arg5 : Memref sig .tc .vmem S2000x256 .bf16) (harg5 : arg5.IsWhole) (arg6 : Memref sig .tc .vmem S2000x16 .f32) (harg6 : arg6.IsWhole)
    (x0 : Vec F S2000x256 .f32) (x1 : Vec F S256x256 .f32) (x2 : Vec F S1x256 .f32) (x3 : Vec F S256x16 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outP x0 x1 x2) ∗ owns (c : Thread nD τ) arg6 fullShare (outL x0 x1 x2 x3)) -∗ K ⟨⟩))
      ⊢ wp frame (wpE (defs₀ (F := F)) Variants.none c none) E
          (cc0__head_proj_kernel i arg1 harg1 arg2 harg2 arg3 harg3 arg4 harg4 arg5 harg5 arg6 harg6) K := by
  simp only [cc0__head_proj_kernel_eq_skeleton]; unfold cc0__head_proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverP _)
  iexists _; isplitr
  swap; · iexact H5
  ipureintro
  exact View.read_writes_eq_canon _ _ _ (coverL _)

/-! ## The proof data -/

/-- The proof data of the one pipeline on core `c`. The arrays are as the region finds them; after the body at point
    `t` each input window's buffer still holds its block, window 4's holds the projected rows and window 5's the head
    logits of the four input blocks; the invariant is the class's (the scoped rest and the generator register, which
    the body does not touch); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outP (iblk m c 0 t) (iblk m c 1 t) (iblk m c 2 t)
    | ⟨5, _⟩ => outL (iblk m c 0 t) (iblk m c 1 t) (iblk m c 2 t) (iblk m c 3 t)
  Φ _ := Pipeline.ΦA spec0 c
  q _ := fullShare
  owed _ := 0

/-- The proof data's arrays are the region-entry contents (the definition projected; the fold behind `V` stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outP (iblk m c 0 t) (iblk m c 1 t) (iblk m c 2 t) := by dsimp only [dats]
theorem after0_5 (c : Dev nD) (t : Fin cfg0.N) : (dats m 0 c).after 5 t = outL (iblk m c 0 t) (iblk m c 1 t) (iblk m c 2 t) (iblk m c 3 t) := by dsimp only [dats]

/-- Each input window's current buffer holds its block at every point. -/
theorem before0_0 (c : Dev nD) (t : Fin cfg0.N) (d) : (dats m 0 c).before 0 t d = iblk m c 0 t :=
  found0 m (dats m 0 c) (A_eq m c 0) (after0_0 m c) t d
theorem before0_1 (c : Dev nD) (t : Fin cfg0.N) (d) : (dats m 0 c).before 1 t d = iblk m c 1 t :=
  found1 m (dats m 0 c) (A_eq m c 1) (after0_1 m c) t d
theorem before0_2 (c : Dev nD) (t : Fin cfg0.N) (d) : (dats m 0 c).before 2 t d = iblk m c 2 t :=
  found2 m (dats m 0 c) (A_eq m c 2) (after0_2 m c) t d
theorem before0_3 (c : Dev nD) (t : Fin cfg0.N) (d) : (dats m 0 c).before 3 t d = iblk m c 3 t :=
  found3 m (dats m 0 c) (A_eq m c 3) (after0_3 m c) t d

/-! ## The body obligation -/

/-- What the body is called with at point `t`: the invariant, the core's tallies, and the six current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the four input buffers hold their blocks, the two output buffers hold something, so the
    body's triple applies; the invariant and the tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the launch theorem, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with the statement, which unfolds plain
-- definitions in the type of an unknown
set_option backward.isDefEq.respectTransparency.types false in
/-- From any memory with zero counters, every weakly fair execution of @main on the TensorCores terminates, and in
    every final state each window's array holds what the proof data computes for it (an input its entry contents, an
    output the entry contents overwritten block by block by what the body left) and every other unscoped buffer what
    the 77 later operations make of that. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- info: 'Cert.Kernel.Fr.run_main' depends on axioms: [propext, Classical.choice, Quot.sound] -/
#guard_msgs in #print axioms run_main

/-- The frame claim: every weakly fair execution terminates and the six argument arrays end as launched. `main_arg0`
    and `main_arg2` are input windows' arrays: they end at their entry contents, which are the launch contents;
    the other four bypass the region and are written by no operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans ((((dats m 0 c).arrAt_in 0 rfl _).trans ((A_eq m c 0).trans (V_main_arg0 m c)))),
     ((h c).2 main_arg1 (Pipeline.mem_restRefs_of main_arg1 (by decide) (by decide))).trans (W_main_arg1 m (dats m) c),
     ((h c).1 1).trans ((((dats m 0 c).arrAt_in 1 rfl _).trans ((A_eq m c 1).trans (V_main_arg2 m c)))),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.Kernel.Fr

end
-- ==== Proof.FrameIdeal.lean ====
/- The frame of `KernelIdeal`: @main is three stretches of host operations, one region on a grid of 25 points, and three
   more stretches. This module states what the region finds in each buffer (the fold of the earlier operations over the
   launch memory), what its body leaves in each window's staging buffer, runs @main through the region and the later
   operations, and reads the frame claim (every argument array ends as launched) off that run. -/
import proofs.«125745_j54700703481984_2_alg».proof.Proof.Gen.KernelIdeal.Launch
import proofs.«125745_j54700703481984_2_alg».proof.Proof.Gen.KernelIdeal.Skeleton
import proofs.«125745_j54700703481984_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- a rectangle of 2000 rows: structural recursion over a long axis goes as deep as the axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: the 36 host operations before it, in order, folded over the
    launch memory. -/
abbrev V0 (c : Dev nD) : Valuation τ sig (Elt F) := StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

/-! ## What the host operations write

Every host operation of @main writes exactly one buffer, its result, named by a literal reference. That a given
reference is not written by any operation of a stretch is therefore one inequality of literal references per operation,
each decided; the stretch is never split into cases. -/

/-- `r` is the result buffer of no operation of the list. -/
abbrev Unwritten (r : Ref sig .tc) (ops : List (HloOp τ sig (Elt F))) : Prop :=
  ops.Forall fun op => Proc.devRef .tc r ∉ op.writes

/-- No window's array is the result buffer of an operation of the list. -/
abbrev ArraysUnwritten (ops : List (HloOp τ sig (Elt F))) : Prop :=
  ops.Forall fun op => ∀ w, Proc.devRef .tc (Pipeline.arrRef spec0 w) ∉ op.writes

/-- Opens a literal list of operations into one inequality of references per operation and decides each. -/
local macro "refs_apart" : tactic => `(tactic| (
  simp only [hostOps0, hostOps0_1, hostOps0_2, hostOps1, hostOps1_1, hostOps1_2,
    List.flatten_cons, List.flatten_nil, List.append_nil, List.cons_append, List.nil_append, List.Forall,
    StableHlo.TRef.nullary, StableHlo.TRef.unary, StableHlo.TRef.binary, StableHlo.TRef.ternary,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The same with the reference ranging over the six windows' arrays. -/
local macro "arrays_apart" : tactic => `(tactic| (
  simp only [hostOps1, hostOps1_1, hostOps1_2, List.Forall,
    StableHlo.TRef.nullary, StableHlo.TRef.unary, StableHlo.TRef.binary, StableHlo.TRef.ternary,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals (intro w; exact StableHlo.devRef_ne_of_ne (by revert w; decide))))

/-- A buffer no earlier operation writes is found by the region as launched. -/
theorem V_of (c : Dev nD) (r : Ref sig .tc) (h : Unwritten (F := F) r (List.flatten [hostOps0, hostOps0_1, hostOps0_2])) :
    V m c r = m ((c : Thread nD τ).loc r) :=
  StableHlo.after_of_forall_not_mem (b := Proc.devRef .tc r) _ _ (List.forall_iff_forall_mem.mp h)

/-- None of the six arguments is the result of an operation before the region. -/
theorem V_main_arg0 (c : Dev nD) : V m c main_arg0 = m ((c : Thread nD τ).loc main_arg0) := V_of m c main_arg0 (by refs_apart)
theorem V_main_arg1 (c : Dev nD) : V m c main_arg1 = m ((c : Thread nD τ).loc main_arg1) := V_of m c main_arg1 (by refs_apart)
theorem V_main_arg2 (c : Dev nD) : V m c main_arg2 = m ((c : Thread nD τ).loc main_arg2) := V_of m c main_arg2 (by refs_apart)
theorem V_main_arg3 (c : Dev nD) : V m c main_arg3 = m ((c : Thread nD τ).loc main_arg3) := V_of m c main_arg3 (by refs_apart)
theorem V_main_arg4 (c : Dev nD) : V m c main_arg4 = m ((c : Thread nD τ).loc main_arg4) := V_of m c main_arg4 (by refs_apart)
theorem V_main_arg5 (c : Dev nD) : V m c main_arg5 = m ((c : Thread nD τ).loc main_arg5) := V_of m c main_arg5 (by refs_apart)

/-- A buffer that is no window's array and that no later operation writes ends as the region found it. -/
theorem W_of (dats' : (p : Fin 1) → (c : Dev nD) → Dat τ (Elt F) Unit ℕ (UR sig nD τ) ℕ (cfgs p) c) (c : Dev nD) (r : Ref sig .tc)
    (hr : ∀ w, Pipeline.arrRef spec0 w ≠ r) (h : Unwritten (F := F) r (List.flatten [hostOps1, hostOps1_1, hostOps1_2])) :
    Pipeline.afterTail₀ cfgs dats' 0 (V0 m) [hostOps1, hostOps1_1, hostOps1_2] c r = V m c r := by
  unfold Pipeline.afterTail₀
  rw [StableHlo.after_of_forall_not_mem (b := Proc.devRef .tc r) _ _ (List.forall_iff_forall_mem.mp h),
    Pipeline.withArrays_of_ne _ c (V0 m c) _ r hr]

/-- The four arguments no window stages are the result of no later operation either: they end as launched. -/
theorem W_main_arg1 (dats' : (p : Fin 1) → (c : Dev nD) → Dat τ (Elt F) Unit ℕ (UR sig nD τ) ℕ (cfgs p) c) (c : Dev nD) :
    Pipeline.afterTail₀ cfgs dats' 0 (V0 m) [hostOps1, hostOps1_1, hostOps1_2] c main_arg1 = m ((c : Thread nD τ).loc main_arg1) :=
  (W_of m dats' c main_arg1 (by decide) (by refs_apart)).trans (V_main_arg1 m c)
theorem W_main_arg3 (dats' : (p : Fin 1) → (c : Dev nD) → Dat τ (Elt F) Unit ℕ (UR sig nD τ) ℕ (cfgs p) c) (c : Dev nD) :
    Pipeline.afterTail₀ cfgs dats' 0 (V0 m) [hostOps1, hostOps1_1, hostOps1_2] c main_arg3 = m ((c : Thread nD τ).loc main_arg3) :=
  (W_of m dats' c main_arg3 (by decide) (by refs_apart)).trans (V_main_arg3 m c)
theorem W_main_arg4 (dats' : (p : Fin 1) → (c : Dev nD) → Dat τ (Elt F) Unit ℕ (UR sig nD τ) ℕ (cfgs p) c) (c : Dev nD) :
    Pipeline.afterTail₀ cfgs dats' 0 (V0 m) [hostOps1, hostOps1_1, hostOps1_2] c main_arg4 = m ((c : Thread nD τ).loc main_arg4) :=
  (W_of m dats' c main_arg4 (by decide) (by refs_apart)).trans (V_main_arg4 m c)
theorem W_main_arg5 (dats' : (p : Fin 1) → (c : Dev nD) → Dat τ (Elt F) Unit ℕ (UR sig nD τ) ℕ (cfgs p) c) (c : Dev nD) :
    Pipeline.afterTail₀ cfgs dats' 0 (V0 m) [hostOps1, hostOps1_1, hostOps1_2] c main_arg5 = m ((c : Thread nD τ).loc main_arg5) :=
  (W_of m dats' c main_arg5 (by decide) (by refs_apart)).trans (V_main_arg5 m c)

/-! ## @main around the region -/

/-- No host operation allocates. -/
theorem fresh0 : (hostOps0 : List (HloOp τ sig (Elt F))).Forall fun op => op.fresh = ∅ := by
  simp only [hostOps0, List.Forall]; repeat' constructor
theorem fresh0_1 : (hostOps0_1 : List (HloOp τ sig (Elt F))).Forall fun op => op.fresh = ∅ := by
  simp only [hostOps0_1, List.Forall]; repeat' constructor
theorem fresh0_2 : (hostOps0_2 : List (HloOp τ sig (Elt F))).Forall fun op => op.fresh = ∅ := by
  simp only [hostOps0_2, List.Forall]; repeat' constructor
theorem fresh1 : (hostOps1 : List (HloOp τ sig (Elt F))).Forall fun op => op.fresh = ∅ := by
  simp only [hostOps1, List.Forall]; repeat' constructor
theorem fresh1_1 : (hostOps1_1 : List (HloOp τ sig (Elt F))).Forall fun op => op.fresh = ∅ := by
  simp only [hostOps1_1, List.Forall]; repeat' constructor
theorem fresh1_2 : (hostOps1_2 : List (HloOp τ sig (Elt F))).Forall fun op => op.fresh = ∅ := by
  simp only [hostOps1_2, List.Forall]; repeat' constructor

/-- @main is the three earlier stretches, the region, the three later stretches: run from the launch memory it reaches
    the region with the buffers at `V`, and continues after it with the later stretches. -/
theorem pre_sub : ([hostOps0, hostOps0_1, hostOps0_2] : List (List (HloOp τ sig (Elt F)))).Forall fun ops => ops.Forall fun op => op.bufs ⊆ StableHlo.tcRefs τ sig :=
  ⟨hostOps0_sub, hostOps0_1_sub, hostOps0_2_sub⟩
theorem pre_fresh : ([hostOps0, hostOps0_1, hostOps0_2] : List (List (HloOp τ sig (Elt F)))).Forall fun ops => ops.Forall fun op => op.fresh = ∅ :=
  ⟨fresh0, fresh0_1, fresh0_2⟩
theorem main_around (c : Dev nD) : main (F := F) c = Pipeline.chain (([hostOps0, hostOps0_1, hostOps0_2] : List (List (HloOp τ sig (Elt F)))).map StableHlo.seq
    ++ [Prog.lift (.customCall (Pipeline.entry 0) ())] ++ ([hostOps1, hostOps1_1, hostOps1_2] : List (List (HloOp τ sig (Elt F)))).map StableHlo.seq) := by
  rw [main_chain]
  simp only [List.map_cons, List.map_nil, List.cons_append, List.nil_append]
theorem hmain (𝒱₀ : Variants) : Pipeline.HMainK (Ix := Unit) (Name := ℕ) (U := UR sig nD τ) (Lvl := ℕ) cfgs 0 defs₀ 𝒱₀ m (main (F := F)) (V m)
      (fun _ => Pipeline.chain (([hostOps1, hostOps1_1, hostOps1_2] : List (List (HloOp τ sig (Elt F)))).map StableHlo.seq)) :=
  Pipeline.hmain_around cfgs 0 defs₀ 𝒱₀ m main [hostOps0, hostOps0_1, hostOps0_2] [hostOps1, hostOps1_1, hostOps1_2]
    pre_sub pre_fresh main_around

/-- The window arrays are results of the region or of earlier operations, never of a later one. -/
theorem keep1 : ArraysUnwritten (F := F) hostOps1 := by arrays_apart
theorem keep1_1 : ArraysUnwritten (F := F) hostOps1_1 := by arrays_apart
theorem keep1_2 : ArraysUnwritten (F := F) hostOps1_2 := by arrays_apart

/-- The later operations touch unscoped TensorCore buffers only: with nothing prefetched, each such buffer is a window's
    array or bypasses the region. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp fresh1) op hop
  · exact (List.forall_iff_forall_mem.mp fresh1_1) op hop
  · exact (List.forall_iff_forall_mem.mp fresh1_2) op hop
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp keep1) op hop
  · exact (List.forall_iff_forall_mem.mp keep1_1) op hop
  · exact (List.forall_iff_forall_mem.mp keep1_2) op hop

/-! ## The windows' blocks and the body's accesses -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point of the grid, whether the point fetches it
    or not (an unfetched point has the block index of the point before), for any proof data whose array is the region's
    (`hA`) and whose body leaves the block in place (`hafter`). The four input windows are whole, never idle. -/
theorem found0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body reads and writes each staging buffer whole: one unit-stride rectangle per buffer shape. -/
abbrev rX : Rect S2000x256 := Rect.unit (s := S2000x256) ![0, 0] S2000x256.size inb_S2000x256_S2000x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rS : Rect S256x16 := Rect.unit (s := S256x16) ![0, 0] S256x16.size inb_S256x16_S256x16_0_0
abbrev rL : Rect S2000x16 := Rect.unit (s := S2000x16) ![0, 0] S2000x16.size inb_S2000x16_S2000x16_0_0

/-- the projected rows the body leaves in window 4's buffer -/
def outP (x0 : Vec F S2000x256 .f32) (x1 : Vec F S256x256 .f32) (x2 : Vec F S1x256 .f32) : Vec F S2000x256 .bf16 :=
  View.canon [⟨rX, k0_pay2 (View.ld x0 rX) (View.ld x1 rW) (View.ld x2 rB)⟩]
/-- the sixteen head logits per row the body leaves in window 5's buffer -/
def outL (x0 : Vec F S2000x256 .f32) (x1 : Vec F S256x256 .f32) (x2 : Vec F S1x256 .f32) (x3 : Vec F S256x16 .f32) : Vec F S2000x16 .f32 :=
  View.canon [⟨rL, k0_pay3 (View.ld x0 rX) (View.ld x1 rW) (View.ld x2 rB) (View.ld x3 rS)⟩]

/-- The one store into each output buffer is the whole buffer, so it covers every index. -/
theorem coverP (p : Vec F S2000x256 .bf16) (y : S2000x256.Idx) :
    ∃ pc ∈ ([⟨rX, p⟩] : List (View.Piece (Elt F) S2000x256 .bf16)), y ∈ pc.1.set :=
  View.cover_of_tiled [⟨rX, p⟩] S2000x256.size (by rfl) y
theorem coverL (p : Vec F S2000x16 .f32) (y : S2000x16.Idx) :
    ∃ pc ∈ ([⟨rL, p⟩] : List (View.Piece (Elt F) S2000x16 .f32)), y ∈ pc.1.set :=
  View.cover_of_tiled [⟨rL, p⟩] S2000x16.size (by rfl) y

/-! ## The body's triple -/

set_option maxHeartbeats 4000000 in
/-- The kernel body on six whole staging buffers — the four inputs' at read contents `x0 … x3`, the two outputs' at any
    contents — runs to its continuation with the inputs' buffers as they were and the outputs' at `outP`, `outL` of the
    inputs. The body also loads each output buffer before storing into it; the loaded value is used nowhere, and a load
    needs only that the buffer is owned at some contents. -/
theorem sound_kernel (c : Dev nD) (E : Set ℕ) (i : grid0.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x16 .f32) (harg4 : arg4.IsWhole)
    (arg5 : Memref sig .tc .vmem S2000x256 .bf16) (harg5 : arg5.IsWhole) (arg6 : Memref sig .tc .vmem S2000x16 .f32) (harg6 : arg6.IsWhole)
    (x0 : Vec F S2000x256 .f32) (x1 : Vec F S256x256 .f32) (x2 : Vec F S1x256 .f32) (x3 : Vec F S256x16 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outP x0 x1 x2) ∗ owns (c : Thread nD τ) arg6 fullShare (outL x0 x1 x2 x3)) -∗ K ⟨⟩))
      ⊢ wp frame (wpE (defs₀ (F := F)) Variants.none c none) E
          (cc0__head_proj_kernel i arg1 harg1 arg2 harg2 arg3 harg3 arg4 harg4 arg5 harg5 arg6 harg6) K := by
  simp only [cc0__head_proj_kernel_eq_skeleton]; unfold cc0__head_proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverP _)
  iexists _; isplitr
  swap; · iexact H5
  ipureintro
  exact View.read_writes_eq_canon _ _ _ (coverL _)

/-! ## The proof data -/

/-- The proof data of the one pipeline on core `c`. The arrays are as the region finds them; after the body at point
    `t` each input window's buffer still holds its block, window 4's holds the projected rows and window 5's the head
    logits of the four input blocks; the invariant is the class's (the scoped rest and the generator register, which
    the body does not touch); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outP (iblk m c 0 t) (iblk m c 1 t) (iblk m c 2 t)
    | ⟨5, _⟩ => outL (iblk m c 0 t) (iblk m c 1 t) (iblk m c 2 t) (iblk m c 3 t)
  Φ _ := Pipeline.ΦA spec0 c
  q _ := fullShare
  owed _ := 0

/-- The proof data's arrays are the region-entry contents (the definition projected; the fold behind `V` stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outP (iblk m c 0 t) (iblk m c 1 t) (iblk m c 2 t) := by dsimp only [dats]
theorem after0_5 (c : Dev nD) (t : Fin cfg0.N) : (dats m 0 c).after 5 t = outL (iblk m c 0 t) (iblk m c 1 t) (iblk m c 2 t) (iblk m c 3 t) := by dsimp only [dats]

/-- Each input window's current buffer holds its block at every point. -/
theorem before0_0 (c : Dev nD) (t : Fin cfg0.N) (d) : (dats m 0 c).before 0 t d = iblk m c 0 t :=
  found0 m (dats m 0 c) (A_eq m c 0) (after0_0 m c) t d
theorem before0_1 (c : Dev nD) (t : Fin cfg0.N) (d) : (dats m 0 c).before 1 t d = iblk m c 1 t :=
  found1 m (dats m 0 c) (A_eq m c 1) (after0_1 m c) t d
theorem before0_2 (c : Dev nD) (t : Fin cfg0.N) (d) : (dats m 0 c).before 2 t d = iblk m c 2 t :=
  found2 m (dats m 0 c) (A_eq m c 2) (after0_2 m c) t d
theorem before0_3 (c : Dev nD) (t : Fin cfg0.N) (d) : (dats m 0 c).before 3 t d = iblk m c 3 t :=
  found3 m (dats m 0 c) (A_eq m c 3) (after0_3 m c) t d

/-! ## The body obligation -/

/-- What the body is called with at point `t`: the invariant, the core's tallies, and the six current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the four input buffers hold their blocks, the two output buffers hold something, so the
    body's triple applies; the invariant and the tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the launch theorem, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with the statement, which unfolds plain
-- definitions in the type of an unknown
set_option backward.isDefEq.respectTransparency.types false in
/-- From any memory with zero counters, every weakly fair execution of @main on the TensorCores terminates, and in
    every final state each window's array holds what the proof data computes for it (an input its entry contents, an
    output the entry contents overwritten block by block by what the body left) and every other unscoped buffer what
    the 77 later operations make of that. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- info: 'Cert.KernelIdeal.Fr.run_main' depends on axioms: [propext, Classical.choice, Quot.sound] -/
#guard_msgs in #print axioms run_main

/-- The frame claim: every weakly fair execution terminates and the six argument arrays end as launched. `main_arg0`
    and `main_arg2` are input windows' arrays: they end at their entry contents, which are the launch contents;
    the other four bypass the region and are written by no operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans ((((dats m 0 c).arrAt_in 0 rfl _).trans ((A_eq m c 0).trans (V_main_arg0 m c)))),
     ((h c).2 main_arg1 (Pipeline.mem_restRefs_of main_arg1 (by decide) (by decide))).trans (W_main_arg1 m (dats m) c),
     ((h c).1 1).trans ((((dats m 0 c).arrAt_in 1 rfl _).trans ((A_eq m c 1).trans (V_main_arg2 m c)))),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.Fr

end
-- ==== Proof.RefRun.lean ====
/- The reference program's run: @main as the list of its host operations in program order (the outlined @leaky_relu
   and the @_where it calls listed at the call site, over the call's buffers), the run of that list from any memory
   with zero counters, and the result buffer read back as a staged pure term of the six argument arrays. -/
import proofs.«125745_j54700703481984_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 86 host operations, in program order: thirty-nine and the constant 0.2 before the call, @leaky_relu's six
    and @_where's select over the call's buffers, then the forty after it (the softmax over the incoming edges and the
    weighted aggregation). -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_arg0 main_arg2 main_v7 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg3 main_v8 (broadcastInDim S1x256 ![1] bcast_S256_S1x256_1 : (⟨S256, .f32⟩ : BufTy).Contents (Elt F) → (⟨S1x256, .f32⟩ : BufTy).Contents (Elt F)),
    unary main_v8 main_v9 (broadcastInDim S50000x256 ![0, 1] bcast_S1x256_S50000x256_0_1 : (⟨S1x256, .f32⟩ : BufTy).Contents (Elt F) → (⟨S50000x256, .f32⟩ : BufTy).Contents (Elt F)),
    binary main_v7 main_v9 main_v10 (addf : (⟨S50000x256, .f32⟩ : BufTy).Contents (Elt F) → (⟨S50000x256, .f32⟩ : BufTy).Contents (Elt F) → (⟨S50000x256, .f32⟩ : BufTy).Contents (Elt F)),
    reshape main_v10 main_v11 rfl shapeCasts_S50000x256_S50000x8x32,
    unary main_arg4 main_v12 (broadcastInDim S50000x8x32 ![0, 1, 2] bcast_S1x8x32_S50000x8x32_0_1_2 : (⟨S1x8x32, .f32⟩ : BufTy).Contents (Elt F) → (⟨S50000x8x32, .f32⟩ : BufTy).Contents (Elt F)),
    binary main_v11 main_v12 main_v13 (mulf : (⟨S50000x8x32, .f32⟩ : BufTy).Contents (Elt F) → (⟨S50000x8x32, .f32⟩ : BufTy).Contents (Elt F) → (⟨S50000x8x32, .f32⟩ : BufTy).Contents (Elt F)),
    nullary main_cst (constant S_ .f32 0x00000000#32),
    binary main_v13 main_cst main_v14 ((fun x v => Host.reduceAdd x v reducesTo_S50000x8x32_S50000x8_d2 h_S_) : (⟨S50000x8x32, .f32⟩ : BufTy).Contents (Elt F) → (⟨S_, .f32⟩ : BufTy).Contents (Elt F) → (⟨S50000x8, .f32⟩ : BufTy).Contents (Elt F)),
    unary main_arg5 main_v15 (broadcastInDim S50000x8x32 ![0, 1, 2] bcast_S1x8x32_S50000x8x32_0_1_2 : (⟨S1x8x32, .f32⟩ : BufTy).Contents (Elt F) → (⟨S50000x8x32, .f32⟩ : BufTy).Contents (Elt F)),
    binary main_v11 main_v15 main_v16 (mulf : (⟨S50000x8x32, .f32⟩ : BufTy).Contents (Elt F) → (⟨S50000x8x32, .f32⟩ : BufTy).Contents (Elt F) → (⟨S50000x8x32, .f32⟩ : BufTy).Contents (Elt F)),
    nullary main_cst_0 (constant S_ .f32 0x00000000#32),
    binary main_v16 main_cst_0 main_v17 ((fun x v => Host.reduceAdd x v reducesTo_S50000x8x32_S50000x8_d2 h_S_) : (⟨S50000x8x32, .f32⟩ : BufTy).Contents (Elt F) → (⟨S_, .f32⟩ : BufTy).Contents (Elt F) → (⟨S50000x8, .f32⟩ : BufTy).Contents (Elt F)),
    nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v3 main_v18 main_v19 (cmpi .slt : (⟨S850000, .i32⟩ : BufTy).Contents (Elt F) → (⟨S850000, .i32⟩ : BufTy).Contents (Elt F) → (⟨S850000, .i1⟩ : BufTy).Contents (Elt F)),
    nullary main_c_1 (constantI S_ 32 50000#32),
    unary main_c_1 main_v20 (broadcastInDim S850000 ![] bcast_S_S850000 : (⟨S_, .i32⟩ : BufTy).Contents (Elt F) → (⟨S850000, .i32⟩ : BufTy).Contents (Elt F)),
    binary main_v3 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v3 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v14 main_v23 main_v24 ((fun x i => Host.gather gather_S50000x8_S850000x1_S850000x8_1_0_n_n_0_1_18 x i) : (⟨S50000x8, .f32⟩ : BufTy).Contents (Elt F) → (⟨S850000x1, .i32⟩ : BufTy).Contents (Elt F) → (⟨S850000x8, .f32⟩ : BufTy).Contents (Elt F)),
    nullary main_c_2 (constantI S_ 32 0#32),
    unary main_c_2 main_v25 (broadcastInDim S850000 ![] bcast_S_S850000 : (⟨S_, .i32⟩ : BufTy).Contents (Elt F) → (⟨S850000, .i32⟩ : BufTy).Contents (Elt F)),
    binary main_v6 main_v25 main_v26 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v27 (broadcastInDim S850000 ![] bcast_S_S850000 : (⟨S_, .i32⟩ : BufTy).Contents (Elt F) → (⟨S850000, .i32⟩ : BufTy).Contents (Elt F)),
    binary main_v6 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v6 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v17 main_v30 main_v31 ((fun x i => Host.gather gather_S50000x8_S850000x1_S850000x8_1_0_n_n_0_1_18 x i) : (⟨S50000x8, .f32⟩ : BufTy).Contents (Elt F) → (⟨S850000x1, .i32⟩ : BufTy).Contents (Elt F) → (⟨S850000x8, .f32⟩ : BufTy).Contents (Elt F)),
    binary main_v24 main_v31 main_v32 (addf : (⟨S850000x8, .f32⟩ : BufTy).Contents (Elt F) → (⟨S850000x8, .f32⟩ : BufTy).Contents (Elt F) → (⟨S850000x8, .f32⟩ : BufTy).Contents (Elt F)),
    nullary main_cst_4 (constant S_ .f32 0x3E4CCCCD#32),
    TRef.nullary main_call0.cst (constant S_ .f32 0x00000000#32),
    TRef.unary main_call0.cst main_call0.v0 (broadcastInDim S850000x8 ![] bcast_S_S850000x8),
    TRef.binary (.of main_v32 : TRef sig ⟨S850000x8, .f32⟩) main_call0.v0 main_call0.v1 (cmpf .oge),
    TRef.unary (.of main_cst_4 : TRef sig ⟨S_, .f32⟩) main_call0.v2 id,
    TRef.unary main_call0.v2 main_call0.v3 (broadcastInDim S850000x8 ![] bcast_S_S850000x8),
    TRef.binary main_call0.v3 (.of main_v32 : TRef sig ⟨S850000x8, .f32⟩) main_call0.v4 mulf,
    TRef.ternary main_call0.v1 (.of main_v32 : TRef sig ⟨S850000x8, .f32⟩) main_call0.v4 main_call0.call0.v0 select,
    nullary main_cst_5 (constant S_ .f32 0xFF800000#32),
    binary main_v33 main_cst_5 main_v34 ((fun x v => Host.reduce FloatOps.maximumf x v reducesTo_S850000x8_S_d0_1 h_S_) : (⟨S850000x8, .f32⟩ : BufTy).Contents (Elt F) → (⟨S_, .f32⟩ : BufTy).Contents (Elt F) → (⟨S_, .f32⟩ : BufTy).Contents (Elt F)),
    unary main_v34 main_v35 (broadcastInDim S850000x8 ![] bcast_S_S850000x8 : (⟨S_, .f32⟩ : BufTy).Contents (Elt F) → (⟨S850000x8, .f32⟩ : BufTy).Contents (Elt F)),
    binary main_v33 main_v35 main_v36 (subf : (⟨S850000x8, .f32⟩ : BufTy).Contents (Elt F) → (⟨S850000x8, .f32⟩ : BufTy).Contents (Elt F) → (⟨S850000x8, .f32⟩ : BufTy).Contents (Elt F)),
    unary main_v36 main_v37 (Host.exp : (⟨S850000x8, .f32⟩ : BufTy).Contents (Elt F) → (⟨S850000x8, .f32⟩ : BufTy).Contents (Elt F)),
    nullary main_cst_6 (constant S_ .f32 0x00000000#32),
    unary main_cst_6 main_v38 (broadcastInDim S50000x8 ![] bcast_S_S50000x8 : (⟨S_, .f32⟩ : BufTy).Contents (Elt F) → (⟨S50000x8, .f32⟩ : BufTy).Contents (Elt F)),
    unary main_v6 main_v39 (broadcastInDim S850000x1 ![0] bcast_S850000_S850000x1_0 : (⟨S850000, .i32⟩ : BufTy).Contents (Elt F) → (⟨S850000x1, .i32⟩ : BufTy).Contents (Elt F)),
    ternary main_v38 main_v39 main_v37 main_v40 ((fun x i u => Host.scatterAdd scatter_S50000x8_S850000x1_S850000x8_1_0_0_1 x i u) : (⟨S50000x8, .f32⟩ : BufTy).Contents (Elt F) → (⟨S850000x1, .i32⟩ : BufTy).Contents (Elt F) → (⟨S850000x8, .f32⟩ : BufTy).Contents (Elt F) → (⟨S50000x8, .f32⟩ : BufTy).Contents (Elt F)),
    nullary main_c_7 (constantI S_ 32 0#32),
    unary main_c_7 main_v41 (broadcastInDim S850000 ![] bcast_S_S850000 : (⟨S_, .i32⟩ : BufTy).Contents (Elt F) → (⟨S850000, .i32⟩ : BufTy).Contents (Elt F)),
    binary main_v6 main_v41 main_v42 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v43 (broadcastInDim S850000 ![] bcast_S_S850000 : (⟨S_, .i32⟩ : BufTy).Contents (Elt F) → (⟨S850000, .i32⟩ : BufTy).Contents (Elt F)),
    binary main_v6 main_v43 main_v44 (addi : (⟨S850000, .i32⟩ : BufTy).Contents (Elt F) → (⟨S850000, .i32⟩ : BufTy).Contents (Elt F) → (⟨S850000, .i32⟩ : BufTy).Contents (Elt F)),
    ternary main_v42 main_v44 main_v6 main_v45 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v45 main_v46 (broadcastInDim S850000x1 ![0] bcast_S850000_S850000x1_0 : (⟨S850000, .i32⟩ : BufTy).Contents (Elt F) → (⟨S850000x1, .i32⟩ : BufTy).Contents (Elt F)),
    binary main_v40 main_v46 main_v47 ((fun x i => Host.gather gather_S50000x8_S850000x1_S850000x8_1_0_n_n_0_1_18 x i) : (⟨S50000x8, .f32⟩ : BufTy).Contents (Elt F) → (⟨S850000x1, .i32⟩ : BufTy).Contents (Elt F) → (⟨S850000x8, .f32⟩ : BufTy).Contents (Elt F)),
    nullary main_cst_9 (constant S_ .f32 0x2EDBE6FF#32),
    unary main_cst_9 main_v48 (broadcastInDim S850000x8 ![] bcast_S_S850000x8 : (⟨S_, .f32⟩ : BufTy).Contents (Elt F) → (⟨S850000x8, .f32⟩ : BufTy).Contents (Elt F)),
    binary main_v47 main_v48 main_v49 (addf : (⟨S850000x8, .f32⟩ : BufTy).Contents (Elt F) → (⟨S850000x8, .f32⟩ : BufTy).Contents (Elt F) → (⟨S850000x8, .f32⟩ : BufTy).Contents (Elt F)),
    binary main_v37 main_v49 main_v50 (Host.divf : (⟨S850000x8, .f32⟩ : BufTy).Contents (Elt F) → (⟨S850000x8, .f32⟩ : BufTy).Contents (Elt F) → (⟨S850000x8, .f32⟩ : BufTy).Contents (Elt F)),
    nullary main_c_10 (constantI S_ 32 0#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v53 (broadcastInDim S850000 ![] bcast_S_S850000 : (⟨S_, .i32⟩ : BufTy).Contents (Elt F) → (⟨S850000, .i32⟩ : BufTy).Contents (Elt F)),
    binary main_v3 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v11 main_v56 main_v57 ((fun x i => Host.gather gather_S50000x8x32_S850000x1_S850000x8x32_12_0_n_n_0_1_1832 x i) : (⟨S50000x8x32, .f32⟩ : BufTy).Contents (Elt F) → (⟨S850000x1, .i32⟩ : BufTy).Contents (Elt F) → (⟨S850000x8x32, .f32⟩ : BufTy).Contents (Elt F)),
    unary main_v50 main_v58 (broadcastInDim S850000x8x1 ![0, 1] bcast_S850000x8_S850000x8x1_0_1 : (⟨S850000x8, .f32⟩ : BufTy).Contents (Elt F) → (⟨S850000x8x1, .f32⟩ : BufTy).Contents (Elt F)),
    unary main_v58 main_v59 (broadcastInDim S850000x8x32 ![0, 1, 2] bcast_S850000x8x1_S850000x8x32_0_1_2 : (⟨S850000x8x1, .f32⟩ : BufTy).Contents (Elt F) → (⟨S850000x8x32, .f32⟩ : BufTy).Contents (Elt F)),
    binary main_v57 main_v59 main_v60 (mulf : (⟨S850000x8x32, .f32⟩ : BufTy).Contents (Elt F) → (⟨S850000x8x32, .f32⟩ : BufTy).Contents (Elt F) → (⟨S850000x8x32, .f32⟩ : BufTy).Contents (Elt F)),
    nullary main_cst_12 (constant S_ .f32 0x00000000#32),
    unary main_cst_12 main_v61 (broadcastInDim S50000x8x32 ![] bcast_S_S50000x8x32 : (⟨S_, .f32⟩ : BufTy).Contents (Elt F) → (⟨S50000x8x32, .f32⟩ : BufTy).Contents (Elt F)),
    unary main_v6 main_v62 (broadcastInDim S850000x1 ![0] bcast_S850000_S850000x1_0 : (⟨S850000, .i32⟩ : BufTy).Contents (Elt F) → (⟨S850000x1, .i32⟩ : BufTy).Contents (Elt F)),
    ternary main_v61 main_v62 main_v60 main_v63 ((fun x i u => Host.scatterAdd scatter_S50000x8x32_S850000x1_S850000x8x32_12_0_0_1 x i u) : (⟨S50000x8x32, .f32⟩ : BufTy).Contents (Elt F) → (⟨S850000x1, .i32⟩ : BufTy).Contents (Elt F) → (⟨S850000x8x32, .f32⟩ : BufTy).Contents (Elt F) → (⟨S50000x8x32, .f32⟩ : BufTy).Contents (Elt F)),
    reshape main_v63 main_v64 rfl shapeCasts_S50000x8x32_S50000x256 ]

-- eighty-six steps evaluated and compared: beyond the default budget
set_option maxHeartbeats 4000000 in
/-- @main is that straight line, by computation: the two windows it runs in order, @leaky_relu's body at the call and
    @_where's inside it unfolded, the sequencing of the steps reassociating as it is evaluated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., binary_bufs_sub .., unary_bufs_sub .., unary_bufs_sub .., binary_bufs_sub .., reshape_bufs_sub ..,
    unary_bufs_sub .., binary_bufs_sub .., nullary_bufs_sub .., binary_bufs_sub .., unary_bufs_sub .., binary_bufs_sub ..,
    nullary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub ..,
    nullary_bufs_sub .., binary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., reshape_bufs_sub ..⟩

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The arguments are unchanged: no operation writes an argument's buffer -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

/-! ## The result as a staged pure term

The stages of the computation as functions of variables, each the composition of the printed operations it names. -/

/-- The source endpoint of every edge: row 0 of the edge table, then one self-loop per node. -/
def srcOf (ei : IVec S2x800000 32) : IVec S850000 32 :=
  concatenate S850000 0
    [⟨S800000, shapeCast S800000 (extractStridedSlice S1x800000 ![0, 0] ei slices_S2x800000_S1x800000_0_0) shapeCasts_S1x800000_S800000⟩,
     ⟨S50000, iotaInDim S50000 32 0⟩] concatenates_S800000_S50000_S850000_d0

/-- The target endpoint of every edge: row 1 of the edge table, then one self-loop per node. -/
def trgOf (ei : IVec S2x800000 32) : IVec S850000 32 :=
  concatenate S850000 0
    [⟨S800000, shapeCast S800000 (extractStridedSlice S1x800000 ![1, 0] ei slices_S2x800000_S1x800000_1_0) shapeCasts_S1x800000_S800000⟩,
     ⟨S50000, iotaInDim S50000 32 0⟩] concatenates_S800000_S50000_S850000_d0

/-- The linear layer: x · w plus the bias along the columns. -/
def hOf (x : FVec F S50000x256 .f32) (w : FVec F S256x256 .f32) (b : FVec F S256 .f32) : FVec F S50000x256 .f32 :=
  addf (Host.dotGeneral dot_S50000x256_S256x256_S50000x256_1_0_0_1_n_n none x w)
    (broadcastInDim S50000x256 ![0, 1] bcast_S1x256_S50000x256_0_1 (broadcastInDim S1x256 ![1] bcast_S256_S1x256_1 b))

/-- A node's attention logit per head: the sum over the head's 32 features of the feature times the head's weight. -/
def logitOf (h3 : FVec F S50000x8x32 .f32) (a : FVec F S1x8x32 .f32) : FVec F S50000x8 .f32 :=
  Host.reduceAdd (mulf h3 (broadcastInDim S50000x8x32 ![0, 1, 2] bcast_S1x8x32_S50000x8x32_0_1_2 a))
    (constant S_ .f32 0x00000000#32) reducesTo_S50000x8x32_S50000x8_d2 h_S_

/-- Gather indices from node numbers: a negative number is moved up by the node count, then the column of indices. -/
def wrapOf (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The attention weight of every edge and head: the leaky rectification (slope 0.2) of the endpoints' logits' sum,
    minus its maximum over all edges and heads, exponentiated, and divided by the sum of these exponentials over the
    edges with the same target (scattered onto the nodes, read back per edge) plus 1e-10. -/
def alphaOf (hs ht : FVec F S50000x8 .f32) (s t : IVec S850000 32) : FVec F S850000x8 .f32 :=
  let e : FVec F S850000x8 .f32 :=
    addf (Host.gather gather_S50000x8_S850000x1_S850000x8_1_0_n_n_0_1_18 hs (wrapOf s))
      (Host.gather gather_S50000x8_S850000x1_S850000x8_1_0_n_n_0_1_18 ht (wrapOf t))
  let l : FVec F S850000x8 .f32 :=
    select (cmpf .oge e (broadcastInDim S850000x8 ![] bcast_S_S850000x8 (constant S_ .f32 0x00000000#32))) e
      (mulf (broadcastInDim S850000x8 ![] bcast_S_S850000x8 (id (constant S_ .f32 0x3E4CCCCD#32))) e)
  let p : FVec F S850000x8 .f32 :=
    Host.exp (subf l (broadcastInDim S850000x8 ![] bcast_S_S850000x8
      (Host.reduce FloatOps.maximumf l (constant S_ .f32 0xFF800000#32) reducesTo_S850000x8_S_d0_1 h_S_)))
  Host.divf p
    (addf
      (Host.gather gather_S50000x8_S850000x1_S850000x8_1_0_n_n_0_1_18
        (Host.scatterAdd scatter_S50000x8_S850000x1_S850000x8_1_0_0_1
          (broadcastInDim S50000x8 ![] bcast_S_S50000x8 (constant S_ .f32 0x00000000#32))
          (broadcastInDim S850000x1 ![0] bcast_S850000_S850000x1_0 t) p)
        (wrapOf t))
      (broadcastInDim S850000x8 ![] bcast_S_S850000x8 (constant S_ .f32 0x2EDBE6FF#32)))

/-- The aggregation: every edge's source features times the edge's weight, per head, summed onto the edge's target,
    and the heads laid side by side. -/
def aggOf (h3 : FVec F S50000x8x32 .f32) (al : FVec F S850000x8 .f32) (s t : IVec S850000 32) : FVec F S50000x256 .f32 :=
  shapeCast S50000x256
    (Host.scatterAdd scatter_S50000x8x32_S850000x1_S850000x8x32_12_0_0_1
      (broadcastInDim S50000x8x32 ![] bcast_S_S50000x8x32 (constant S_ .f32 0x00000000#32))
      (broadcastInDim S850000x1 ![0] bcast_S850000_S850000x1_0 t)
      (mulf (Host.gather gather_S50000x8x32_S850000x1_S850000x8x32_12_0_n_n_0_1_1832 h3 (wrapOf s))
        (broadcastInDim S850000x8x32 ![0, 1, 2] bcast_S850000x8x1_S850000x8x32_0_1_2
          (broadcastInDim S850000x8x1 ![0, 1] bcast_S850000x8_S850000x8x1_0_1 al))))
    shapeCasts_S50000x8x32_S50000x256

attribute [local irreducible] Host.gather Host.scatterAdd Host.reduce Host.reduceAdd in
set_option maxRecDepth 16384 in
set_option maxHeartbeats 4000000 in
/-- The result buffer after the run is the staged term of the arguments: the fold at the result buffer rewritten, one
    operation at a time, to the operation's function of its operands' contents (each shared intermediate once), which
    is the stages' composition by computation — the typed references' transports around the call are the identity at
    these literal references, a reshape's element-type transport is along `rfl`. The gathers, the scatter-adds and the
    reductions stay folded meanwhile: the equation never looks inside them. -/
theorem out_eq (V : Valuation τ sig (Elt F)) : after ops V (main_v64 : DevRef τ sig) =
    (let ei := V (main_arg1 : DevRef τ sig)
     let h3 := shapeCast S50000x8x32 (hOf (V (main_arg0 : DevRef τ sig)) (V (main_arg2 : DevRef τ sig)) (V (main_arg3 : DevRef τ sig))) shapeCasts_S50000x256_S50000x8x32
     aggOf h3 (alphaOf (logitOf h3 (V (main_arg4 : DevRef τ sig))) (logitOf h3 (V (main_arg5 : DevRef τ sig))) (srcOf ei) (trgOf ei)) (srcOf ei) (trgOf ei)) := by
  after_results_simp
  rfl

end Cert.ReferenceIdeal.RefRun

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«125745_j54700703481984_2_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibBlockOfWhole.lean ====
/-
  Row blocks of whole-array computations, at the ideal values.

  An [N, C] array is cut into blocks of R consecutive rows; the block that starts at row o holds rows o … o + R − 1.
  Every operation of a dense network acts on each row by itself, so computing on a block gives the block of the
  whole-array result: the product of a row block with a weight matrix is the row block of the product; a bias
  vector stretched down R rows is the row block of the vector stretched down N rows; a column stretched across the
  columns, a constant, a sum, a product, a maximum and the logistic function all commute with taking the block.
  The 0/1 mask of "this row's task is t", computed on a block by comparing the block's task column with t, is the
  block of column t of the one-hot array of all tasks.  The logistic function is the quotient 1 / (1 + exp (−z)) by
  definition, and the bit pattern of 1.0 denotes 1.
-/
import Idealize.ShloMosaic.PureOps.Ideal.Laws
import Idealize.ShloMosaic.Lib.ValueIdx
import Idealize.ShloMosaic.Lib.Pipeline.Value
import Idealize.ShloMosaic.Lib.KernelVsHost
import proofs.«125745_j54700703481984_2_alg».proof.Proof.LibRowBlocks

noncomputable section

namespace Cert.Blocks

open Idealize.ShloMosaic Idealize.ShloMosaic.ValueIdx Cert.Lib.PlainDot Cert.Bridge
open scoped BigOperators

variable {R N K C : Nat}

/-- Entry (p, c) of the block that starts at row o sits at entry (o + p, c) of the array. -/
def shiftRow (o : Nat) (h : o + R ≤ N) (y : (⟨2, ![R, C]⟩ : Shape).Idx) : (⟨2, ![N, C]⟩ : Shape).Idx := fun a => match a with
  | ⟨0, _⟩ => ⟨o + (y 0).val, Nat.lt_of_lt_of_le (Nat.add_lt_add_left (y 0).isLt o) h⟩
  | ⟨1, _⟩ => ⟨(y 1).val, (y 1).isLt⟩

/-- The block of R rows of an array that starts at row o. -/
def rowBlk {α : Type} (o : Nat) (h : o + R ≤ N) (A : (⟨2, ![N, C]⟩ : Shape).Idx → α) : (⟨2, ![R, C]⟩ : Shape).Idx → α :=
  fun y => A (shiftRow o h y)

theorem rowBlk_apply {α : Type} (o : Nat) (h : o + R ≤ N) (A : (⟨2, ![N, C]⟩ : Shape).Idx → α)
    (y : (⟨2, ![R, C]⟩ : Shape).Idx) : rowBlk o h A y = A (shiftRow o h y) := rfl

theorem shiftRow_rowIdx (o : Nat) (h : o + R ≤ N) (y : (⟨2, ![R, C]⟩ : Shape).Idx) (k : Fin K) :
    shiftRow o h (rowIdx y k) = rowIdx (shiftRow o h y) k :=
  funext fun a => Fin.ext (by match a with | ⟨0, _⟩ => rfl | ⟨1, _⟩ => rfl)

theorem shiftRow_colIdx (o : Nat) (h : o + R ≤ N) (y : (⟨2, ![R, C]⟩ : Shape).Idx) (k : Fin K) :
    (colIdx y k : (⟨2, ![K, C]⟩ : Shape).Idx) = colIdx (shiftRow o h y) k :=
  funext fun a => Fin.ext (by match a with | ⟨0, _⟩ => rfl | ⟨1, _⟩ => rfl)

theorem shiftRow_rowZero (o : Nat) (h : o + R ≤ N) (y : (⟨2, ![R, C]⟩ : Shape).Idx) :
    (rowZero y : (⟨2, ![1, C]⟩ : Shape).Idx) = rowZero (shiftRow o h y) :=
  funext fun a => Fin.ext (by match a with | ⟨0, _⟩ => rfl | ⟨1, _⟩ => rfl)

/-! ## Pointwise operations -/

/-- A change of float format is the identity on the extended reals. -/
theorem truncf_ideal {s : Shape} {φ ψ : FTy} (hψ : ψ.bits < φ.bits) (v : FVec Ideal s φ) :
    (truncf ψ v hψ : FVec Ideal s ψ) = v := rfl

theorem addf_rowBlk {φ : FTy} (o : Nat) (h : o + R ≤ N) (A B : FVec Ideal ⟨2, ![N, C]⟩ φ) :
    addf (rowBlk o h A) (rowBlk o h B) = rowBlk o h (addf A B) := rfl

theorem mulf_rowBlk {φ : FTy} (o : Nat) (h : o + R ≤ N) (A B : FVec Ideal ⟨2, ![N, C]⟩ φ) :
    mulf (rowBlk o h A) (rowBlk o h B) = rowBlk o h (mulf A B) := rfl

theorem maximumf_rowBlk {φ : FTy} (o : Nat) (h : o + R ≤ N) (A B : FVec Ideal ⟨2, ![N, C]⟩ φ) :
    maximumf (rowBlk o h A) (rowBlk o h B) = rowBlk o h (maximumf A B) := rfl

/-- A constant array is the block of the constant array. -/
theorem splat_rowBlk (o : Nat) (h : o + R ≤ N) (z : BitVec 32)
    (hZ : (⟨0, ![]⟩ : Shape).BroadcastsInDim ⟨2, ![N, C]⟩ ![]) :
    (broadcast ⟨2, ![R, C]⟩ (Scalar.ofBits (F := Ideal) .f32 z) : FVec Ideal ⟨2, ![R, C]⟩ .f32)
      = rowBlk o h (broadcastInDim ⟨2, ![N, C]⟩ ![] hZ (constant (F := Ideal) ⟨0, ![]⟩ .f32 z)) := by
  funext y
  rw [rowBlk_apply, hostSplat_apply]
  rfl

/-! ## The dense layer's pieces -/

/-- The product of a row block with a weight matrix is the row block of the product. -/
theorem matmul_rowBlk {φ₁ φ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (X : FVec Ideal ⟨2, ![N, K]⟩ φ₁) (W : FVec Ideal ⟨2, ![K, C]⟩ φ₂) :
    matmul d none (rowBlk o h X) W (constant ⟨2, ![R, C]⟩ .f32 0x00000000#32) = rowBlk o h (Host.dotGeneral D none X W) :=
  funext fun y => dot_block d hd D hD none none X W (rowBlk o h X) W (shiftRow o h) id (shiftRow o h)
    (fun _ => rfl) (fun _ => rfl) (fun y k => shiftRow_rowIdx o h y k) (fun y k => shiftRow_colIdx o h y k) y

/-- A bias vector laid out as one row and stretched down R rows is the row block of the vector broadcast along a new
    leading axis and then down N rows. -/
theorem biasRow_rowBlk {φ : FTy} (o : Nat) (h : o + R ≤ N) (v : FVec Ideal ⟨1, ![C]⟩ φ)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    broadcastTo ⟨2, ![R, C]⟩ (shapeCast ⟨2, ![1, C]⟩ v h2) hb
      = rowBlk o h (broadcastInDim ⟨2, ![N, C]⟩ ![0, 1] hB (broadcastInDim ⟨2, ![1, C]⟩ ![1] hb' v)) := by
  funext y
  rw [rowBlk_apply, stretchRow_apply, hostStretchRow_apply, reshapeRow_eq v h2 hb', shiftRow_rowZero o h y]

/-- Entry (p, 0) of a one-column matrix, for the row p of the entry `j`. -/
abbrev colZero {A : Nat} (j : (⟨2, ![A, C]⟩ : Shape).Idx) : (⟨2, ![A, 1]⟩ : Shape).Idx := fun a => match a with
  | ⟨0, _⟩ => ⟨(j 0).val, (j 0).isLt⟩
  | ⟨1, _⟩ => ⟨0, Nat.one_pos⟩

/-- A column stretched across C columns, on a block, is the block of the column stretched across C columns. -/
theorem colStretch_rowBlk {α : Type} (o : Nat) (h : o + R ≤ N) (M : (⟨2, ![N, 1]⟩ : Shape).Idx → α)
    (hb : (⟨2, ![R, 1]⟩ : Shape).Broadcasts ⟨2, ![R, C]⟩)
    (hB : (⟨2, ![N, 1]⟩ : Shape).BroadcastsInDim ⟨2, ![N, C]⟩ ![0, 1]) :
    broadcastTo ⟨2, ![R, C]⟩ (rowBlk (C := 1) o h M) hb = rowBlk o h (broadcastInDim ⟨2, ![N, C]⟩ ![0, 1] hB M) := by
  funext y
  have e1 : broadcastTo ⟨2, ![R, C]⟩ (rowBlk (C := 1) o h M) hb y = rowBlk (C := 1) o h M (colZero y) :=
    broadcastTo_apply _ hb y (colZero y) (fun a => by
      match a with
      | ⟨0, _⟩ =>
        show (y 0).val = if R = 1 then 0 else (y 0).val
        have hlt : (y 0).val < R := (y 0).isLt
        split_ifs with hR
        · omega
        · rfl
      | ⟨1, _⟩ => exact (if_pos rfl).symm)
  have e2 : broadcastInDim ⟨2, ![N, C]⟩ ![0, 1] hB M (shiftRow o h y) = M (colZero (shiftRow o h y)) :=
    broadcastInDim_apply ![0, 1] hB M (shiftRow o h y) (colZero (shiftRow o h y)) (fun a => by
      match a with
      | ⟨0, _⟩ =>
        show o + (y 0).val = if N = 1 then 0 else o + (y 0).val
        have hlt : (y 0).val < R := (y 0).isLt
        split_ifs with hN
        · omega
        · rfl
      | ⟨1, _⟩ => exact (if_pos rfl).symm)
  rw [e1, rowBlk_apply, rowBlk_apply, e2]
  exact congrArg M (funext fun a => Fin.ext (by match a with | ⟨0, _⟩ => rfl | ⟨1, _⟩ => rfl))

/-! ## The task mask -/

/-- The block's 0/1 flag "the row's task word is t" is the block of column t of the one-hot array of the tasks:
    a one-bit comparison widened to 32 bits and read as a signed number is the bit read as an unsigned number,
    and column t of the counting row 0, 1, 2, 3 stretched down the rows holds the word t. -/
theorem mask_rowBlk (o : Nat) (h : o + R ≤ N) (BT : IVec ⟨1, ![N]⟩ 32) (t : Nat) (ht : t < 4) (w : BitVec 32)
    (hw : w = BitVec.ofNat 32 t) (hlt : 1 < 32)
    (hs : (⟨1, ![N]⟩ : Shape).ShapeCasts ⟨2, ![N, 1]⟩)
    (h1 : (⟨1, ![N]⟩ : Shape).BroadcastsInDim ⟨2, ![N, 1]⟩ ![0])
    (h2 : (⟨2, ![N, 1]⟩ : Shape).BroadcastsInDim ⟨2, ![N, 4]⟩ ![0, 1])
    (h3 : (⟨2, ![1, 4]⟩ : Shape).BroadcastsInDim ⟨2, ![N, 4]⟩ ![0, 1])
    (hsl : (⟨2, ![N, 4]⟩ : Shape).Slices ![0, t] ⟨2, ![N, 1]⟩) :
    (sitofp .f32 (extui 32 (cmpi .eq (rowBlk (C := 1) o h (shapeCast ⟨2, ![N, 1]⟩ BT hs)) (broadcast ⟨2, ![R, 1]⟩ w)) hlt)
        : FVec Ideal ⟨2, ![R, 1]⟩ .f32)
      = rowBlk (C := 1) o h (extractStridedSlice ⟨2, ![N, 1]⟩ ![0, t]
          (uitofp (F := Ideal) .f32 (cmpi .eq (broadcastInDim ⟨2, ![N, 4]⟩ ![0, 1] h2 (broadcastInDim ⟨2, ![N, 1]⟩ ![0] h1 BT))
            (broadcastInDim ⟨2, ![N, 4]⟩ ![0, 1] h3 (iotaInDim ⟨2, ![1, 4]⟩ 32 1)))) hsl) := by
  rw [sitofp_extui_eq_uitofp]
  funext y
  rw [rowBlk_apply]
  have hlt : (y 0).val < R := (y 0).isLt
  have hy1 : (y 1).val < 1 := (y 1).isLt
  have hi : o + (y 0).val < N := by omega
  have eL : shapeCast ⟨2, ![N, 1]⟩ BT hs (shiftRow o h y) = BT (ix1 (⟨o + (y 0).val, hi⟩ : Fin N)) :=
    shapeCast_apply BT hs _ (ix1 (⟨o + (y 0).val, hi⟩ : Fin N)) (by
      rw [Shape.rowMajor_val_one, Shape.rowMajor_val_two]
      show o + (y 0).val = (o + (y 0).val) * 1 + (y 1).val
      omega)
  have eS : ∀ G : (⟨2, ![N, 4]⟩ : Shape).Idx → EReal,
      extractStridedSlice ⟨2, ![N, 1]⟩ ![0, t] G hsl (shiftRow o h y)
        = G (ix2 (⟨o + (y 0).val, hi⟩ : Fin N) (⟨t, ht⟩ : Fin 4)) := fun G =>
    extractStridedSlice_apply _ G hsl _ (ix2 (⟨o + (y 0).val, hi⟩ : Fin N) (⟨t, ht⟩ : Fin 4)) (fun a => by
      match a with
      | ⟨0, _⟩ => exact (Nat.zero_add _).symm
      | ⟨1, _⟩ =>
        show t = t + (y 1).val
        omega)
  have eP : broadcastInDim ⟨2, ![N, 4]⟩ ![0, 1] h2 (broadcastInDim ⟨2, ![N, 1]⟩ ![0] h1 BT)
      (ix2 (⟨o + (y 0).val, hi⟩ : Fin N) (⟨t, ht⟩ : Fin 4)) = BT (ix1 (⟨o + (y 0).val, hi⟩ : Fin N)) := by
    rw [broadcastInDim_apply ![0, 1] h2 _ _ (ix2 (⟨o + (y 0).val, hi⟩ : Fin N) (0 : Fin 1)) (fun a => by
        match a with
        | ⟨0, _⟩ =>
          show o + (y 0).val = if N = 1 then 0 else o + (y 0).val
          split_ifs with hN
          · omega
          · rfl
        | ⟨1, _⟩ => exact (if_pos rfl).symm),
      broadcastInDim_apply ![0] h1 BT _ (ix1 (⟨o + (y 0).val, hi⟩ : Fin N)) (fun a => by
        match a with
        | ⟨0, _⟩ =>
          show o + (y 0).val = if N = 1 then 0 else o + (y 0).val
          split_ifs with hN
          · omega
          · rfl)]
  have eQ : broadcastInDim ⟨2, ![N, 4]⟩ ![0, 1] h3 (iotaInDim ⟨2, ![1, 4]⟩ 32 1)
      (ix2 (⟨o + (y 0).val, hi⟩ : Fin N) (⟨t, ht⟩ : Fin 4)) = BitVec.ofNat 32 t := by
    rw [broadcastInDim_apply ![0, 1] h3 _ _ (ix2 (0 : Fin 1) (⟨t, ht⟩ : Fin 4)) (fun a => by
        match a with
        | ⟨0, _⟩ => exact (if_pos rfl).symm
        | ⟨1, _⟩ =>
          show t = if (4 : Nat) = 1 then 0 else t
          rw [if_neg (by decide)])]
    rfl
  rw [eS]
  show FloatOps.uitofp .f32 (IntOp.cmpi .eq (shapeCast ⟨2, ![N, 1]⟩ BT hs (shiftRow o h y)) w)
    = FloatOps.uitofp .f32 (IntOp.cmpi .eq
        (broadcastInDim ⟨2, ![N, 4]⟩ ![0, 1] h2 (broadcastInDim ⟨2, ![N, 1]⟩ ![0] h1 BT)
          (ix2 (⟨o + (y 0).val, hi⟩ : Fin N) (⟨t, ht⟩ : Fin 4)))
        (broadcastInDim ⟨2, ![N, 4]⟩ ![0, 1] h3 (iotaInDim ⟨2, ![1, 4]⟩ 32 1)
          (ix2 (⟨o + (y 0).val, hi⟩ : Fin N) (⟨t, ht⟩ : Fin 4))))
  rw [eL, eP, eQ, hw]

/-! ## The logistic function -/

/-- The bit pattern of 1.0 denotes the real number 1. -/
theorem ofBits_one_f32 : Ideal.ofBits .f32 0x3F800000#32 = 1 := by
  simp [Ideal.ofBits, Ideal.ieee, -EReal.coe_mul]; norm_num

/-- The logistic function of a block is the block of the quotient 1 / (1 + exp (−z)). -/
theorem logistic_rowBlk (o : Nat) (h : o + R ≤ N) (Z : FVec Ideal ⟨2, ![N, C]⟩ .f32)
    (h1 : (⟨0, ![]⟩ : Shape).BroadcastsInDim ⟨2, ![N, C]⟩ ![]) :
    logistic (rowBlk o h Z)
      = rowBlk o h (Host.divf (broadcastInDim ⟨2, ![N, C]⟩ ![] h1 (constant (F := Ideal) ⟨0, ![]⟩ .f32 0x3F800000#32))
          (addf (broadcastInDim ⟨2, ![N, C]⟩ ![] h1 (constant (F := Ideal) ⟨0, ![]⟩ .f32 0x3F800000#32)) (Host.exp (Host.negf Z)))) := by
  funext y
  rw [rowBlk_apply]
  have hsplat : ∀ i, broadcastInDim ⟨2, ![N, C]⟩ ![] h1 (constant (F := Ideal) ⟨0, ![]⟩ .f32 0x3F800000#32) i = 1 :=
    fun i => (hostSplat_apply _ h1 i).trans ofBits_one_f32
  show Ideal.logistic (Z (shiftRow o h y))
    = Ideal.div (broadcastInDim ⟨2, ![N, C]⟩ ![] h1 (constant (F := Ideal) ⟨0, ![]⟩ .f32 0x3F800000#32) (shiftRow o h y))
        (broadcastInDim ⟨2, ![N, C]⟩ ![] h1 (constant (F := Ideal) ⟨0, ![]⟩ .f32 0x3F800000#32) (shiftRow o h y)
          + Ideal.exp (-(Z (shiftRow o h y))))
  rw [hsplat]
  rfl

end Cert.Blocks

end
-- ==== Proof.KPay.lean ====
/-
  The kernel body's two stored values, on a block of 2000 consecutive rows, are the blocks of two whole-array
  computations.

  The body multiplies its block of x by W (into zeros), adds the bias row stretched down the block, and stores that
  (narrowed, which changes no extended real); then multiplies the same sum by the [256, 16] selector matrix (into
  zeros) and stores the sixteen logits per row. Every step acts on each row by itself, so the first stored block is
  the block of x · W + b computed on all 50000 rows, and the second is the block of (x · W + b) · S.
-/
import proofs.«125745_j54700703481984_2_alg».proof.Proof.Gen.KernelIdeal.Skeleton
import proofs.«125745_j54700703481984_2_alg».proof.Proof.LibBlockOfWhole

noncomputable section

namespace Cert.KernelIdeal.Pay

open Cert.KernelIdeal Cert.KernelIdeal.Gen Idealize.ShloMosaic Idealize.ShloMosaic.ValueIdx Cert.Blocks Cert.Bridge

/-- The projected rows of all nodes: x · W + b, the bias laid out as a row and stretched down the rows. -/
def projOf (hb' : S256.BroadcastsInDim S1x256 ![1]) (hB : S1x256.BroadcastsInDim S50000x256 ![0, 1])
    (X : FVec Ideal S50000x256 .f32) (W : FVec Ideal S256x256 .f32) (b : FVec Ideal S256 .f32) : FVec Ideal S50000x256 .f32 :=
  addf (Host.dotGeneral (DotDims.plain 50000 256 256) none X W)
    (broadcastInDim S50000x256 ![0, 1] hB (broadcastInDim S1x256 ![1] hb' b))

/-- The sixteen logits of all nodes: the projected rows times the selector matrix. -/
def logitsOf (hb' : S256.BroadcastsInDim S1x256 ![1]) (hB : S1x256.BroadcastsInDim S50000x256 ![0, 1])
    (X : FVec Ideal S50000x256 .f32) (W : FVec Ideal S256x256 .f32) (b : FVec Ideal S256 .f32)
    (sel : FVec Ideal S256x16 .f32) : FVec Ideal S50000x16 .f32 :=
  Host.dotGeneral (DotDims.plain 50000 256 16) none (projOf hb' hB X W b) sel

variable (hb' : S256.BroadcastsInDim S1x256 ![1]) (hB : S1x256.BroadcastsInDim S50000x256 ![0, 1])
  (o : Nat) (h : o + 2000 ≤ 50000) (h16 : o + 2000 ≤ 50000)
  (X : FVec Ideal S50000x256 .f32) (W : FVec Ideal S256x256 .f32) (b : FVec Ideal S256 .f32) (sel : FVec Ideal S256x16 .f32)

/-- The block's projected rows are the block of the projected rows. -/
theorem pay1_rowBlk :
    k0_pay1 (F := Ideal) (rowBlk o h X) W (shapeCast S1x256 b shapeCasts_S256_S1x256) = rowBlk o h (projOf hb' hB X W b) := by
  unfold k0_pay1 projOf
  show addf (matmul dot_S2000x256_S256x256_S2000x256_1_0_0_1_n_n none (rowBlk o h X) W (constant S2000x256 .f32 0x00000000#32))
      (broadcastTo S2000x256 (shapeCast S1x256 (shapeCast S1x256 b shapeCasts_S256_S1x256) shapeCasts_S1x256_S1x256) broadcasts_S1x256_S2000x256) = _
  rw [shapeCast_self, matmul_rowBlk o h dot_S2000x256_S256x256_S2000x256_1_0_0_1_n_n rfl (DotDims.plain 50000 256 256) rfl X W,
    biasRow_rowBlk o h b shapeCasts_S256_S1x256 broadcasts_S1x256_S2000x256 hb' hB, addf_rowBlk]

/-- The stored (narrowed) block holds the same extended reals. -/
theorem pay2_rowBlk (y : S2000x256.Idx) :
    k0_pay2 (F := Ideal) (rowBlk o h X) W (shapeCast S1x256 b shapeCasts_S256_S1x256) y = rowBlk o h (projOf hb' hB X W b) y := by
  unfold k0_pay2
  show k0_pay1 (F := Ideal) (rowBlk o h X) W (shapeCast S1x256 b shapeCasts_S256_S1x256) y = _
  rw [pay1_rowBlk hb' hB o h X W b]

/-- The block's sixteen logits are the block of the logits. -/
theorem pay3_rowBlk :
    k0_pay3 (F := Ideal) (rowBlk o h X) W (shapeCast S1x256 b shapeCasts_S256_S1x256) sel
      = rowBlk (C := 16) o h16 (logitsOf hb' hB X W b sel) := by
  funext y
  unfold k0_pay3 logitsOf
  show matmul dot_S2000x256_S256x16_S2000x16_1_0_0_1_n_n (some .fp32)
      (k0_pay1 (F := Ideal) (rowBlk o h X) W (shapeCast S1x256 b shapeCasts_S256_S1x256))
      (shapeCast S256x16 sel shapeCasts_S256x16_S256x16) (constant S2000x16 .f32 0x00000000#32) y = _
  rw [shapeCast_self, pay1_rowBlk hb' hB o h X W b]
  exact Cert.Bridge.dot_block dot_S2000x256_S256x16_S2000x16_1_0_0_1_n_n rfl (DotDims.plain 50000 256 16) rfl (some .fp32) none
    (projOf hb' hB X W b) sel (rowBlk o h (projOf hb' hB X W b)) sel (shiftRow o h) id (shiftRow o h16)
    (fun _ => rfl) (fun _ => rfl) (fun y k => shiftRow_rowIdx o h16 y k) (fun y k => shiftRow_colIdx o h16 y k) y

end Cert.KernelIdeal.Pay

end
-- ==== Proof.LibScatterForms.lean ====
/-
  The host's scatter-add in two spellings of one sum.

  Updates `u e`, one per edge `e`, are added onto the entries `dst e` of a node array. Spelt over vectors, the
  operand is `[N]` and the updates `[E]`; spelt with a trailing unit axis, the operand is `[N, 1]` and the updates
  are rows `[E, 1]` that land whole. In both, the start index of update `e` is read signed off the same index
  column and is NOT clamped, so update `e` lands on node `n` exactly when `dst e = n`; the two scattered arrays
  therefore agree entry by entry when the updates and the operands do.
-/
import Idealize.ShloMosaic.PureOps.Ideal.Laws
import Idealize.ShloMosaic.Lib.ValueIdx

noncomputable section

namespace Cert.ScatterForms

open Idealize.ShloMosaic Idealize.ShloMosaic.ValueIdx

/-- An update lands on operand entry `i` exactly when, on every axis, its unclamped start plus its window
    coordinate is `i`'s coordinate (being a coordinate of `i`, that sum is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have h1 := congrArg (fun f => (f a).val) (Option.some.inj he)
      have h2 := (h a).1
      simp only at h1
      omega
    · intro he
      refine congrArg some (funext fun a => Fin.ext ?_)
      have h1 := he a
      have h2 := (h a).1
      show (d.start j idx a + (d.window j a : Int)).toNat = (i a).val
      omega
  · rename_i h
    constructor
    · intro he
      exact absurd he (by simp)
    · intro he
      exfalso
      apply h
      intro a
      have h1 := he a
      have h2 := (i a).isLt
      constructor <;> omega

/-! ## Over vectors -/

/-- The dimension numbers of `x.at[idx].add(u)` for `x : [N]`, `idx : [E]` given as a column `[E, 1]`, `u : [E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_start {N E w : Nat} (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window {N E : Nat} (wf : ScatterDims.WF ⟨1, ![N]⟩ ⟨2, ![E, 1]⟩ ⟨1, ![E]⟩ [] [0] [0] 1) (e : Fin E) :
    (vecScatter N E wf).window (ix1 e) 0 = 0 := by
  unfold ScatterDims.window
  rw [dif_neg (show ¬ (0 : Fin 1) ∈ (vecScatter N E wf).sKept from
    fun h => (of_decide_eq_true (List.mem_filter.mp h).2) (List.mem_singleton.mpr rfl))]

/-- Update `e` lands on entry `n` exactly when its index, read signed, is `n`. -/
theorem vecScatter_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e (0 : Fin 1))).toInt = (n.val : Int) := by
  rw [resultIdx?_eq_some_iff]
  constructor
  · intro h
    have h0 : (idx (ix2 e (0 : Fin 1))).toInt + ((0 : ℕ) : Int) = (n.val : Int) := by
      have := h 0
      rwa [vecScatter_start, vecScatter_window] at this
    simpa using h0
  · intro h a
    obtain rfl : a = 0 := Subsingleton.elim _ _
    show (vecScatter N E wf).start (ix1 e) idx 0 + ((vecScatter N E wf).window (ix1 e) 0 : Int) = (n.val : Int)
    rw [vecScatter_start, vecScatter_window]
    simpa using h

/-! ## With a trailing unit axis -/

/-- The dimension numbers of `x.at[idx].add(u)` for `x : [N, 1]`, `idx : [E]` given as a column `[E, 1]`, `u : [E, 1]`:
    update row `e` goes, whole, to operand row `idx[e]`. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

theorem colScatter_start0 {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) :
    (colScatter N E wf).start (ix2 e c) idx 0 = (idx (ix2 e (0 : Fin 1))).toInt := by
  unfold ScatterDims.start
  rw [dif_pos (show (0 : Fin 2) ∈ (colScatter N E wf).scatterDimsToOperandDims from List.mem_singleton.mpr rfl)]
  have hsi : (colScatter N E wf).siIdx (ix2 e c) ⟨List.idxOf (0 : Fin 2) (colScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem colScatter_window0 {N E : Nat} (wf : ScatterDims.WF ⟨2, ![N, 1]⟩ ⟨2, ![E, 1]⟩ ⟨2, ![E, 1]⟩ [1] [0] [0] 1)
    (e : Fin E) (c : Fin 1) : (colScatter N E wf).window (ix2 e c) 0 = 0 := by
  unfold ScatterDims.window
  rw [dif_neg (show ¬ (0 : Fin 2) ∈ (colScatter N E wf).sKept from
    fun h => (of_decide_eq_true (List.mem_filter.mp h).2) (List.mem_singleton.mpr rfl))]

/-- On the unit axis the window coordinate of update `(e, c)` is `c` itself. -/
theorem colScatter_window1 {N E : Nat} (wf : ScatterDims.WF ⟨2, ![N, 1]⟩ ⟨2, ![E, 1]⟩ ⟨2, ![E, 1]⟩ [1] [0] [0] 1)
    (e : Fin E) (c : Fin 1) : (colScatter N E wf).window (ix2 e c) 1 = c.val := by
  have hk : (1 : Fin 2) ∈ (colScatter N E wf).sKept := by
    simp [ScatterDims.sKept, Shape.kept, List.mem_filter, List.mem_finRange]
  have hoff : ∀ (k : Nat) (hk : k < (colScatter N E wf).updateWindowDims.length),
      (colScatter N E wf).updateWindowDims[k]'hk = (1 : Fin 2) := by
    intro k hk
    match k, hk with
    | 0, _ => rfl
  unfold ScatterDims.window
  rw [dif_pos hk]
  show ((ix2 e c) ((colScatter N E wf).updateWindowDims[List.idxOf (1 : Fin 2) (colScatter N E wf).sKept]'_)).val = c.val
  rw [hoff]

/-- The unit axis is not indexed: its start is 0. -/
theorem colScatter_start1 {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) : (colScatter N E wf).start (ix2 e c) idx 1 = 0 := by
  unfold ScatterDims.start
  rw [dif_neg (show ¬ (1 : Fin 2) ∈ (colScatter N E wf).scatterDimsToOperandDims from
    fun h => absurd (congrArg Fin.val (List.mem_singleton.mp h)) Nat.one_ne_zero)]

/-- Update row `e` lands on row `n` exactly when its index, read signed, is `n`. -/
theorem colScatter_lands {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) (n : Fin N) (z : Fin 1) :
    (colScatter N E wf).resultIdx? (ix2 e c) idx = some (ix2 n z) ↔ (idx (ix2 e (0 : Fin 1))).toInt = (n.val : Int) := by
  rw [resultIdx?_eq_some_iff]
  constructor
  · intro h
    have h0 : (idx (ix2 e (0 : Fin 1))).toInt + ((0 : ℕ) : Int) = (n.val : Int) := by
      have := h 0
      rwa [colScatter_start0, colScatter_window0] at this
    simpa using h0
  · intro h a
    match a with
    | ⟨0, _⟩ =>
      show (colScatter N E wf).start (ix2 e c) idx 0 + ((colScatter N E wf).window (ix2 e c) 0 : Int) = (n.val : Int)
      rw [colScatter_start0, colScatter_window0]
      simpa using h
    | ⟨1, _⟩ =>
      show (colScatter N E wf).start (ix2 e c) idx 1 + ((colScatter N E wf).window (ix2 e c) 1 : Int) = (z.val : Int)
      rw [colScatter_start1, colScatter_window1]
      have hc := c.isLt
      have hz := z.isLt
      omega

/-! ## The two spellings give one sum -/

/-- THE LAW that joins the two programs' scatters: with the same index column, operands that agree at node `n` and
    updates that agree edge by edge, the scattered vector at `n` is the scattered column at `(n, 0)` — the updates that
    land there are the same edges. -/
theorem scatterAdd_vec_eq_col {N E w : Nat}
    (wfK : ScatterDims.WF ⟨1, ![N]⟩ ⟨2, ![E, 1]⟩ ⟨1, ![E]⟩ [] [0] [0] 1)
    (wfR : ScatterDims.WF ⟨2, ![N, 1]⟩ ⟨2, ![E, 1]⟩ ⟨2, ![E, 1]⟩ [1] [0] [0] 1)
    (idx : IVec ⟨2, ![E, 1]⟩ w)
    (xK : (⟨1, ![N]⟩ : Shape).Idx → EReal) (xR : (⟨2, ![N, 1]⟩ : Shape).Idx → EReal)
    (uK : (⟨1, ![E]⟩ : Shape).Idx → EReal) (uR : (⟨2, ![E, 1]⟩ : Shape).Idx → EReal)
    (n : Fin N) (z : Fin 1) (hx : xK (ix1 n) = xR (ix2 n z))
    (hu : ∀ e : Fin E, uK (ix1 e) = uR (ix2 e (0 : Fin 1))) :
    Ideal.hostScatterAdd (vecScatter N E wfK) xK idx uK (ix1 n)
      = Ideal.hostScatterAdd (colScatter N E wfR) xR idx uR (ix2 n z) := by
  unfold Ideal.hostScatterAdd
  rw [hx]
  congr 1
  refine Finset.sum_bij' (fun j _ => ix2 (j 0) (0 : Fin 1)) (fun j _ => ix1 (j 0)) ?_ ?_ ?_ ?_ ?_
  · intro j hj
    obtain ⟨e, rfl⟩ : ∃ e, j = ix1 e := ⟨j 0, eq_ix1 j⟩
    rw [Finset.mem_filter] at hj ⊢
    exact ⟨Finset.mem_univ _, (colScatter_lands wfR idx e 0 n z).mpr ((vecScatter_lands wfK idx e n).mp hj.2)⟩
  · intro j hj
    obtain ⟨e, c, rfl⟩ : ∃ e c, j = ix2 e c := ⟨j 0, j 1, eq_ix2 j⟩
    rw [Finset.mem_filter] at hj ⊢
    exact ⟨Finset.mem_univ _, (vecScatter_lands wfK idx e n).mpr ((colScatter_lands wfR idx e c n z).mp hj.2)⟩
  · intro j _
    exact (eq_ix1 j).symm
  · intro j _
    funext a
    match a with
    | ⟨0, _⟩ => rfl
    | ⟨1, _⟩ =>
      refine Fin.ext ?_
      have := idx2_lt1 j
      show (0 : ℕ) = (j 1).val
      omega
  · intro j _
    obtain ⟨e, rfl⟩ : ∃ e, j = ix1 e := ⟨j 0, eq_ix1 j⟩
    exact hu e

end Cert.ScatterForms

end
-- ==== Proof.LibRows2.lean ====
/-
  Whole rows of a rank-2 array moved by an index column, read at an entry, and the host's accumulating scatter of
  rows written as a sum over the edges; a vector picked by an index column likewise.

  For an operand of shape [N, D], an index column [E, 1] and rows [E, D]:
  * jnp's x[idx] (a row gather) at entry (e, j) is the operand at row idx[e] — read signed and clamped into
    [0, N − 1] — and the same j;
  * update entry (e, j) of the row scatter lands on operand entry (n, j') exactly when idx[e], read signed and not
    clamped, is n and j = j';
  * hence the scattered sum at (n, j) is the operand entry plus the sum over the edges e with idx[e] = n of the
    update entry (e, j).
  For a vector [N] picked by a column [E, 1], entry e is the vector at idx[e] read signed and clamped.
  Nothing here mentions a program: the shapes are literal ranks with symbolic extents.
-/
import Idealize.ShloMosaic.PureOps.Ideal.Laws
import Idealize.ShloMosaic.Lib.ValueIdx
import proofs.«125745_j54700703481984_2_alg».proof.Proof.LibScatterForms

noncomputable section

namespace Cert.Rows2

open Idealize.ShloMosaic Idealize.ShloMosaic.ValueIdx

/-! ## The row gather of a rank-2 operand -/

/-- The dimension numbers of x[idx] for x : [N, D] and idx : [E] given as a column [E, 1]: whole rows. -/
abbrev pickRows2 (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry (e, j) of the gather is the operand at row idx[e, 0] — read signed and clamped into [0, N − 1] — and the
    same column j. -/
theorem gather_pickRows2_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (pickRows2 N D E wf) x idx (ix2 e j)
      = x (ix2 ⟨min (idx (ix2 e (0 : Fin 1))).toInt.toNat (N - 1), by omega⟩ j) := by
  unfold Host.gather
  congr 1
  funext c
  refine Fin.ext ?_
  have hnb : ∀ c : Fin 2, (pickRows2 N D E wf).batchCoord (ix2 e j) c = 0 := fun c =>
    GatherDims.batchCoord_eq_zero _ _ _ List.not_mem_nil
  have hs : ∀ c : Fin 2, c ≠ 0 → (pickRows2 N D E wf).start (ix2 e j) idx c = 0 := by
    intro c hc
    unfold GatherDims.start
    rw [dif_neg (show ¬ c ∈ (pickRows2 N D E wf).startIndexMap from fun h => hc (List.mem_singleton.mp h))]
  match c with
  | ⟨0, _⟩ =>
    show (pickRows2 N D E wf).start (ix2 e j) idx 0 + (pickRows2 N D E wf).batchCoord (ix2 e j) 0
      + (pickRows2 N D E wf).offCoord (ix2 e j) 0 = _
    rw [hnb, GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickRows2 N D E wf).startIndexMap from List.mem_singleton.mpr rfl)]
    have hsi : (pickRows2 N D E wf).siIdx (ix2 e j) ⟨List.idxOf (0 : Fin 2) (pickRows2 N D E wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl
  | ⟨1, _⟩ =>
    show (pickRows2 N D E wf).start (ix2 e j) idx 1 + (pickRows2 N D E wf).batchCoord (ix2 e j) 1
      + (pickRows2 N D E wf).offCoord (ix2 e j) 1 = j.val
    rw [hs 1 (by decide), hnb]
    have hk : (1 : Fin 2) ∈ (pickRows2 N D E wf).sKept :=
      (GatherDims.mem_sKept _ _).mpr
        ⟨fun h => absurd (congrArg Fin.val (List.mem_singleton.mp h)) Nat.one_ne_zero, List.not_mem_nil⟩
    unfold GatherDims.offCoord
    rw [dif_pos hk, Nat.zero_add]
    rfl

/-! ## A vector picked by an index column -/

/-- The dimension numbers of x[idx] for x : [N] and idx : [E] given as a column [E, 1]: single entries. -/
abbrev pick1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gather is the vector at idx[e, 0], read signed and clamped into [0, N − 1]. -/
theorem gather_pick1_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (pick1 N E wf) x idx (ix1 e)
      = x (ix1 ⟨min (idx (ix2 e (0 : Fin 1))).toInt.toNat (N - 1), by omega⟩) := by
  unfold Host.gather
  congr 1
  funext c
  refine Fin.ext ?_
  have hnb : ∀ c : Fin 1, (pick1 N E wf).batchCoord (ix1 e) c = 0 := fun c =>
    GatherDims.batchCoord_eq_zero _ _ _ List.not_mem_nil
  match c with
  | ⟨0, _⟩ =>
    show (pick1 N E wf).start (ix1 e) idx 0 + (pick1 N E wf).batchCoord (ix1 e) 0
      + (pick1 N E wf).offCoord (ix1 e) 0 = _
    rw [hnb, GatherDims.offCoord_eq_zero _ _ _ (fun h => ((GatherDims.mem_sKept _ _).mp h).1 (List.mem_singleton.mpr rfl))]
    simp only [Nat.add_zero]
    unfold GatherDims.start
    rw [dif_pos (show (0 : Fin 1) ∈ (pick1 N E wf).startIndexMap from List.mem_singleton.mpr rfl)]
    have hsi : (pick1 N E wf).siIdx (ix1 e) ⟨List.idxOf (0 : Fin 1) (pick1 N E wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl

/-! ## The row scatter of a rank-2 operand -/

/-- The dimension numbers of x.at[idx].add(u) for x : [N, D], idx : [E] as a column [E, 1] and u : [E, D]: update
    row e goes, whole, to operand row idx[e]. -/
abbrev rowScatter2 (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section
variable {N D E w : Nat} (wf : ScatterDims.WF ⟨2, ![N, D]⟩ ⟨2, ![E, 1]⟩ ⟨2, ![E, D]⟩ [1] [0] [0] 1)
  (idx : IVec ⟨2, ![E, 1]⟩ w) (e : Fin E) (j : Fin D)

theorem rowScatter2_start0 : (rowScatter2 N D E wf).start (ix2 e j) idx 0 = (idx (ix2 e (0 : Fin 1))).toInt := by
  unfold ScatterDims.start
  rw [dif_pos (show (0 : Fin 2) ∈ (rowScatter2 N D E wf).scatterDimsToOperandDims from List.mem_singleton.mpr rfl)]
  have hsi : (rowScatter2 N D E wf).siIdx (ix2 e j) ⟨List.idxOf (0 : Fin 2) (rowScatter2 N D E wf).scatterDimsToOperandDims,
      List.idxOf_lt_length_iff.2 (List.mem_singleton.mpr rfl)⟩ = ix2 e (0 : Fin 1) := by
    funext q; refine Fin.ext ?_
    match q with
    | ⟨0, _⟩ => rfl
    | ⟨1, _⟩ => rfl
  rw [hsi]

theorem rowScatter2_start1 : (rowScatter2 N D E wf).start (ix2 e j) idx 1 = 0 := by
  unfold ScatterDims.start
  rw [dif_neg (show ¬ (1 : Fin 2) ∈ (rowScatter2 N D E wf).scatterDimsToOperandDims from
    fun h => absurd (congrArg Fin.val (List.mem_singleton.mp h)) Nat.one_ne_zero)]

theorem rowScatter2_window0 : (rowScatter2 N D E wf).window (ix2 e j) 0 = 0 := by
  unfold ScatterDims.window
  rw [dif_neg (show ¬ (0 : Fin 2) ∈ (rowScatter2 N D E wf).sKept from
    fun h => (of_decide_eq_true (List.mem_filter.mp h).2) (List.mem_singleton.mpr rfl))]

theorem rowScatter2_window1 : (rowScatter2 N D E wf).window (ix2 e j) 1 = j.val := by
  have hk : (1 : Fin 2) ∈ (rowScatter2 N D E wf).sKept := by
    simp [ScatterDims.sKept, Shape.kept, List.mem_filter, List.mem_finRange]
  unfold ScatterDims.window
  rw [dif_pos hk]
  rfl

/-- Update entry (e, j) lands on operand entry (n, j') exactly when its row index, read signed, is n and the
    columns agree. -/
theorem rowScatter2_lands (n : Fin N) (j' : Fin D) :
    (rowScatter2 N D E wf).resultIdx? (ix2 e j) idx = some (ix2 n j')
      ↔ (idx (ix2 e (0 : Fin 1))).toInt = (n.val : Int) ∧ j = j' := by
  rw [Cert.ScatterForms.resultIdx?_eq_some_iff]
  constructor
  · intro h
    have h0 : (idx (ix2 e (0 : Fin 1))).toInt + ((0 : ℕ) : Int) = (n.val : Int) := by
      have := h 0
      rwa [rowScatter2_start0, rowScatter2_window0] at this
    have h1 : (0 : Int) + ((j.val : ℕ) : Int) = (j'.val : Int) := by
      have := h 1
      rwa [rowScatter2_start1, rowScatter2_window1] at this
    refine ⟨by simpa using h0, Fin.ext ?_⟩
    omega
  · rintro ⟨h0, rfl⟩ c
    match c with
    | ⟨0, _⟩ =>
      show (rowScatter2 N D E wf).start (ix2 e j) idx 0 + ((rowScatter2 N D E wf).window (ix2 e j) 0 : Int) = (n.val : Int)
      rw [rowScatter2_start0, rowScatter2_window0]
      simpa using h0
    | ⟨1, _⟩ =>
      show (rowScatter2 N D E wf).start (ix2 e j) idx 1 + ((rowScatter2 N D E wf).window (ix2 e j) 1 : Int) = (j.val : Int)
      rw [rowScatter2_start1, rowScatter2_window1]
      simp

end

/-- The scattered sum at entry (n, j): the operand entry plus, over the edges whose row index read signed is n, the
    update entry (e, j). -/
theorem hostScatterAdd_rows2_apply {N D E w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (u : (⟨2, ![E, D]⟩ : Shape).Idx → EReal)
    (n : Fin N) (j : Fin D) :
    Ideal.hostScatterAdd (rowScatter2 N D E wf) x idx u (ix2 n j)
      = x (ix2 n j) + ∑ e : Fin E, if (idx (ix2 e (0 : Fin 1))).toInt = (n.val : Int) then u (ix2 e j) else 0 := by
  unfold Ideal.hostScatterAdd
  congr 1
  rw [← Finset.sum_filter]
  refine Finset.sum_bij' (fun i _ => i 0) (fun e _ => ix2 e j) ?_ ?_ ?_ ?_ ?_
  · intro i hi
    obtain ⟨e, j1, rfl⟩ : ∃ e j1, i = ix2 e j1 := ⟨i 0, i 1, eq_ix2 i⟩
    exact Finset.mem_filter.mpr ⟨Finset.mem_univ _,
      ((rowScatter2_lands wf idx e j1 n j).mp (Finset.mem_filter.mp hi).2).1⟩
  · intro e he
    exact Finset.mem_filter.mpr ⟨Finset.mem_univ _,
      (rowScatter2_lands wf idx e j n j).mpr ⟨(Finset.mem_filter.mp he).2, rfl⟩⟩
  · intro i hi
    obtain ⟨e, j1, rfl⟩ : ∃ e j1, i = ix2 e j1 := ⟨i 0, i 1, eq_ix2 i⟩
    obtain ⟨_, rfl⟩ := (rowScatter2_lands wf idx e j1 n j).mp (Finset.mem_filter.mp hi).2
    rfl
  · intro e _
    rfl
  · intro i hi
    obtain ⟨e, j1, rfl⟩ : ∃ e j1, i = ix2 e j1 := ⟨i 0, i 1, eq_ix2 i⟩
    obtain ⟨_, rfl⟩ := (rowScatter2_lands wf idx e j1 n j).mp (Finset.mem_filter.mp hi).2
    rfl

end Cert.Rows2

end
-- ==== Proof.LibScatterRows.lean ====
/-
  The host's accumulating row scatter, for any dimension numbers that are the row scatter's.

  For an operand [N, D], an index column [E, 1] and update rows [E, D], whatever record of dimension numbers a program
  names, if that record is the row scatter's (update row e goes, whole, to operand row idx[e]) then the scattered sum
  at entry (n, j) is the operand entry plus the sum over the edges whose index word reads signed as n of the update
  entry (e, j). The extents are symbolic.
-/
import proofs.«125745_j54700703481984_2_alg».proof.Proof.LibRows2

noncomputable section

namespace Cert.ScatterRows

open Idealize.ShloMosaic Idealize.ShloMosaic.ValueIdx

/-- The scattered sum at entry (n, j), stated for the host operation as a program prints it. -/
theorem hostScatterAdd_apply {N D E w : Nat} {φ : FTy}
    (d : ScatterDims ⟨2, ![N, D]⟩ ⟨2, ![E, 1]⟩ ⟨2, ![E, D]⟩)
    (wf : ScatterDims.WF ⟨2, ![N, D]⟩ ⟨2, ![E, 1]⟩ ⟨2, ![E, D]⟩ [1] [0] [0] 1)
    (hd : d = Cert.Rows2.rowScatter2 N D E wf)
    (x : FVec Ideal ⟨2, ![N, D]⟩ φ) (idx : IVec ⟨2, ![E, 1]⟩ w) (u : FVec Ideal ⟨2, ![E, D]⟩ φ)
    (n : Fin N) (j : Fin D) :
    Host.scatterAdd (F := Ideal) d x idx u (ix2 n j)
      = x (ix2 n j) + ∑ e : Fin E, if (idx (ix2 e (0 : Fin 1))).toInt = (n.val : Int) then u (ix2 e j) else 0 := by
  subst hd
  exact Cert.Rows2.hostScatterAdd_rows2_apply wf x idx u n j

end Cert.ScatterRows

end
-- ==== Proof.LibRows3.lean ====
/-
  Whole slabs of a rank-3 array moved by an index column, read at an entry, and the host's accumulating scatter of
  slabs written as a sum over the edges.

  For an operand of shape [N, A, B], an index column [E, 1] and slabs [E, A, B]:
  * x[idx] (a gather of whole [A, B] slabs) at entry (e, a, b) is the operand at slab idx[e] — read signed and
    clamped into [0, N − 1] — and the same (a, b);
  * update entry (e, a, b) of the slab scatter lands on operand entry (n, a', b') exactly when idx[e], read signed
    and not clamped, is n and a = a' and b = b';
  * hence the scattered sum at (n, a, b) is the operand entry plus the sum over the edges e with idx[e] = n of the
    update entry (e, a, b).
  Nothing here mentions a program: the rank is literal, the extents symbolic.
-/
import Idealize.ShloMosaic.PureOps.Ideal.Laws
import Idealize.ShloMosaic.Lib.ValueIdx
import proofs.«125745_j54700703481984_2_alg».proof.Proof.LibScatterForms

noncomputable section

namespace Cert.Rows3

open Idealize.ShloMosaic Idealize.ShloMosaic.ValueIdx

/-! ## The slab gather of a rank-3 operand -/

/-- The dimension numbers of x[idx] for x : [N, A, B] and idx : [E] given as a column [E, 1]: whole slabs. -/
abbrev pickSlabs3 (N A B E : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- Entry (e, a, b) of the gather is the operand at slab idx[e, 0] — read signed and clamped into [0, N − 1] — and
    the same (a, b). -/
theorem gather_pickSlabs3_apply {α : Type} {N A B E w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (pickSlabs3 N A B E wf) x idx (ix3 e a b)
      = x (ix3 ⟨min (idx (ix2 e (0 : Fin 1))).toInt.toNat (N - 1), by omega⟩ a b) := by
  unfold Host.gather
  congr 1
  funext c
  refine Fin.ext ?_
  have hnb : ∀ c : Fin 3, (pickSlabs3 N A B E wf).batchCoord (ix3 e a b) c = 0 := fun c =>
    GatherDims.batchCoord_eq_zero _ _ _ List.not_mem_nil
  have hs : ∀ c : Fin 3, c ≠ 0 → (pickSlabs3 N A B E wf).start (ix3 e a b) idx c = 0 := by
    intro c hc
    unfold GatherDims.start
    rw [dif_neg (show ¬ c ∈ (pickSlabs3 N A B E wf).startIndexMap from fun h => hc (List.mem_singleton.mp h))]
  match c with
  | ⟨0, _⟩ =>
    show (pickSlabs3 N A B E wf).start (ix3 e a b) idx 0 + (pickSlabs3 N A B E wf).batchCoord (ix3 e a b) 0
      + (pickSlabs3 N A B E wf).offCoord (ix3 e a b) 0 = _
    rw [hnb, GatherDims.offCoord_eq_zero _ _ _ (fun h => ((GatherDims.mem_sKept _ _).mp h).1 (List.mem_singleton.mpr rfl))]
    simp only [Nat.add_zero]
    unfold GatherDims.start
    rw [dif_pos (show (0 : Fin 3) ∈ (pickSlabs3 N A B E wf).startIndexMap from List.mem_singleton.mpr rfl)]
    have hsi : (pickSlabs3 N A B E wf).siIdx (ix3 e a b) ⟨List.idxOf (0 : Fin 3) (pickSlabs3 N A B E wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl
  | ⟨1, _⟩ =>
    show (pickSlabs3 N A B E wf).start (ix3 e a b) idx 1 + (pickSlabs3 N A B E wf).batchCoord (ix3 e a b) 1
      + (pickSlabs3 N A B E wf).offCoord (ix3 e a b) 1 = a.val
    rw [hs 1 (by decide), hnb]
    have hk : (1 : Fin 3) ∈ (pickSlabs3 N A B E wf).sKept :=
      (GatherDims.mem_sKept _ _).mpr
        ⟨fun h => absurd (congrArg Fin.val (List.mem_singleton.mp h)) Nat.one_ne_zero, List.not_mem_nil⟩
    unfold GatherDims.offCoord
    rw [dif_pos hk, Nat.zero_add]
    rfl
  | ⟨2, _⟩ =>
    show (pickSlabs3 N A B E wf).start (ix3 e a b) idx 2 + (pickSlabs3 N A B E wf).batchCoord (ix3 e a b) 2
      + (pickSlabs3 N A B E wf).offCoord (ix3 e a b) 2 = b.val
    rw [hs 2 (by decide), hnb]
    have hk : (2 : Fin 3) ∈ (pickSlabs3 N A B E wf).sKept :=
      (GatherDims.mem_sKept _ _).mpr
        ⟨fun h => absurd (List.mem_singleton.mp h) (by decide : (2 : Fin 3) ≠ 0), List.not_mem_nil⟩
    unfold GatherDims.offCoord
    rw [dif_pos hk, Nat.zero_add]
    rfl

/-! ## The slab scatter of a rank-3 operand -/

/-- The dimension numbers of x.at[idx].add(u) for x : [N, A, B], idx : [E] as a column [E, 1] and u : [E, A, B]:
    update slab e goes, whole, to operand slab idx[e]. -/
abbrev slabScatter3 (N A B E : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

section
variable {N A B E w : Nat} (wf : ScatterDims.WF ⟨3, ![N, A, B]⟩ ⟨2, ![E, 1]⟩ ⟨3, ![E, A, B]⟩ [1, 2] [0] [0] 1)
  (idx : IVec ⟨2, ![E, 1]⟩ w) (e : Fin E) (a : Fin A) (b : Fin B)

theorem slabScatter3_start0 :
    (slabScatter3 N A B E wf).start (ix3 e a b) idx 0 = (idx (ix2 e (0 : Fin 1))).toInt := by
  unfold ScatterDims.start
  rw [dif_pos (show (0 : Fin 3) ∈ (slabScatter3 N A B E wf).scatterDimsToOperandDims from List.mem_singleton.mpr rfl)]
  have hsi : (slabScatter3 N A B E wf).siIdx (ix3 e a b) ⟨List.idxOf (0 : Fin 3) (slabScatter3 N A B E wf).scatterDimsToOperandDims,
      List.idxOf_lt_length_iff.2 (List.mem_singleton.mpr rfl)⟩ = ix2 e (0 : Fin 1) := by
    funext q; refine Fin.ext ?_
    match q with
    | ⟨0, _⟩ => rfl
    | ⟨1, _⟩ => rfl
  rw [hsi]

theorem slabScatter3_start_ne (c : Fin 3) (hc : c ≠ 0) : (slabScatter3 N A B E wf).start (ix3 e a b) idx c = 0 := by
  unfold ScatterDims.start
  rw [dif_neg (show ¬ c ∈ (slabScatter3 N A B E wf).scatterDimsToOperandDims from fun h => hc (List.mem_singleton.mp h))]

theorem slabScatter3_window0 : (slabScatter3 N A B E wf).window (ix3 e a b) 0 = 0 := by
  unfold ScatterDims.window
  rw [dif_neg (show ¬ (0 : Fin 3) ∈ (slabScatter3 N A B E wf).sKept from
    fun h => (of_decide_eq_true (List.mem_filter.mp h).2) (List.mem_singleton.mpr rfl))]

theorem slabScatter3_window1 : (slabScatter3 N A B E wf).window (ix3 e a b) 1 = a.val := by
  have hk : (1 : Fin 3) ∈ (slabScatter3 N A B E wf).sKept := by
    simp [ScatterDims.sKept, Shape.kept, List.mem_filter, List.mem_finRange]
  unfold ScatterDims.window
  rw [dif_pos hk]
  rfl

theorem slabScatter3_window2 : (slabScatter3 N A B E wf).window (ix3 e a b) 2 = b.val := by
  have hk : (2 : Fin 3) ∈ (slabScatter3 N A B E wf).sKept := by
    simp [ScatterDims.sKept, Shape.kept, List.mem_filter, List.mem_finRange]
  unfold ScatterDims.window
  rw [dif_pos hk]
  rfl

/-- Update entry (e, a, b) lands on operand entry (n, a', b') exactly when its slab index, read signed, is n and the
    positions inside the slab agree. -/
theorem slabScatter3_lands (n : Fin N) (a' : Fin A) (b' : Fin B) :
    (slabScatter3 N A B E wf).resultIdx? (ix3 e a b) idx = some (ix3 n a' b')
      ↔ (idx (ix2 e (0 : Fin 1))).toInt = (n.val : Int) ∧ a = a' ∧ b = b' := by
  rw [Cert.ScatterForms.resultIdx?_eq_some_iff]
  constructor
  · intro h
    have h0 : (idx (ix2 e (0 : Fin 1))).toInt + ((0 : ℕ) : Int) = (n.val : Int) := by
      have := h 0
      rwa [slabScatter3_start0, slabScatter3_window0] at this
    have h1 : (0 : Int) + ((a.val : ℕ) : Int) = (a'.val : Int) := by
      have := h 1
      rwa [slabScatter3_start_ne wf idx e a b 1 (by decide), slabScatter3_window1] at this
    have h2 : (0 : Int) + ((b.val : ℕ) : Int) = (b'.val : Int) := by
      have := h 2
      rwa [slabScatter3_start_ne wf idx e a b 2 (by decide), slabScatter3_window2] at this
    refine ⟨by simpa using h0, Fin.ext ?_, Fin.ext ?_⟩
    · omega
    · omega
  · rintro ⟨h0, rfl, rfl⟩ c
    match c with
    | ⟨0, _⟩ =>
      show (slabScatter3 N A B E wf).start (ix3 e a b) idx 0 + ((slabScatter3 N A B E wf).window (ix3 e a b) 0 : Int) = (n.val : Int)
      rw [slabScatter3_start0, slabScatter3_window0]
      simpa using h0
    | ⟨1, _⟩ =>
      show (slabScatter3 N A B E wf).start (ix3 e a b) idx 1 + ((slabScatter3 N A B E wf).window (ix3 e a b) 1 : Int) = (a.val : Int)
      rw [slabScatter3_start_ne wf idx e a b 1 (by decide), slabScatter3_window1]
      simp
    | ⟨2, _⟩ =>
      show (slabScatter3 N A B E wf).start (ix3 e a b) idx 2 + ((slabScatter3 N A B E wf).window (ix3 e a b) 2 : Int) = (b.val : Int)
      rw [slabScatter3_start_ne wf idx e a b 2 (by decide), slabScatter3_window2]
      simp

end

/-- The scattered sum at entry (n, a, b): the operand entry plus, over the edges whose slab index read signed is n,
    the update entry (e, a, b). -/
theorem hostScatterAdd_slabs3_apply {N A B E w : Nat}
    (wf : ScatterDims.WF ⟨3, ![N, A, B]⟩ ⟨2, ![E, 1]⟩ ⟨3, ![E, A, B]⟩ [1, 2] [0] [0] 1)
    (x : (⟨3, ![N, A, B]⟩ : Shape).Idx → EReal) (idx : IVec ⟨2, ![E, 1]⟩ w) (u : (⟨3, ![E, A, B]⟩ : Shape).Idx → EReal)
    (n : Fin N) (a : Fin A) (b : Fin B) :
    Ideal.hostScatterAdd (slabScatter3 N A B E wf) x idx u (ix3 n a b)
      = x (ix3 n a b) + ∑ e : Fin E, if (idx (ix2 e (0 : Fin 1))).toInt = (n.val : Int) then u (ix3 e a b) else 0 := by
  unfold Ideal.hostScatterAdd
  congr 1
  rw [← Finset.sum_filter]
  refine Finset.sum_bij' (fun i _ => i 0) (fun e _ => ix3 e a b) ?_ ?_ ?_ ?_ ?_
  · intro i hi
    obtain ⟨e, a1, b1, rfl⟩ : ∃ e a1 b1, i = ix3 e a1 b1 := ⟨i 0, i 1, i 2, eq_ix3 i⟩
    exact Finset.mem_filter.mpr ⟨Finset.mem_univ _,
      ((slabScatter3_lands wf idx e a1 b1 n a b).mp (Finset.mem_filter.mp hi).2).1⟩
  · intro e he
    exact Finset.mem_filter.mpr ⟨Finset.mem_univ _,
      (slabScatter3_lands wf idx e a b n a b).mpr ⟨(Finset.mem_filter.mp he).2, rfl, rfl⟩⟩
  · intro i hi
    obtain ⟨e, a1, b1, rfl⟩ : ∃ e a1 b1, i = ix3 e a1 b1 := ⟨i 0, i 1, i 2, eq_ix3 i⟩
    obtain ⟨_, rfl, rfl⟩ := (slabScatter3_lands wf idx e a1 b1 n a b).mp (Finset.mem_filter.mp hi).2
    rfl
  · intro e _
    rfl
  · intro i hi
    obtain ⟨e, a1, b1, rfl⟩ : ∃ e a1 b1, i = ix3 e a1 b1 := ⟨i 0, i 1, i 2, eq_ix3 i⟩
    obtain ⟨_, rfl, rfl⟩ := (slabScatter3_lands wf idx e a1 b1 n a b).mp (Finset.mem_filter.mp hi).2
    rfl

/-- The same for the host operation as a program prints it, with any record equal to the slab scatter's. -/
theorem hostScatterAdd_apply {N A B E w : Nat} {φ : FTy}
    (d : ScatterDims ⟨3, ![N, A, B]⟩ ⟨2, ![E, 1]⟩ ⟨3, ![E, A, B]⟩)
    (wf : ScatterDims.WF ⟨3, ![N, A, B]⟩ ⟨2, ![E, 1]⟩ ⟨3, ![E, A, B]⟩ [1, 2] [0] [0] 1)
    (hd : d = slabScatter3 N A B E wf)
    (x : FVec Ideal ⟨3, ![N, A, B]⟩ φ) (idx : IVec ⟨2, ![E, 1]⟩ w) (u : FVec Ideal ⟨3, ![E, A, B]⟩ φ)
    (n : Fin N) (a : Fin A) (b : Fin B) :
    Host.scatterAdd (F := Ideal) d x idx u (ix3 n a b)
      = x (ix3 n a b) + ∑ e : Fin E, if (idx (ix2 e (0 : Fin 1))).toInt = (n.val : Int) then u (ix3 e a b) else 0 := by
  subst hd
  exact hostScatterAdd_slabs3_apply wf x idx u n a b

end Cert.Rows3

end
-- ==== Proof.Agg.lean ====
/-
  The attention-weighted aggregation, computed on flat rows or on rows cut into heads.

  Every node n has a row of 256 channels, 8 heads of 32: channel c is place c % 32 of head c / 32. Edge e carries a
  source row index, a target node index and 8 weights al(e, k), one per head. The aggregated value at (n, c) is
      Σ over the edges e whose target is n of  H(source e, c) · al(e, c / 32).
  It can be computed two ways. On flat rows: gather the [256]-rows by source, view each as [8, 32], scale head k by
  al(e, k), view it flat again, and add the rows into their targets. On rows already cut into heads: gather the
  [8, 32]-slabs by source, scale, add the slabs into their targets, and view the result flat at the end. Both read,
  entry by entry, as the sum above: a change of view keeps row-major positions, 256·e + c = 32·(8·e + c/32) + c%32,
  a gather reads the source's row or slab, and a scatter's entry is the sum over the edges landing there.
-/
import Idealize.ShloMosaic.PureOps.Ideal.Laws
import Idealize.ShloMosaic.Lib.ValueIdx
import Idealize.ShloMosaic.Lib.Pipeline.Value
import proofs.«125745_j54700703481984_2_alg».proof.Proof.LibScatterRows
import proofs.«125745_j54700703481984_2_alg».proof.Proof.LibRows3

noncomputable section

namespace Cert.Agg

open Idealize.ShloMosaic Idealize.ShloMosaic.ValueIdx

/-- The head of channel c. -/
def hd (c : Fin 256) : Fin 8 := ⟨c.val / 32, by have := c.isLt; omega⟩
/-- The place of channel c inside its head. -/
def pl (c : Fin 256) : Fin 32 := ⟨c.val % 32, Nat.mod_lt _ (by decide)⟩

theorem hd_val (c : Fin 256) : (hd c).val = c.val / 32 := rfl
theorem pl_val (c : Fin 256) : (pl c).val = c.val % 32 := rfl

variable {M : Nat} {α : Type}

/-- A flat [M, 256] array viewed as [M, 8, 32], read at head and place of channel c: the flat entry (m, c). -/
theorem cut_apply (X : (⟨2, ![M, 256]⟩ : Shape).Idx → α) (h : (⟨2, ![M, 256]⟩ : Shape).ShapeCasts ⟨3, ![M, 8, 32]⟩)
    (m : Fin M) (c : Fin 256) : shapeCast ⟨3, ![M, 8, 32]⟩ X h (ix3 m (hd c) (pl c)) = X (ix2 m c) :=
  shapeCast_apply X h _ (ix2 m c) (by
    rw [Shape.rowMajor_val_two, Shape.rowMajor_val_three]
    show m.val * 256 + c.val = (m.val * 8 + c.val / 32) * 32 + c.val % 32
    omega)

/-- An [M, 8, 32] array viewed flat as [M, 256], read at (m, c): the entry at head and place of channel c. -/
theorem flat_apply (Y : (⟨3, ![M, 8, 32]⟩ : Shape).Idx → α) (h : (⟨3, ![M, 8, 32]⟩ : Shape).ShapeCasts ⟨2, ![M, 256]⟩)
    (m : Fin M) (c : Fin 256) : shapeCast ⟨2, ![M, 256]⟩ Y h (ix2 m c) = Y (ix3 m (hd c) (pl c)) :=
  shapeCast_apply Y h _ (ix3 m (hd c) (pl c)) (by
    rw [Shape.rowMajor_val_two, Shape.rowMajor_val_three]
    show (m.val * 8 + c.val / 32) * 32 + c.val % 32 = m.val * 256 + c.val
    omega)

/-- One weight per (edge, head) stretched over the head's 32 places. -/
theorem stretch_apply (al : (⟨2, ![M, 8]⟩ : Shape).Idx → α)
    (hb1 : (⟨2, ![M, 8]⟩ : Shape).BroadcastsInDim ⟨3, ![M, 8, 1]⟩ ![0, 1])
    (hb2 : (⟨3, ![M, 8, 1]⟩ : Shape).BroadcastsInDim ⟨3, ![M, 8, 32]⟩ ![0, 1, 2]) (m : Fin M) (k : Fin 8) (f : Fin 32) :
    broadcastInDim ⟨3, ![M, 8, 32]⟩ ![0, 1, 2] hb2 (broadcastInDim ⟨3, ![M, 8, 1]⟩ ![0, 1] hb1 al) (ix3 m k f)
      = al (ix2 m k) := by
  have hm := m.isLt
  rw [broadcastInDim_apply _ hb2 _ (ix3 m k f) (ix3 m k (0 : Fin 1)) (fun a => by
    match a with
    | ⟨0, _⟩ => show m.val = if M = 1 then 0 else m.val; split <;> omega
    | ⟨1, _⟩ => show k.val = if 8 = 1 then 0 else k.val; rfl
    | ⟨2, _⟩ => show 0 = if 1 = 1 then 0 else f.val; rfl)]
  exact broadcastInDim_apply _ hb1 al (ix3 m k (0 : Fin 1)) (ix2 m k) (fun a => by
    match a with
    | ⟨0, _⟩ => show m.val = if M = 1 then 0 else m.val; split <;> omega
    | ⟨1, _⟩ => show k.val = if 8 = 1 then 0 else k.val; rfl)

variable {N E w : Nat}

/-- The two ways of aggregating agree, entry by entry. P is the array of rows as the flat side finds it (in a
    narrower float format, the same extended reals), H the same rows. -/
theorem agg_eq (hN : 0 < N)
    (dK : ScatterDims ⟨2, ![N, 256]⟩ ⟨2, ![E, 1]⟩ ⟨2, ![E, 256]⟩)
    (wfK : ScatterDims.WF ⟨2, ![N, 256]⟩ ⟨2, ![E, 1]⟩ ⟨2, ![E, 256]⟩ [1] [0] [0] 1)
    (hdK : dK = Cert.Rows2.rowScatter2 N 256 E wfK)
    (gK : GatherDims ⟨2, ![N, 256]⟩ ⟨2, ![E, 1]⟩ ⟨2, ![E, 256]⟩)
    (wgK : GatherDims.WF ⟨2, ![N, 256]⟩ ⟨2, ![E, 1]⟩ ⟨2, ![E, 256]⟩ [1] [0] [] [0] [] 1 ![1, 256])
    (hgK : gK = Cert.Rows2.pickRows2 N 256 E wgK)
    (dR : ScatterDims ⟨3, ![N, 8, 32]⟩ ⟨2, ![E, 1]⟩ ⟨3, ![E, 8, 32]⟩)
    (wfR : ScatterDims.WF ⟨3, ![N, 8, 32]⟩ ⟨2, ![E, 1]⟩ ⟨3, ![E, 8, 32]⟩ [1, 2] [0] [0] 1)
    (hdR : dR = Cert.Rows3.slabScatter3 N 8 32 E wfR)
    (gR : GatherDims ⟨3, ![N, 8, 32]⟩ ⟨2, ![E, 1]⟩ ⟨3, ![E, 8, 32]⟩)
    (wgR : GatherDims.WF ⟨3, ![N, 8, 32]⟩ ⟨2, ![E, 1]⟩ ⟨3, ![E, 8, 32]⟩ [1, 2] [0] [] [0] [] 1 ![1, 8, 32])
    (hgR : gR = Cert.Rows3.pickSlabs3 N 8 32 E wgR)
    (hz2 : (⟨0, ![]⟩ : Shape).BroadcastsInDim ⟨2, ![N, 256]⟩ ![])
    (hz3 : (⟨0, ![]⟩ : Shape).BroadcastsInDim ⟨3, ![N, 8, 32]⟩ ![])
    (hc0 : (⟨2, ![N, 256]⟩ : Shape).ShapeCasts ⟨3, ![N, 8, 32]⟩)
    (hc1 : (⟨2, ![E, 256]⟩ : Shape).ShapeCasts ⟨3, ![E, 8, 32]⟩)
    (hc2 : (⟨3, ![E, 8, 32]⟩ : Shape).ShapeCasts ⟨2, ![E, 256]⟩)
    (hc3 : (⟨3, ![N, 8, 32]⟩ : Shape).ShapeCasts ⟨2, ![N, 256]⟩)
    (hb1 : (⟨2, ![E, 8]⟩ : Shape).BroadcastsInDim ⟨3, ![E, 8, 1]⟩ ![0, 1])
    (hb2 : (⟨3, ![E, 8, 1]⟩ : Shape).BroadcastsInDim ⟨3, ![E, 8, 32]⟩ ![0, 1, 2])
    (hlt : FTy.bits .bf16 < FTy.bits .f32)
    (P : FVec Ideal ⟨2, ![N, 256]⟩ .bf16) (H : FVec Ideal ⟨2, ![N, 256]⟩ .f32) (hPH : ∀ i, P i = H i)
    (al : FVec Ideal ⟨2, ![E, 8]⟩ .f32) (gi ti : IVec ⟨2, ![E, 1]⟩ w) :
    Host.scatterAdd (F := Ideal) dK
        (broadcastInDim ⟨2, ![N, 256]⟩ ![] hz2 (constant (F := Ideal) ⟨0, ![]⟩ .f32 0x00000000#32)) ti
        (shapeCast ⟨2, ![E, 256]⟩
          (mulf (shapeCast ⟨3, ![E, 8, 32]⟩ (extf .f32 (Host.gather gK P gi) hlt) hc1)
            (broadcastInDim ⟨3, ![E, 8, 32]⟩ ![0, 1, 2] hb2 (broadcastInDim ⟨3, ![E, 8, 1]⟩ ![0, 1] hb1 al))) hc2)
      = shapeCast ⟨2, ![N, 256]⟩
          (Host.scatterAdd (F := Ideal) dR
            (broadcastInDim ⟨3, ![N, 8, 32]⟩ ![] hz3 (constant (F := Ideal) ⟨0, ![]⟩ .f32 0x00000000#32)) ti
            (mulf (Host.gather gR (shapeCast ⟨3, ![N, 8, 32]⟩ H hc0) gi)
              (broadcastInDim ⟨3, ![E, 8, 32]⟩ ![0, 1, 2] hb2 (broadcastInDim ⟨3, ![E, 8, 1]⟩ ![0, 1] hb1 al)))) hc3 := by
  subst hdK hgK hdR hgR
  funext i
  obtain ⟨n, c, rfl⟩ : ∃ n c, i = ix2 n c := ⟨i 0, i 1, eq_ix2 i⟩
  rw [Cert.ScatterRows.hostScatterAdd_apply _ wfK rfl _ ti _ n c, flat_apply _ hc3 n c,
    Cert.Rows3.hostScatterAdd_apply _ wfR rfl _ ti _ n (hd c) (pl c)]
  congr 1
  refine Finset.sum_congr rfl fun e _ => ?_
  by_cases hc : (ti (ix2 e (0 : Fin 1))).toInt = (n.val : Int)
  · rw [if_pos hc, if_pos hc, flat_apply _ hc2 e c, mulf_apply, mulf_apply]
    congr 1
    rw [cut_apply _ hc1 e c, extf_apply, Cert.Rows2.gather_pickRows2_apply hN wgK P gi e c,
      Cert.Rows3.gather_pickSlabs3_apply hN wgR _ gi e (hd c) (pl c), cut_apply H hc0 _ c, hPH]
  · rw [if_neg hc, if_neg hc]

end Cert.Agg

end
-- ==== Proof.HeadMatrix.lean ====
/-
  The selector matrix: which head a channel belongs to, and the per-head attention weights laid out as a
  [256, 16] matrix.

  Channel c of 256 belongs to head c / 32. The program computes that quotient on 32-bit words by a floor division
  (quotient toward zero, corrected by one where the signs differ and the remainder is not zero); on the words
  0 … 255 divided by 32 it is the plain quotient, checked word by word. Comparing it with the head number j and
  reading the resulting bit as a float gives 1 when c / 32 = j and 0 otherwise. Column j < 8 of the matrix is that
  flag times the source weight of channel c, column 8 + j the flag times the target weight; the weights come as
  [1, 8, 32] arrays, whose flat position c is (0, c / 32, c % 32).
-/
import proofs.«125745_j54700703481984_2_alg».proof.Proof.Gen.KernelIdeal
import Idealize.ShloMosaic.PureOps.Ideal.Laws
import Idealize.ShloMosaic.Lib.ValueIdx
import Idealize.ShloMosaic.Lib.Pipeline.Value
import proofs.«125745_j54700703481984_2_alg».proof.Proof.Agg

noncomputable section

namespace Cert.KernelIdeal.Head

open Cert.KernelIdeal Cert.KernelIdeal.Facts₀ Idealize.ShloMosaic Idealize.ShloMosaic.ValueIdx Cert.Agg

/-! ## The head of a channel, on words -/

/-- The floor division by 32 of one word, as the program spells it. -/
def fdiv (x : BitVec 32) : BitVec 32 :=
  let q := IntOp.divsi .host x 32#32
  let sx : BitVec 32 := if x = 0 then 0 else if x.msb then -1 else 1
  let sd : BitVec 32 := if (32#32 : BitVec 32) = 0 then 0 else if (32#32 : BitVec 32).msb then -1 else 1
  Scalar.select (IntOp.andi (IntOp.cmpi .ne sx sd) (IntOp.cmpi .ne (IntOp.remsi .host x 32#32) 0#32)) (IntOp.subi q 1#32) q

/-- On the words 0 … 255 it is the quotient by 32. -/
theorem fdiv_ofNat : ∀ c : Fin 256, fdiv (BitVec.ofNat 32 c.val) = BitVec.ofNat 32 (c.val / 32) := by decide +kernel

/-- The vector of the 256 channels' heads, operation by operation. -/
def headWord : IVec S256 32 :=
  let v3 : IVec S256 32 := iotaInDim S256 32 0
  let f0 : IVec S_ 32 := id (constantI S_ 32 32#32)
  let f2 : IVec S256 32 := Host.divsi v3 (broadcastInDim S256 ![] bcast_S_S256 f0)
  let f6 : IVec S256 1 := cmpi .ne (signi v3) (broadcastInDim S256 ![] bcast_S_S256 (signi f0))
  let f8 : IVec S256 32 := Host.remsi v3 (broadcastInDim S256 ![] bcast_S_S256 f0)
  let f10 : IVec S256 1 := cmpi .ne f8 (broadcastInDim S256 ![] bcast_S_S256 (constantI S_ 32 0#32))
  select (andi f6 f10) (subi f2 (broadcastInDim S256 ![] bcast_S_S256 (constantI S_ 32 1#32))) f2

theorem headWord_apply (c : Fin 256) : headWord (ix1 c) = BitVec.ofNat 32 (c.val / 32) :=
  (show headWord (ix1 c) = fdiv (BitVec.ofNat 32 c.val) from rfl).trans (fdiv_ofNat c)

/-! ## The flag as an extended real -/

/-- The bit "these two small numbers' words are equal", read as a float, is 1 or 0. -/
theorem flag_eq (a b : Nat) (ha : a < 2 ^ 32) (hb : b < 2 ^ 32) :
    FloatOps.uitofp (F := Ideal) .f32 (IntOp.cmpi .eq (BitVec.ofNat 32 a) (BitVec.ofNat 32 b))
      = if a = b then (1 : EReal) else 0 := by
  show (((BitVec.ofBool (BitVec.ofNat 32 a == BitVec.ofNat 32 b)).toNat : ℝ) : EReal) = _
  by_cases h : a = b
  · subst h; simp
  · have hne : (BitVec.ofNat 32 a == BitVec.ofNat 32 b) = false := by
      rw [beq_eq_false_iff_ne]
      intro he
      have := congrArg BitVec.toNat he
      rw [BitVec.toNat_ofNat, BitVec.toNat_ofNat, Nat.mod_eq_of_lt ha, Nat.mod_eq_of_lt hb] at this
      exact h this
    rw [hne, if_neg h]; simp

/-! ## The matrix -/

/-- The selector matrix from the two weight arrays, operation by operation. -/
def selOf {F : FTy → Type} [FloatOps F] (a1 a2 : FVec F S1x8x32 .f32) : FVec F S256x16 .f32 :=
  let v1 : FVec F S256 .f32 := shapeCast S256 a1 shapeCasts_S1x8x32_S256
  let v2 : FVec F S256 .f32 := shapeCast S256 a2 shapeCasts_S1x8x32_S256
  let v8 : IVec S256x8 32 := broadcastInDim S256x8 ![0, 1] bcast_S256x1_S256x8_0_1 (broadcastInDim S256x1 ![0] bcast_S256_S256x1_0 headWord)
  let v9 : IVec S256x8 32 := broadcastInDim S256x8 ![0, 1] bcast_S1x8_S256x8_0_1 (broadcastInDim S1x8 ![1] bcast_S8_S1x8_1 (iotaInDim S8 32 0))
  let v11 : FVec F S256x8 .f32 := uitofp .f32 (cmpi .eq v8 v9)
  let v14 : FVec F S256x8 .f32 := mulf v11 (broadcastInDim S256x8 ![0, 1] bcast_S256x1_S256x8_0_1 (broadcastInDim S256x1 ![0] bcast_S256_S256x1_0 v1))
  let v17 : FVec F S256x8 .f32 := mulf v11 (broadcastInDim S256x8 ![0, 1] bcast_S256x1_S256x8_0_1 (broadcastInDim S256x1 ![0] bcast_S256_S256x1_0 v2))
  concatenate S256x16 1 [⟨S256x8, v14⟩, ⟨S256x8, v17⟩] concatenates_S256x8_S256x8_S256x16_d1

/-- A [256] vector laid out as a column and stretched over 8 columns, read at (c, k). -/
theorem colStretch_apply {α : Type} (v : S256.Idx → α) (c : Fin 256) (k : Fin 8) :
    broadcastInDim S256x8 ![0, 1] bcast_S256x1_S256x8_0_1 (broadcastInDim S256x1 ![0] bcast_S256_S256x1_0 v) (ix2 c k)
      = v (ix1 c) := by
  rw [broadcastInDim_apply _ bcast_S256x1_S256x8_0_1 _ (ix2 c k) (ix2 c (0 : Fin 1)) (fun a => by
    match a with
    | ⟨0, _⟩ => rfl
    | ⟨1, _⟩ => rfl)]
  exact broadcastInDim_apply _ bcast_S256_S256x1_0 v (ix2 c (0 : Fin 1)) (ix1 c) (fun a => by
    match a with
    | ⟨0, _⟩ => rfl)

/-- The 8 head numbers laid out as a row and stretched down 256 rows, read at (c, k). -/
theorem rowStretch_apply {α : Type} (v : S8.Idx → α) (c : Fin 256) (k : Fin 8) :
    broadcastInDim S256x8 ![0, 1] bcast_S1x8_S256x8_0_1 (broadcastInDim S1x8 ![1] bcast_S8_S1x8_1 v) (ix2 c k)
      = v (ix1 k) := by
  rw [broadcastInDim_apply _ bcast_S1x8_S256x8_0_1 _ (ix2 c k) (ix2 (0 : Fin 1) k) (fun a => by
    match a with
    | ⟨0, _⟩ => rfl
    | ⟨1, _⟩ => rfl)]
  exact broadcastInDim_apply _ bcast_S8_S1x8_1 v (ix2 (0 : Fin 1) k) (ix1 k) (fun a => by
    match a with
    | ⟨0, _⟩ => rfl)

/-- A [1, 8, 32] weight array viewed flat, read at channel c: the weight at (0, head, place). -/
theorem flatWeights_apply (a : FVec Ideal S1x8x32 .f32) (c : Fin 256) :
    shapeCast S256 a shapeCasts_S1x8x32_S256 (ix1 c) = a (ix3 (0 : Fin 1) (hd c) (pl c)) :=
  shapeCast_apply a shapeCasts_S1x8x32_S256 _ (ix3 (0 : Fin 1) (hd c) (pl c)) (by
    rw [Shape.rowMajor_val_one, Shape.rowMajor_val_three]
    show (0 * 8 + c.val / 32) * 32 + c.val % 32 = c.val
    omega)

/-- The flag of channel c against head k. -/
theorem flag_apply (c : Fin 256) (k : Fin 8) :
    (uitofp .f32 (cmpi .eq
        (broadcastInDim S256x8 ![0, 1] bcast_S256x1_S256x8_0_1 (broadcastInDim S256x1 ![0] bcast_S256_S256x1_0 headWord))
        (broadcastInDim S256x8 ![0, 1] bcast_S1x8_S256x8_0_1 (broadcastInDim S1x8 ![1] bcast_S8_S1x8_1 (iotaInDim S8 32 0))))
      : FVec Ideal S256x8 .f32) (ix2 c k) = if c.val / 32 = k.val then (1 : EReal) else 0 := by
  show FloatOps.uitofp (F := Ideal) .f32 (IntOp.cmpi .eq
      (broadcastInDim S256x8 ![0, 1] bcast_S256x1_S256x8_0_1 (broadcastInDim S256x1 ![0] bcast_S256_S256x1_0 headWord) (ix2 c k))
      (broadcastInDim S256x8 ![0, 1] bcast_S1x8_S256x8_0_1 (broadcastInDim S1x8 ![1] bcast_S8_S1x8_1 (iotaInDim S8 32 0)) (ix2 c k))) = _
  rw [colStretch_apply, rowStretch_apply, headWord_apply]
  have hc := c.isLt
  have hk := k.isLt
  exact flag_eq (c.val / 32) k.val (by omega) (by omega)

/-- Column k < 8: the flag of head k times the source weight of the channel. -/
theorem selOf_src (a1 a2 : FVec Ideal S1x8x32 .f32) (c : Fin 256) (k : Fin 8) :
    selOf (F := Ideal) a1 a2 (ix2 c (⟨k.val, by have := k.isLt; omega⟩ : Fin 16))
      = (if c.val / 32 = k.val then (1 : EReal) else 0) * a1 (ix3 (0 : Fin 1) (hd c) (pl c)) := by
  unfold selOf
  dsimp only
  refine (concatenate_pair_apply_left (t := S256x16) (s₁ := S256x8) (s₂ := S256x8) (1 : Fin 2) _ _
    concatenates_S256x8_S256x8_S256x16_d1 (ix2 c (⟨k.val, by have := k.isLt; omega⟩ : Fin 16)) rfl (ix2 c k) (fun b => by
      match b with
      | ⟨0, _⟩ => rfl
      | ⟨1, _⟩ => rfl)).trans ?_
  rw [mulf_apply, flag_apply, colStretch_apply, flatWeights_apply]

/-- Column 8 + k: the flag of head k times the target weight of the channel. -/
theorem selOf_trg (a1 a2 : FVec Ideal S1x8x32 .f32) (c : Fin 256) (k : Fin 8) :
    selOf (F := Ideal) a1 a2 (ix2 c (⟨8 + k.val, by have := k.isLt; omega⟩ : Fin 16))
      = (if c.val / 32 = k.val then (1 : EReal) else 0) * a2 (ix3 (0 : Fin 1) (hd c) (pl c)) := by
  unfold selOf
  dsimp only
  refine (concatenate_pair_apply_right (t := S256x16) (s₁ := S256x8) (s₂ := S256x8) (1 : Fin 2) _ _
    concatenates_S256x8_S256x8_S256x16_d1 (ix2 c (⟨8 + k.val, by have := k.isLt; omega⟩ : Fin 16)) rfl rfl (ix2 c k) (fun b hb => by
      match b with
      | ⟨0, _⟩ => rfl
      | ⟨1, _⟩ => exact absurd rfl hb) (by show k.val + 8 = 8 + k.val; omega)).trans ?_
  rw [mulf_apply, flag_apply, colStretch_apply, flatWeights_apply]

end Cert.KernelIdeal.Head

end
-- ==== Proof.KernelTerm.lean ====
/-
  What the program does with the kernel's two result arrays, as pure functions of arrays.

  From the edge list (two rows of 800000 node numbers) the sources and targets of the 850000 edges are the two rows
  followed by the self loops 0 … 49999. An index column for a gather is the node numbers with negative ones wrapped
  by + 50000. The attention weights alphaOf: per edge and head, the source logit of the source plus the target logit
  of the target, leaky-rectified, shifted by the global maximum, exponentiated, and divided by (the sum of these
  exponentials over the edges with the same target, + 1e-10). The aggregation aggOf: the projected rows gathered by
  source, scaled head by head by the weights, and summed into their targets.
-/
import proofs.«125745_j54700703481984_2_alg».proof.Proof.Gen.KernelIdeal
import Idealize.ShloMosaic.PureOps.Ideal.Laws

noncomputable section

namespace Cert.KernelIdeal.Term

open Cert.KernelIdeal Cert.KernelIdeal.Facts₀ Idealize.ShloMosaic

variable {F : FTy → Type} [FloatOps F]

/-- Row r of the edge list followed by the self loops. -/
def endsOf (off : Fin 2 → Nat) (hs : S2x800000.Slices off S1x800000) (ei : IVec S2x800000 32) : IVec S850000 32 :=
  concatenate S850000 0
    [⟨S800000, shapeCast S800000 (extractStridedSlice S1x800000 off ei hs) shapeCasts_S1x800000_S800000⟩,
     ⟨S50000, iotaInDim S50000 32 0⟩] concatenates_S800000_S50000_S850000_d0

/-- The edges' sources. -/
def srcOf (ei : IVec S2x800000 32) : IVec S850000 32 := endsOf ![0, 0] slices_S2x800000_S1x800000_0_0 ei
/-- The edges' targets. -/
def trgOf (ei : IVec S2x800000 32) : IVec S850000 32 := endsOf ![1, 0] slices_S2x800000_S1x800000_1_0 ei

/-- Node numbers as a gather's index column: negative ones wrapped by + 50000. -/
def wrapOf (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- Node numbers as a scatter's index column, as they are. -/
def colOf (t : IVec S850000 32) : IVec S850000x1 32 := broadcastInDim S850000x1 ![0] bcast_S850000_S850000x1_0 t

/-- The attention weights per edge and head. -/
def alphaOf (hs ht : FVec F S50000x8 .f32) (s t : IVec S850000 32) : FVec F S850000x8 .f32 :=
  let e : FVec F S850000x8 .f32 := addf (Host.gather gather_S50000x8_S850000x1_S850000x8_1_0_n_n_0_1_18 hs (wrapOf s)) (Host.gather gather_S50000x8_S850000x1_S850000x8_1_0_n_n_0_1_18 ht (wrapOf t))
  let lk : FVec F S850000x8 .f32 :=
    select (cmpf .oge e (broadcastInDim S850000x8 ![] bcast_S_S850000x8 (constant (F := F) S_ .f32 0x00000000#32)))
      e (mulf (broadcastInDim S850000x8 ![] bcast_S_S850000x8 (id (constant (F := F) S_ .f32 0x3E4CCCCD#32))) e)
  let mx : FVec F S_ .f32 := Host.reduce FloatOps.maximumf lk (constant (F := F) S_ .f32 0xFF800000#32) reducesTo_S850000x8_S_d0_1 h_S_
  let ex : FVec F S850000x8 .f32 := Host.exp (subf lk (broadcastInDim S850000x8 ![] bcast_S_S850000x8 mx))
  let den : FVec F S50000x8 .f32 :=
    Host.scatterAdd (F := F) scatter_S50000x8_S850000x1_S850000x8_1_0_0_1 (broadcastInDim S50000x8 ![] bcast_S_S50000x8 (constant (F := F) S_ .f32 0x00000000#32)) (colOf t) ex
  Host.divf ex (addf (Host.gather gather_S50000x8_S850000x1_S850000x8_1_0_n_n_0_1_18 den (wrapOf t))
    (broadcastInDim S850000x8 ![] bcast_S_S850000x8 (constant (F := F) S_ .f32 0x2EDBE6FF#32)))

/-- The weighted sum of the source rows at every target, on flat rows. -/
def aggOf (P : FVec F S50000x256 .bf16) (al : FVec F S850000x8 .f32) (s t : IVec S850000 32) : FVec F S50000x256 .f32 :=
  Host.scatterAdd (F := F) scatter_S50000x256_S850000x1_S850000x256_1_0_0_1 (broadcastInDim S50000x256 ![] bcast_S_S50000x256 (constant (F := F) S_ .f32 0x00000000#32)) (colOf t)
    (shapeCast S850000x256
      (mulf (shapeCast S850000x8x32 (extf .f32 (Host.gather gather_S50000x256_S850000x1_S850000x256_1_0_n_n_0_1_1256 P (wrapOf s)) bitsLt_bf16_f32) shapeCasts_S850000x256_S850000x8x32)
        (broadcastInDim S850000x8x32 ![0, 1, 2] bcast_S850000x8x1_S850000x8x32_0_1_2
          (broadcastInDim S850000x8x1 ![0, 1] bcast_S850000x8_S850000x8x1_0_1 al))) shapeCasts_S850000x8x32_S850000x256)

/-- The program's result from the kernel's two result arrays (the projected rows P, the sixteen logits per row L) and
    the edge list. -/
def outOf (P : FVec F S50000x256 .bf16) (L : FVec F S50000x16 .f32) (ei : IVec S2x800000 32) : FVec F S50000x256 .f32 :=
  aggOf P (alphaOf (extractStridedSlice S50000x8 ![0, 0] L slices_S50000x16_S50000x8_0_0)
      (extractStridedSlice S50000x8 ![0, 8] L slices_S50000x16_S50000x8_0_8) (srcOf ei) (trgOf ei)) (srcOf ei) (trgOf ei)

end Cert.KernelIdeal.Term

end
-- ==== Proof.KFold.lean ====
/- What the host operations around the region compute, read off the fold of their results.

   The fold `after ops W` is the buffer contents after the operations `ops`, in order, from contents `W`. Read at one
   buffer it is a composition of the operations' functions: each operation's result buffer holds its function of its
   operands' contents, every other buffer what it held. Two such readings are stated here, at any float type: the bias
   row and the selector matrix the region is launched with, from the 36 operations before it. -/
import proofs.«125745_j54700703481984_2_alg».proof.Proof.Gen.KernelIdeal.Launch
import proofs.«125745_j54700703481984_2_alg».proof.Proof.KernelTerm
import proofs.«125745_j54700703481984_2_alg».proof.Proof.HeadMatrix
import Idealize.ShloMosaic.Lib.StableHlo.Run

noncomputable section

namespace Cert.KernelIdeal.Fold

open Cert.KernelIdeal Cert.KernelIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The bias row the region is launched with is the bias argument viewed as one row of 256: the first operation writes
    it and none of the other 35 does. -/
theorem pre_bias (Wv : Valuation τ sig (Elt F)) :
    after (List.flatten [hostOps0, hostOps0_1, hostOps0_2]) Wv (main_v0 : DevRef τ sig)
      = shapeCast S1x256 (Wv (main_arg3 : DevRef τ sig)) shapeCasts_S256_S1x256 := by
  simp only [hostOps0, hostOps0_1, hostOps0_2, List.flatten_cons, List.flatten_nil, List.append_nil, List.cons_append, List.nil_append]
  after_results_simp
  rfl

attribute [local irreducible] Host.gather Host.scatterAdd Host.reduce Host.reduceAdd in
set_option maxRecDepth 16384 in
set_option maxHeartbeats 4000000 in
/-- The selector matrix the region is launched with is `selOf` of the two weight arguments: the 36 operations before the
    region compose, one by one, to the operations `selOf` and `headWord` list (the typed references' transports around the
    floor-division call are the identity at these literal references). -/
theorem pre_selector (Wv : Valuation τ sig (Elt F)) :
    after (List.flatten [hostOps0, hostOps0_1, hostOps0_2]) Wv (main_v18 : DevRef τ sig)
      = Cert.KernelIdeal.Head.selOf (Wv (main_arg4 : DevRef τ sig)) (Wv (main_arg5 : DevRef τ sig)) := by
  simp only [hostOps0, hostOps0_1, hostOps0_2, List.flatten_cons, List.flatten_nil, List.append_nil, List.cons_append, List.nil_append]
  after_results_simp
  rfl

end Cert.KernelIdeal.Fold

end
-- ==== Proof.KValue.lean ====
/-
  What the region's two result arrays hold after the run, at the ideal values.

  The grid has 25 points; point t works on rows 2000·t … 2000·t + 1999. Its x window is that block of rows of x; the
  W window, the bias-row window and the selector-matrix window are whole arrays at every point. The bias row is b laid
  out [1, 256] and the selector matrix is the one computed from the two weight arrays by the operations before the
  region. What point t writes back to result 0 is rows 2000·t … of x · W + b over all rows, and to result 1 the same
  rows of (x · W + b) · S. The 25 blocks tile the 50000 rows (row r is in point r / 2000's block), so after the run
  result 0 holds x · W + b and result 1 holds (x · W + b) · S.
-/
import proofs.«125745_j54700703481984_2_alg».proof.Proof.FrameIdeal
import proofs.«125745_j54700703481984_2_alg».proof.Proof.KPay
import proofs.«125745_j54700703481984_2_alg».proof.Proof.HeadMatrix
import proofs.«125745_j54700703481984_2_alg».proof.Proof.KFold
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open Cert.Blocks Cert.KernelIdeal.Pay Cert.KernelIdeal.Head

variable (m : (ℓ : Loc nD τ sig) → Buf (Elt Ideal) ℓ) (ρ : Dev nD → PrngReg)
variable (hb' : S256.BroadcastsInDim S1x256 ![1]) (hB : S1x256.BroadcastsInDim S50000x256 ![0, 1])

theorem hz : (![0, 0] : Fin 2 → Nat) = fun _ => 0 := funext fun a => by fin_cases a <;> rfl

/-! ## The two windows the earlier operations computed -/

/-- The bias-row window's array is b laid out [1, 256]. -/
theorem V_biasRow (c : Dev nD) :
    (V m c main_v0 : S1x256.Idx → EReal) = shapeCast S1x256 (m ((c : Thread nD τ).loc main_arg3)) shapeCasts_S256_S1x256 :=
  Cert.KernelIdeal.Fold.pre_bias (fun b => m (c, b))

/-- The selector-matrix window's array is the selector matrix of the two weight arrays. -/
theorem V_selector (c : Dev nD) :
    (V m c main_v18 : S256x16.Idx → EReal)
      = selOf (F := Ideal) (m ((c : Thread nD τ).loc main_arg4)) (m ((c : Thread nD τ).loc main_arg5)) :=
  Cert.KernelIdeal.Fold.pre_selector (fun b => m (c, b))

/-! ## The schedule -/

/-- The printed index maps over the grid: the x window and both result windows sit at block row t, column block 0; the
    other three windows at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Point t's 2000 rows are rows of the array. -/
theorem rows_in : ∀ t : Fin cfg0.N, t.val * 2000 + 2000 ≤ 50000 :=
  (by decide +kernel : ∀ t : Fin grid0.N, t.val * 2000 + 2000 ≤ 50000)

/-! ## Each window's block at a point -/

/-- The x window's block at point t is rows 2000·t … of x. -/
theorem blk_x (c : Dev nD) (t : Fin cfg0.N) :
    (iblk m c 0 t : S2000x256.Idx → EReal) = rowBlk (t.val * 2000) (rows_in t) (m ((c : Thread nD τ).loc main_arg0)) := by
  obtain ⟨e0, e1, -⟩ := idx_facts t
  funext y
  show V m c main_arg0 (((cfg0.win 0).blk t).view.emb y) = m ((c : Thread nD τ).loc main_arg0) (shiftRow (t.val * 2000) (rows_in t) y)
  rw [V_main_arg0]
  refine congrArg _ (funext fun a => Fin.ext ?_)
  match a with
  | ⟨0, _⟩ => show win0_0.index t (0 : Fin 2) * 2000 + 1 * (y 0).val = t.val * 2000 + (y 0).val; omega
  | ⟨1, _⟩ => show win0_0.index t (1 : Fin 2) * 256 + 1 * (y 1).val = (y 1).val; omega

/-- The W window's block is W. -/
theorem blk_w (c : Dev nD) (t : Fin cfg0.N) :
    (iblk m c 1 t : S256x256.Idx → EReal) = m ((c : Thread nD τ).loc main_arg2) := by
  obtain ⟨-, -, e0, e1, -⟩ := idx_facts t
  funext y
  show V m c main_arg2 (((cfg0.win 1).blk t).view.emb y) = m ((c : Thread nD τ).loc main_arg2) y
  rw [V_main_arg2]
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- The bias-row window's block is b laid out [1, 256]. -/
theorem blk_b (c : Dev nD) (t : Fin cfg0.N) :
    (iblk m c 2 t : S1x256.Idx → EReal) = shapeCast S1x256 (m ((c : Thread nD τ).loc main_arg3)) shapeCasts_S256_S1x256 := by
  obtain ⟨-, -, -, -, e0, e1, -⟩ := idx_facts t
  funext y
  show V m c main_v0 (((cfg0.win 2).blk t).view.emb y) = _
  rw [V_biasRow]
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The selector-matrix window's block is the selector matrix. -/
theorem blk_s (c : Dev nD) (t : Fin cfg0.N) :
    (iblk m c 3 t : S256x16.Idx → EReal)
      = selOf (F := Ideal) (m ((c : Thread nD τ).loc main_arg4)) (m ((c : Thread nD τ).loc main_arg5)) := by
  obtain ⟨-, -, -, -, -, -, e0, e1, -⟩ := idx_facts t
  funext y
  show V m c main_v18 (((cfg0.win 3).blk t).view.emb y) = _
  rw [V_selector]
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 16 + 1 * (y 1).val = (y 1).val; omega

/-! ## What a point writes back -/

/-- The projected rows of all nodes, from the launch memory. -/
abbrev projM (c : Dev nD) : S50000x256.Idx → EReal :=
  projOf hb' hB (m ((c : Thread nD τ).loc main_arg0)) (m ((c : Thread nD τ).loc main_arg2)) (m ((c : Thread nD τ).loc main_arg3))

/-- The sixteen logits of all nodes, from the launch memory. -/
abbrev logitsM (c : Dev nD) : S50000x16.Idx → EReal :=
  logitsOf hb' hB (m ((c : Thread nD τ).loc main_arg0)) (m ((c : Thread nD τ).loc main_arg2)) (m ((c : Thread nD τ).loc main_arg3))
    (selOf (F := Ideal) (m ((c : Thread nD τ).loc main_arg4)) (m ((c : Thread nD τ).loc main_arg5)))

/-- Point t writes back to result 0 its rows of the projected rows. -/
theorem flushedP_eq (c : Dev nD) (t : Fin cfg0.N) :
    (dats m 0 c).flushed 4 t = ((cfg0.win 4).blk t).view.read (Elt Ideal) (projM m hb' hB c) := by
  show (cfg0.win 4).cut (grid0.coords t) ((dats m 0 c).after 4 t) = _
  rw [after0_4]
  unfold outP
  rw [View.canon_unit_zero hz]
  simp only [View.ld_unit_zero (S := S2000x256) hz, View.ld_unit_zero (S := S256x256) hz, View.ld_unit_zero (S := S1x256) hz]
  obtain ⟨-, -, -, -, -, -, -, -, e0, e1, -⟩ := idx_facts t
  funext j
  show k0_pay2 (F := Ideal) (iblk m c 0 t) (iblk m c 1 t) (iblk m c 2 t) j = projM m hb' hB c (((cfg0.win 4).blk t).view.emb j)
  rw [blk_x, blk_w, blk_b, pay2_rowBlk hb' hB, rowBlk_apply]
  refine congrArg _ (funext fun a => Fin.ext ?_)
  match a with
  | ⟨0, _⟩ => show t.val * 2000 + (j 0).val = win0_4.index t (0 : Fin 2) * 2000 + 1 * (j 0).val; omega
  | ⟨1, _⟩ => show (j 1).val = win0_4.index t (1 : Fin 2) * 256 + 1 * (j 1).val; omega

/-- Point t writes back to result 1 its rows of the logits. -/
theorem flushedL_eq (c : Dev nD) (t : Fin cfg0.N) :
    (dats m 0 c).flushed 5 t = ((cfg0.win 5).blk t).view.read (Elt Ideal) (logitsM m hb' hB c) := by
  show (cfg0.win 5).cut (grid0.coords t) ((dats m 0 c).after 5 t) = _
  rw [after0_5]
  unfold outL
  rw [View.canon_unit_zero hz]
  simp only [View.ld_unit_zero (S := S2000x256) hz, View.ld_unit_zero (S := S256x256) hz, View.ld_unit_zero (S := S1x256) hz,
    View.ld_unit_zero (S := S256x16) hz]
  obtain ⟨-, -, -, -, -, -, -, -, -, -, e0, e1⟩ := idx_facts t
  funext j
  show k0_pay3 (F := Ideal) (iblk m c 0 t) (iblk m c 1 t) (iblk m c 2 t) (iblk m c 3 t) j = logitsM m hb' hB c (((cfg0.win 5).blk t).view.emb j)
  rw [blk_x, blk_w, blk_b, blk_s, pay3_rowBlk hb' hB (t.val * 2000) (rows_in t) (rows_in t), rowBlk_apply]
  refine congrArg _ (funext fun a => Fin.ext ?_)
  match a with
  | ⟨0, _⟩ => show t.val * 2000 + (j 0).val = win0_5.index t (0 : Fin 2) * 2000 + 1 * (j 0).val; omega
  | ⟨1, _⟩ => show (j 1).val = win0_5.index t (1 : Fin 2) * 16 + 1 * (j 1).val; omega

/-! ## The blocks tile the rows -/

/-- Every block row is some point's. -/
theorem idx_onto : ∀ q : Fin 25, ∃ t : Fin cfg0.N, win0_4.index t = ![q.val, 0] ∧ win0_5.index t = ![q.val, 0] :=
  (by decide +kernel : ∀ q : Fin 25, ∃ t : Fin grid0.N, win0_4.index t = ![q.val, 0] ∧ win0_5.index t = ![q.val, 0])

theorem mem_blkP (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v19_0).slice (win0_4.rect t)).set ↔ _
  rw [View.set_slice_whole, Rect.mem_set_unit]
  exact Iff.rfl

theorem mem_blkL (t : Fin cfg0.N) (i : S50000x16.Idx) :
    i ∈ ((cfg0.win 5).blk t).view.set ↔ ∀ a : Fin 2, win0_5.index t a * S2000x16.size a ≤ (i a).val ∧ (i a).val < win0_5.index t a * S2000x16.size a + S2000x16.size a := by
  show i ∈ ((View.whole main_v19_1).slice (win0_5.rect t)).set ↔ _
  rw [View.set_slice_whole, Rect.mem_set_unit]
  exact Iff.rfl

theorem coverP (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht, -⟩ := idx_onto ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blkP]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

theorem coverL (i : S50000x16.Idx) : ∃ t : Fin cfg0.N, (cfg0.win 5).flush t = true ∧ i ∈ ((cfg0.win 5).blk t).view.set := by
  have hi0 : (i 0).val < 50000 := (i 0).isLt
  have hi1 : (i 1).val < 16 := (i 1).isLt
  obtain ⟨t, -, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blkL]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 16 ≤ (i 1).val ∧ (i 1).val < win0_5.index t (1 : Fin 2) * 16 + 16; omega

/-! ## The two result arrays after the run -/

/-- Result 0 ends holding the projected rows of all nodes. -/
theorem finalP (c : Dev nD) : (dats m 0 c).arrAt 4 cfg0.N = projM m hb' hB c :=
  (dats m 0 c).arrAt_eq_of_cover 4 (projM m hb' hB c) (fun t _ => flushedP_eq m hb' hB c t) coverP

/-- Result 1 ends holding the sixteen logits of all nodes. -/
theorem finalL (c : Dev nD) : (dats m 0 c).arrAt 5 cfg0.N = logitsM m hb' hB c :=
  (dats m 0 c).arrAt_eq_of_cover 5 (logitsM m hb' hB c) (fun t _ => flushedL_eq m hb' hB c t) coverL

end Cert.KernelIdeal.Val

end
-- ==== Proof.KTail.lean ====
/-
  The 77 host operations after the region, folded: whatever the buffers hold when they start, the result buffer ends
  holding the attention aggregation of the region's two result arrays and the edge list. Stated at any float type: the
  fold only moves each operation's function onto the contents of the buffers written before it.
-/
import proofs.«125745_j54700703481984_2_alg».proof.Proof.Gen.KernelIdeal.Launch
import proofs.«125745_j54700703481984_2_alg».proof.Proof.KernelTerm
import Idealize.ShloMosaic.Lib.StableHlo.Run

noncomputable section

namespace Cert.KernelIdeal.Tail

open Cert.KernelIdeal Cert.KernelIdeal.Gen
open Idealize.ShloMosaic Idealize.ShloMosaic.TcCoe Idealize.SL.Sem Idealize.ShloMosaic.StableHlo

variable {F : FTy → Type} [FloatOps F]

attribute [local irreducible] Host.gather Host.scatterAdd Host.reduce in
set_option maxRecDepth 16384 in
set_option maxHeartbeats 4000000 in
/-- The later operations' fold at the result buffer is outOf of what the valuation holds at the region's two result
    buffers and at the edge list: each operation reads the buffers written before it, and the gathers, scatters and
    the maximum stay folded throughout. -/
theorem tail_term (Wv : Valuation τ sig (Elt F)) :
    after (List.flatten [hostOps1, hostOps1_1, hostOps1_2]) Wv (main_v77 : DevRef τ sig)
      = Cert.KernelIdeal.Term.outOf (Wv (main_v19_0 : DevRef τ sig)) (Wv (main_v19_1 : DevRef τ sig)) (Wv (main_arg1 : DevRef τ sig)) := by
  simp only [hostOps1, hostOps1_1, hostOps1_2, List.flatten_cons, List.flatten_nil, List.append_nil, List.cons_append,
    List.nil_append]
  after_results_simp
  rfl

end Cert.KernelIdeal.Tail

end
-- ==== Proof.KRun.lean ====
/-
  The idealized kernel program's run with its result named: every weakly fair execution terminates, the result buffer
  holds the attention aggregation of x · W + b, its sixteen logits per node and the edge list, and the six argument
  arrays end as launched.
-/
import proofs.«125745_j54700703481984_2_alg».proof.Proof.KValue
import proofs.«125745_j54700703481984_2_alg».proof.Proof.KTail

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)
variable (hb' : S256.BroadcastsInDim S1x256 ![1]) (hB : S1x256.BroadcastsInDim S50000x256 ![0, 1])

/-- What the later operations leave in the result buffer: they read the region's two result arrays, which hold the
    projected rows and the logits, and the edge list, which nothing wrote. -/
theorem result_eq (c : Dev nD) :
    Pipeline.afterTail₀ cfgs (dats m) 0 (V0 m) [hostOps1, hostOps1_1, hostOps1_2] c main_v77
      = Cert.KernelIdeal.Term.outOf (F := Ideal) (projM m hb' hB c) (logitsM m hb' hB c) (m ((c : Thread nD τ).loc main_arg1)) := by
  unfold Pipeline.afterTail₀
  refine (Cert.KernelIdeal.Tail.tail_term _).trans ?_
  have e4 := (Pipeline.withArrays_arr spec0 launch0.win.arr_inj c (V0 m c) (fun w => (dats m 0 c).arrAt w cfg0.N) 4).trans (finalP m hb' hB c)
  have e5 := (Pipeline.withArrays_arr spec0 launch0.win.arr_inj c (V0 m c) (fun w => (dats m 0 c).arrAt w cfg0.N) 5).trans (finalL m hb' hB c)
  have e1 := (Pipeline.withArrays_of_ne spec0 c (V0 m c) (fun w => (dats m 0 c).arrAt w cfg0.N) main_arg1 (by decide)).trans (V_main_arg1 m c)
  exact congr (congr (congrArg (Cert.KernelIdeal.Term.outOf (F := Ideal)) e4) e5) e1

/-- The run, read. -/
theorem run : θ_run defs (onTc (τ := τ) (main (F := Ideal))) ⟨m, fun _ => 0, ρ⟩ (fun r => ∀ c : Dev nD,
      r.2.mem ((c.tc : Thread nD τ).loc main_v77)
        = Cert.KernelIdeal.Term.outOf (F := Ideal) (projM m hb' hB c) (logitsM m hb' hB c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v77 (Pipeline.mem_restRefs_of main_v77 (by decide) (by decide))).trans (result_eq m hb' hB c),
     ((h c).1 0).trans ((((dats m 0 c).arrAt_in 0 rfl _).trans ((A_eq m c 0).trans (V_main_arg0 m c)))),
     ((h c).2 main_arg1 (Pipeline.mem_restRefs_of main_arg1 (by decide) (by decide))).trans (W_main_arg1 m (dats m) c),
     ((h c).1 1).trans ((((dats m 0 c).arrAt_in 1 rfl _).trans ((A_eq m c 1).trans (V_main_arg2 m c)))),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.Val

end
-- ==== Proof.LibBlockSum.lean ====
/-
  A sum over n · d consecutive indices, cut into n consecutive blocks of d.

  The whole sum is the sum over the blocks of each block's sum, in any additive commutative monoid — in particular on
  the extended reals, where nothing needs to be finite: only commutativity and associativity of addition are used.
  Position j of block b is the index b · d + j.
-/
import Mathlib.Algebra.BigOperators.Fin
import Mathlib.Algebra.BigOperators.Intervals
import Mathlib.Logic.Equiv.Fin.Basic

namespace Cert.Lib.BlockSum

open Finset

/-- Position `j` of block `b`, as an index below `n * d`. -/
def pos (n d : Nat) (b : Fin n) (j : Fin d) : Fin (n * d) :=
  ⟨b.val * d + j.val, by
    have hj := j.isLt
    have h : (b.val + 1) * d ≤ n * d := Nat.mul_le_mul_right d b.isLt
    rw [Nat.succ_mul] at h
    omega⟩

@[simp] theorem pos_val (n d : Nat) (b : Fin n) (j : Fin d) : (pos n d b j).val = b.val * d + j.val := rfl

/-- The whole sum is the sum of the block sums. -/
theorem sum_blocks {M : Type*} [AddCommMonoid M] (n d : Nat) (f : Fin (n * d) → M) :
    ∑ k : Fin (n * d), f k = ∑ b : Fin n, ∑ j : Fin d, f (pos n d b j) := by
  rw [← Fintype.sum_prod_type']
  refine (Fintype.sum_equiv finProdFinEquiv _ _ (fun p => ?_)).symm
  congr 1
  apply Fin.ext
  simp [finProdFinEquiv, pos_val, Nat.mul_comm, Nat.add_comm]

end Cert.Lib.BlockSum
-- ==== Proof.Selector.lean ====
/-
  A weighted sum over one head's 32 channels, written as a sum over all 256 channels against a 0/1 selector.

  The 256 channels are 8 heads of 32 consecutive channels: channel c belongs to head c / 32. For a row h of 256
  extended reals, weights a, and a flag that is 1 on the channels of head k and 0 elsewhere,
      Σ_c h c · (flag c · a c)  =  Σ_f h (32·k + f) · a (32·k + f).
  Cut the sum into the 8 heads' blocks: in every block but k's each term is h · (0 · a) = 0, and in k's block each
  term is h · (1 · a) = h · a. Only 0 · x = 0, x · 0 = 0, 1 · x = x and the commutativity and associativity of
  addition are used, all of which hold on the extended reals with no finiteness assumption.
-/
import Mathlib.Data.EReal.Operations
import proofs.«125745_j54700703481984_2_alg».proof.Proof.LibBlockSum

namespace Cert.Selector

open Finset Cert.Lib.BlockSum

/-- The head of position f of block b is b. -/
theorem pos_div (b : Fin 8) (f : Fin 32) : (pos 8 32 b f).val / 32 = b.val := by
  rw [pos_val]; have := f.isLt; omega

/-- The place inside its head of position f of block b is f. -/
theorem pos_mod (b : Fin 8) (f : Fin 32) : (pos 8 32 b f).val % 32 = f.val := by
  rw [pos_val]; have := f.isLt; omega

/-- The sum over all channels against the selector of head k is the sum over head k's channels. -/
theorem selector_sum (h a flag : Fin (8 * 32) → EReal) (k : Fin 8)
    (hflag : ∀ c : Fin (8 * 32), flag c = if c.val / 32 = k.val then 1 else 0) :
    ∑ c : Fin (8 * 32), h c * (flag c * a c) = ∑ f : Fin 32, h (pos 8 32 k f) * a (pos 8 32 k f) := by
  rw [sum_blocks 8 32 (fun c => h c * (flag c * a c))]
  rw [Finset.sum_eq_single k]
  · refine Finset.sum_congr rfl fun f _ => ?_
    rw [hflag, if_pos (pos_div k f), one_mul]
  · intro b _ hb
    refine Finset.sum_eq_zero fun f _ => ?_
    rw [hflag, if_neg (by rw [pos_div]; exact fun h => hb (Fin.ext h)), zero_mul, mul_zero]
  · intro hk
    exact absurd (Finset.mem_univ k) hk

end Cert.Selector
-- ==== Proof.Logits.lean ====
/-
  One head's attention logit, two ways.

  For a row of 256 projected channels H(n, ·) and per-channel weights a laid out [1, 8, 32], head k's logit is
      Σ_f H(n, 32·k + f) · a(0, k, f).
  Computed on rows cut into heads it is that sum literally: multiply the [N, 8, 32] view of H by the weights stretched
  over the rows and add over the 32 places, starting from 0. Computed as a matrix product it is the contraction of
  the whole row against a selector column whose entry at channel c is the 0/1 flag "c is in head k" times the
  channel's weight: the terms outside head k vanish and those inside are H · a.
-/
import Idealize.ShloMosaic.PureOps.Ideal.Laws
import Idealize.ShloMosaic.Lib.ValueIdx
import Idealize.ShloMosaic.Lib.Pipeline.Value
import proofs.«125745_j54700703481984_2_alg».proof.Proof.LibPlainDot
import proofs.«125745_j54700703481984_2_alg».proof.Proof.Selector
import proofs.«125745_j54700703481984_2_alg».proof.Proof.Agg

noncomputable section

namespace Cert.Logits

open Idealize.ShloMosaic Idealize.ShloMosaic.ValueIdx Cert.Lib.PlainDot Cert.Lib.BlockSum Cert.Selector Cert.Agg

variable {N : Nat}

/-- The channel at place f of head k, as a channel number below 256. -/
def chan (k : Fin 8) (f : Fin 32) : Fin 256 := ⟨k.val * 32 + f.val, by have := k.isLt; have := f.isLt; omega⟩

theorem hd_chan (k : Fin 8) (f : Fin 32) : hd (chan k f) = k := Fin.ext (by
  show (k.val * 32 + f.val) / 32 = k.val
  have := f.isLt; omega)

theorem pl_chan (k : Fin 8) (f : Fin 32) : pl (chan k f) = f := Fin.ext (by
  show (k.val * 32 + f.val) % 32 = f.val
  have := f.isLt; omega)

/-- The sum over head k's places, added to 0 by the reduction over the last axis of the [N, 8, 32] view. -/
theorem headSum_apply (Hh : FVec Ideal ⟨2, ![N, 256]⟩ .f32) (a : FVec Ideal ⟨3, ![1, 8, 32]⟩ .f32)
    (hcast : (⟨2, ![N, 256]⟩ : Shape).ShapeCasts ⟨3, ![N, 8, 32]⟩)
    (hb : (⟨3, ![1, 8, 32]⟩ : Shape).BroadcastsInDim ⟨3, ![N, 8, 32]⟩ ![0, 1, 2])
    (hr' : (⟨3, ![N, 8, 32]⟩ : Shape).ReducesTo [2] ⟨2, ![N, 8]⟩) (hr : (⟨3, ![N, 8, 32]⟩ : Shape).Reduces [2] ⟨2, ![N, 8]⟩)
    (n : Fin N) (k : Fin 8) :
    Ideal.hostReduceAdd hr' (mulf (shapeCast ⟨3, ![N, 8, 32]⟩ Hh hcast) (broadcastInDim ⟨3, ![N, 8, 32]⟩ ![0, 1, 2] hb a))
        (Ideal.ofBits .f32 0x00000000#32) (ix2 n k)
      = ∑ f : Fin 32, Hh (ix2 n (chan k f)) * a (ix3 (0 : Fin 1) k f) := by
  rw [Ideal.hostReduceAdd_single hr' hr, Ideal.ofBits_zero_f32, zero_add]
  show (∑ f : Fin 32, _) = _
  refine Finset.sum_congr rfl fun (f : Fin 32) _ => ?_
  have hn := n.isLt
  have elift : hr.lift (ix2 n k) f = ix3 n (hd (chan k f)) (pl (chan k f)) := by
    rw [hd_chan, pl_chan]
    funext c
    refine Fin.ext ?_
    match c with
    | ⟨0, _⟩ => rfl
    | ⟨1, _⟩ => rfl
    | ⟨2, _⟩ => rfl
  rw [mulf_apply, elift, cut_apply Hh hcast n (chan k f), hd_chan, pl_chan]
  congr 1
  exact broadcastInDim_apply _ hb a (ix3 n k f) (ix3 (0 : Fin 1) k f) (fun c => by
    match c with
    | ⟨0, _⟩ => rfl
    | ⟨1, _⟩ => rfl
    | ⟨2, _⟩ => rfl)

/-- The contraction of row n against a selector column of head k is the sum over head k's places. -/
theorem selectorColumn_apply (Hh : FVec Ideal ⟨2, ![N, 256]⟩ .f32) (sel : FVec Ideal ⟨2, ![256, 16]⟩ .f32)
    (a : FVec Ideal ⟨3, ![1, 8, 32]⟩ .f32) (j : Fin 16) (k : Fin 8)
    (hsel : ∀ c : Fin 256, sel (ix2 c j) = (if c.val / 32 = k.val then (1 : EReal) else 0) * a (ix3 (0 : Fin 1) (hd c) (pl c)))
    (n : Fin N) :
    mm Hh sel (ix2 n j) = ∑ f : Fin 32, Hh (ix2 n (chan k f)) * a (ix3 (0 : Fin 1) k f) := by
  unfold mm
  have e1 : ∀ c : Fin 256, (rowIdx (ix2 n j) c : (⟨2, ![N, 256]⟩ : Shape).Idx) = ix2 n c := fun c => funext fun b => by
    match b with
    | ⟨0, _⟩ => rfl
    | ⟨1, _⟩ => rfl
  have e2 : ∀ c : Fin 256, (colIdx (ix2 n j) c : (⟨2, ![256, 16]⟩ : Shape).Idx) = ix2 c j := fun c => funext fun b => by
    match b with
    | ⟨0, _⟩ => rfl
    | ⟨1, _⟩ => rfl
  simp only [e1, e2, hsel]
  refine (selector_sum (fun c => Hh (ix2 n c)) (fun c => a (ix3 (0 : Fin 1) (hd c) (pl c)))
    (fun c => if c.val / 32 = k.val then (1 : EReal) else 0) k (fun _ => rfl)).trans ?_
  refine Finset.sum_congr rfl fun f _ => ?_
  have hp : (pos 8 32 k f : Fin 256) = chan k f := Fin.ext rfl
  rw [hp, hd_chan, pl_chan]

end Cert.Logits

end
-- ==== Proof.KLogits.lean ====
/-
  The kernel's source and target logits, read at (node, head).

  The sixteen logits per node are the projected rows times the selector matrix; columns 0 … 7 are sliced off as the
  source logits and columns 8 … 15 as the target logits. Column k of the first slice is the contraction of the
  node's row against the source selector column of head k, which is the sum over head k's 32 places of the row's
  entry times the source weight; likewise the second slice with the target weights.
-/
import proofs.«125745_j54700703481984_2_alg».proof.Proof.KPay
import proofs.«125745_j54700703481984_2_alg».proof.Proof.HeadMatrix
import proofs.«125745_j54700703481984_2_alg».proof.Proof.Logits

noncomputable section

namespace Cert.KernelIdeal.KLogits

open Cert.KernelIdeal Cert.KernelIdeal.Gen Idealize.ShloMosaic Idealize.ShloMosaic.ValueIdx
open Cert.KernelIdeal.Pay Cert.KernelIdeal.Head Cert.Logits Cert.Agg

variable (hb' : S256.BroadcastsInDim S1x256 ![1]) (hB : S1x256.BroadcastsInDim S50000x256 ![0, 1])
  (X : FVec Ideal S50000x256 .f32) (W : FVec Ideal S256x256 .f32) (b : FVec Ideal S256 .f32)
  (a1 a2 : FVec Ideal S1x8x32 .f32)

/-- Entry (n, j) of the sixteen logits is the contraction of row n against selector column j. -/
theorem logitsOf_apply (sel : FVec Ideal S256x16 .f32) (n : Fin 50000) (j : Fin 16) :
    logitsOf hb' hB X W b sel (ix2 n j) = Cert.Lib.PlainDot.mm (projOf hb' hB X W b) sel (ix2 n j) := by
  unfold logitsOf Host.dotGeneral
  exact Cert.Lib.PlainDot.dotGeneral_apply (DotDims.plain 50000 256 16) rfl none _ (projOf hb' hB X W b) sel (ix2 n j)

/-- The source logit of node n and head k. -/
theorem srcLogit_apply (n : Fin 50000) (k : Fin 8) :
    extractStridedSlice S50000x8 ![0, 0] (logitsOf hb' hB X W b (selOf a1 a2)) slices_S50000x16_S50000x8_0_0 (ix2 n k)
      = ∑ f : Fin 32, projOf hb' hB X W b (ix2 n (chan k f)) * a1 (ix3 (0 : Fin 1) k f) := by
  rw [extractStridedSlice_apply ![0, 0] _ slices_S50000x16_S50000x8_0_0 (ix2 n k)
    (ix2 n (⟨k.val, by have := k.isLt; omega⟩ : Fin 16)) (fun a => by
      match a with
      | ⟨0, _⟩ => show n.val = 0 + n.val; omega
      | ⟨1, _⟩ => show k.val = 0 + k.val; omega)]
  rw [logitsOf_apply]
  exact selectorColumn_apply (projOf hb' hB X W b) (selOf a1 a2) a1 _ k (fun c => selOf_src a1 a2 c k) n

/-- The target logit of node n and head k. -/
theorem trgLogit_apply (n : Fin 50000) (k : Fin 8) :
    extractStridedSlice S50000x8 ![0, 8] (logitsOf hb' hB X W b (selOf a1 a2)) slices_S50000x16_S50000x8_0_8 (ix2 n k)
      = ∑ f : Fin 32, projOf hb' hB X W b (ix2 n (chan k f)) * a2 (ix3 (0 : Fin 1) k f) := by
  rw [extractStridedSlice_apply ![0, 8] _ slices_S50000x16_S50000x8_0_8 (ix2 n k)
    (ix2 n (⟨8 + k.val, by have := k.isLt; omega⟩ : Fin 16)) (fun a => by
      match a with
      | ⟨0, _⟩ => show n.val = 0 + n.val; omega
      | ⟨1, _⟩ => show 8 + k.val = 8 + k.val; rfl)]
  rw [logitsOf_apply]
  exact selectorColumn_apply (projOf hb' hB X W b) (selOf a1 a2) a2 _ k (fun c => selOf_trg a1 a2 c k) n

end Cert.KernelIdeal.KLogits

end
-- ==== Proof.Bridge.lean ====
/-
  The two programs compute one function.

  Both start from the projected rows H = x · W + b of all 50000 nodes. The kernel side gets each node's source and
  target logits as a product with the selector matrix, the reference as sums over each head's 32 places of the rows cut
  into heads: the same numbers (the terms outside a head vanish against the 0/1 selector). From the logits to the
  attention weights both apply the same operations in the same order to the same arrays. The last step, summing the
  weighted source rows into their targets, is done on flat rows on one side and on rows cut into heads on the other,
  and agrees entry by entry.
-/
import proofs.«125745_j54700703481984_2_alg».proof.Proof.KLogits
import proofs.«125745_j54700703481984_2_alg».proof.Proof.KernelTerm
import proofs.«125745_j54700703481984_2_alg».proof.Proof.RefRun
import proofs.«125745_j54700703481984_2_alg».proof.Proof.Agg
import proofs.«125745_j54700703481984_2_alg».proof.Proof.Logits

noncomputable section

namespace Cert.Bridge2

open Idealize.ShloMosaic Idealize.ShloMosaic.ValueIdx

section Same
variable {F : FTy → Type} [FloatOps F]

attribute [local irreducible] Host.gather Host.scatterAdd Host.reduce Host.reduceAdd

/-- The edges' sources are spelt alike in the two programs. -/
theorem src_same (ei : IVec Cert.KernelIdeal.S2x800000 32) : Cert.KernelIdeal.Term.srcOf ei = Cert.ReferenceIdeal.RefRun.srcOf ei := rfl
/-- The edges' targets likewise. -/
theorem trg_same (ei : IVec Cert.KernelIdeal.S2x800000 32) : Cert.KernelIdeal.Term.trgOf ei = Cert.ReferenceIdeal.RefRun.trgOf ei := rfl
/-- The gather index columns likewise. -/
theorem wrap_same (s : IVec Cert.KernelIdeal.S850000 32) : Cert.KernelIdeal.Term.wrapOf s = Cert.ReferenceIdeal.RefRun.wrapOf s := rfl
/-- From the logits to the attention weights the two programs apply the same operations. -/
theorem alpha_same (hs ht : FVec F Cert.KernelIdeal.S50000x8 .f32) (s t : IVec Cert.KernelIdeal.S850000 32) :
    Cert.KernelIdeal.Term.alphaOf (F := F) hs ht s t = Cert.ReferenceIdeal.RefRun.alphaOf (F := F) hs ht s t := rfl

end Same

open Cert.KernelIdeal.Pay Cert.KernelIdeal.Head Cert.KernelIdeal.KLogits Cert.Logits Cert.Agg

/-- The reference's broadcast facts for the bias, which the whole-array form of the kernel's rows is stated with. -/
abbrev hb' : Cert.KernelIdeal.S256.BroadcastsInDim Cert.KernelIdeal.S1x256 ![1] := Cert.ReferenceIdeal.Facts₀.bcast_S256_S1x256_1
abbrev hB : Cert.KernelIdeal.S1x256.BroadcastsInDim Cert.KernelIdeal.S50000x256 ![0, 1] := Cert.ReferenceIdeal.Facts₀.bcast_S1x256_S50000x256_0_1

variable (x : FVec Ideal Cert.KernelIdeal.S50000x256 .f32) (ei : IVec Cert.KernelIdeal.S2x800000 32) (W : FVec Ideal Cert.KernelIdeal.S256x256 .f32)
  (b : FVec Ideal Cert.KernelIdeal.S256 .f32) (a1 a2 : FVec Ideal Cert.KernelIdeal.S1x8x32 .f32)

/-- The projected rows are the reference's linear layer. -/
theorem proj_same : projOf hb' hB x W b = Cert.ReferenceIdeal.RefRun.hOf (F := Ideal) x W b := rfl

/-- The reference's logit of node n and head k is the sum over the head's places. -/
theorem refLogit_apply (a : FVec Ideal Cert.KernelIdeal.S1x8x32 .f32) (n : Fin 50000) (k : Fin 8) :
    Cert.ReferenceIdeal.RefRun.logitOf (F := Ideal)
        (shapeCast Cert.ReferenceIdeal.S50000x8x32 (projOf hb' hB x W b) Cert.ReferenceIdeal.Facts₀.shapeCasts_S50000x256_S50000x8x32) a (ix2 n k)
      = ∑ f : Fin 32, projOf hb' hB x W b (ix2 n (chan k f)) * a (ix3 (0 : Fin 1) k f) :=
  headSum_apply (N := 50000) (projOf hb' hB x W b) a Cert.ReferenceIdeal.Facts₀.shapeCasts_S50000x256_S50000x8x32
    Cert.ReferenceIdeal.Facts₀.bcast_S1x8x32_S50000x8x32_0_1_2 Cert.ReferenceIdeal.Facts₀.reducesTo_S50000x8x32_S50000x8_d2 (by decide) n k

/-- The kernel's source logits are the reference's. -/
theorem srcLogits_same :
    extractStridedSlice Cert.KernelIdeal.S50000x8 ![0, 0] (logitsOf hb' hB x W b (selOf a1 a2)) Cert.KernelIdeal.Facts₀.slices_S50000x16_S50000x8_0_0
      = Cert.ReferenceIdeal.RefRun.logitOf (F := Ideal)
          (shapeCast Cert.ReferenceIdeal.S50000x8x32 (projOf hb' hB x W b) Cert.ReferenceIdeal.Facts₀.shapeCasts_S50000x256_S50000x8x32) a1 := by
  funext i
  obtain ⟨n, k, rfl⟩ : ∃ (n : Fin 50000) (k : Fin 8), i = ix2 n k := ⟨i 0, i 1, eq_ix2 i⟩
  rw [srcLogit_apply, refLogit_apply]

/-- The kernel's target logits are the reference's. -/
theorem trgLogits_same :
    extractStridedSlice Cert.KernelIdeal.S50000x8 ![0, 8] (logitsOf hb' hB x W b (selOf a1 a2)) Cert.KernelIdeal.Facts₀.slices_S50000x16_S50000x8_0_8
      = Cert.ReferenceIdeal.RefRun.logitOf (F := Ideal)
          (shapeCast Cert.ReferenceIdeal.S50000x8x32 (projOf hb' hB x W b) Cert.ReferenceIdeal.Facts₀.shapeCasts_S50000x256_S50000x8x32) a2 := by
  funext i
  obtain ⟨n, k, rfl⟩ : ∃ (n : Fin 50000) (k : Fin 8), i = ix2 n k := ⟨i 0, i 1, eq_ix2 i⟩
  rw [trgLogit_apply, refLogit_apply]

/-- The aggregation on flat rows is the aggregation on rows cut into heads, laid flat. -/
theorem agg_same (al : FVec Ideal Cert.KernelIdeal.S850000x8 .f32) (s t : IVec Cert.KernelIdeal.S850000 32) :
    Cert.KernelIdeal.Term.aggOf (F := Ideal) (projOf hb' hB x W b) al s t
      = Cert.ReferenceIdeal.RefRun.aggOf (F := Ideal)
          (shapeCast Cert.ReferenceIdeal.S50000x8x32 (projOf hb' hB x W b) Cert.ReferenceIdeal.Facts₀.shapeCasts_S50000x256_S50000x8x32) al s t := by
  unfold Cert.KernelIdeal.Term.aggOf Cert.ReferenceIdeal.RefRun.aggOf
  rw [← wrap_same]
  exact agg_eq (N := 50000) (E := 850000) (by decide)
    Cert.KernelIdeal.scatter_S50000x256_S850000x1_S850000x256_1_0_0_1 Cert.KernelIdeal.Facts₀.scatter_S50000x256_S850000x1_S850000x256_1_0_0_1_wf rfl
    Cert.KernelIdeal.gather_S50000x256_S850000x1_S850000x256_1_0_n_n_0_1_1256 Cert.KernelIdeal.Facts₀.gather_S50000x256_S850000x1_S850000x256_1_0_n_n_0_1_1256_wf rfl
    Cert.ReferenceIdeal.scatter_S50000x8x32_S850000x1_S850000x8x32_12_0_0_1 Cert.ReferenceIdeal.Facts₀.scatter_S50000x8x32_S850000x1_S850000x8x32_12_0_0_1_wf rfl
    Cert.ReferenceIdeal.gather_S50000x8x32_S850000x1_S850000x8x32_12_0_n_n_0_1_1832 Cert.ReferenceIdeal.Facts₀.gather_S50000x8x32_S850000x1_S850000x8x32_12_0_n_n_0_1_1832_wf rfl
    Cert.KernelIdeal.Facts₀.bcast_S_S50000x256 Cert.ReferenceIdeal.Facts₀.bcast_S_S50000x8x32
    Cert.ReferenceIdeal.Facts₀.shapeCasts_S50000x256_S50000x8x32 Cert.KernelIdeal.Facts₀.shapeCasts_S850000x256_S850000x8x32
    Cert.KernelIdeal.Facts₀.shapeCasts_S850000x8x32_S850000x256 Cert.ReferenceIdeal.Facts₀.shapeCasts_S50000x8x32_S50000x256
    Cert.KernelIdeal.Facts₀.bcast_S850000x8_S850000x8x1_0_1 Cert.KernelIdeal.Facts₀.bcast_S850000x8x1_S850000x8x32_0_1_2
    Cert.KernelIdeal.Facts₀.bitsLt_bf16_f32
    (projOf hb' hB x W b) (projOf hb' hB x W b) (fun _ => rfl) al (Cert.KernelIdeal.Term.wrapOf s) (Cert.KernelIdeal.Term.colOf t)

/-- THE BRIDGE: the kernel side's result, from the closed forms of the region's two arrays, is the reference's staged
    term of the same six argument arrays. -/
theorem out_same :
    Cert.KernelIdeal.Term.outOf (F := Ideal) (projOf hb' hB x W b) (logitsOf hb' hB x W b (selOf a1 a2)) ei
      = (let h3 := shapeCast Cert.ReferenceIdeal.S50000x8x32 (Cert.ReferenceIdeal.RefRun.hOf (F := Ideal) x W b) Cert.ReferenceIdeal.Facts₀.shapeCasts_S50000x256_S50000x8x32
         Cert.ReferenceIdeal.RefRun.aggOf (F := Ideal) h3
           (Cert.ReferenceIdeal.RefRun.alphaOf (F := Ideal) (Cert.ReferenceIdeal.RefRun.logitOf (F := Ideal) h3 a1) (Cert.ReferenceIdeal.RefRun.logitOf (F := Ideal) h3 a2) (Cert.ReferenceIdeal.RefRun.srcOf ei) (Cert.ReferenceIdeal.RefRun.trgOf ei))
           (Cert.ReferenceIdeal.RefRun.srcOf ei) (Cert.ReferenceIdeal.RefRun.trgOf ei)) := by
  unfold Cert.KernelIdeal.Term.outOf
  rw [srcLogits_same, trgLogits_same, alpha_same, agg_same, src_same, trg_same]
  rfl

open Idealize.ShloMosaic.TcCoe in
/-- The reference's result buffer, from any valuation that holds the six argument arrays, is the kernel side's term of
    them. -/
theorem ref_value (V : Valuation Cert.ReferenceIdeal.τ Cert.ReferenceIdeal.sig (Elt Ideal))
    (h0 : V (Cert.ReferenceIdeal.main_arg0 : DevRef Cert.ReferenceIdeal.τ Cert.ReferenceIdeal.sig) = x) (h1 : V (Cert.ReferenceIdeal.main_arg1 : DevRef Cert.ReferenceIdeal.τ Cert.ReferenceIdeal.sig) = ei)
    (h2 : V (Cert.ReferenceIdeal.main_arg2 : DevRef Cert.ReferenceIdeal.τ Cert.ReferenceIdeal.sig) = W) (h3 : V (Cert.ReferenceIdeal.main_arg3 : DevRef Cert.ReferenceIdeal.τ Cert.ReferenceIdeal.sig) = b)
    (h4 : V (Cert.ReferenceIdeal.main_arg4 : DevRef Cert.ReferenceIdeal.τ Cert.ReferenceIdeal.sig) = a1) (h5 : V (Cert.ReferenceIdeal.main_arg5 : DevRef Cert.ReferenceIdeal.τ Cert.ReferenceIdeal.sig) = a2) :
    StableHlo.after (Cert.ReferenceIdeal.RefRun.ops (F := Ideal)) V (Cert.ReferenceIdeal.main_v64 : DevRef Cert.ReferenceIdeal.τ Cert.ReferenceIdeal.sig)
      = Cert.KernelIdeal.Term.outOf (F := Ideal) (projOf hb' hB x W b) (logitsOf hb' hB x W b (selOf a1 a2)) ei := by
  rw [Cert.ReferenceIdeal.RefRun.out_eq, h0, h1, h2, h3, h4, h5]
  exact (out_same x ei W b a1 a2).symm

end Cert.Bridge2

end
-- ==== Proof.lean ====
/-
  The certificate's five claims.

  The three frames: the word-level kernel program and its idealization each run their one region over the 25 row
  blocks and the host operations around it, leaving the six argument arrays as launched; the reference is a straight
  line of host operations, none of which writes an argument. The idealization rewrote nothing, so there is nothing to
  preserve. The algebraic claim: at the ideal values the kernel program ends with the attention aggregation computed
  from x · W + b and its sixteen logits per node, the reference with the same function of the same arguments.
-/
import proofs.«125745_j54700703481984_2_alg».proof.Defs
import proofs.«125745_j54700703481984_2_alg».proof.Proof.Gen.Kernel
import proofs.«125745_j54700703481984_2_alg».proof.Proof.Gen.KernelIdeal
import proofs.«125745_j54700703481984_2_alg».proof.Proof.Gen.ReferenceIdeal
import proofs.«125745_j54700703481984_2_alg».proof.Proof.Gen.Pre_finite_inputs
import proofs.«125745_j54700703481984_2_alg».proof.Proof.FrameBits
import proofs.«125745_j54700703481984_2_alg».proof.Proof.FrameIdeal
import proofs.«125745_j54700703481984_2_alg».proof.Proof.RefRun
import proofs.«125745_j54700703481984_2_alg».proof.Proof.KRun
import proofs.«125745_j54700703481984_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Fr.frame m ρ

theorem frame_kernelIdeal : Cert.frame_KernelIdeal := fun m ρ _ => Cert.KernelIdeal.Fr.frame m ρ

/-- The reference's arguments are written by none of its operations. -/
theorem frame_reference : Cert.frame_ReferenceIdeal := fun m ρ _ =>
  (θ_run Cert.ReferenceIdeal.defs _ _).mono (fun _ h c =>
    ⟨(h c Cert.ReferenceIdeal.main_arg0).trans (Cert.ReferenceIdeal.RefRun.arg0_eq _), (h c Cert.ReferenceIdeal.main_arg1).trans (Cert.ReferenceIdeal.RefRun.arg1_eq _),
     (h c Cert.ReferenceIdeal.main_arg2).trans (Cert.ReferenceIdeal.RefRun.arg2_eq _), (h c Cert.ReferenceIdeal.main_arg3).trans (Cert.ReferenceIdeal.RefRun.arg3_eq _),
     (h c Cert.ReferenceIdeal.main_arg4).trans (Cert.ReferenceIdeal.RefRun.arg4_eq _), (h c Cert.ReferenceIdeal.main_arg5).trans (Cert.ReferenceIdeal.RefRun.arg5_eq _)⟩)
    (Cert.ReferenceIdeal.RefRun.run_main (F := Ideal) m ρ)

theorem preserves : Cert.preserves_Kernel_KernelIdeal := trivial

/-- Both programs end with the attention aggregation of the same six arrays. -/
theorem algebraic : Cert.algebraic_KernelIdeal_ReferenceIdeal := by
  intro m ρ m' ρ' _ hagree
  refine ⟨_, Cert.KernelIdeal.Val.run m ρ Cert.Bridge2.hb' Cert.Bridge2.hB, ?_⟩
  refine (θ_run Cert.ReferenceIdeal.defs _ _).mono (fun _ h c => ⟨(h c Cert.ReferenceIdeal.main_v64).trans ?_,
      (h c Cert.ReferenceIdeal.main_arg0).trans (Cert.ReferenceIdeal.RefRun.arg0_eq _), (h c Cert.ReferenceIdeal.main_arg1).trans (Cert.ReferenceIdeal.RefRun.arg1_eq _),
      (h c Cert.ReferenceIdeal.main_arg2).trans (Cert.ReferenceIdeal.RefRun.arg2_eq _), (h c Cert.ReferenceIdeal.main_arg3).trans (Cert.ReferenceIdeal.RefRun.arg3_eq _),
      (h c Cert.ReferenceIdeal.main_arg4).trans (Cert.ReferenceIdeal.RefRun.arg4_eq _), (h c Cert.ReferenceIdeal.main_arg5).trans (Cert.ReferenceIdeal.RefRun.arg5_eq _)⟩)
    (Cert.ReferenceIdeal.RefRun.run_main (F := Ideal) m' ρ')
  obtain ⟨h0, h1, h2, h3, h4, h5⟩ := hagree c
  exact Cert.Bridge2.ref_value _ _ _ _ _ _ _ h0 h1 h2 h3 h4 h5

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
